-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x128x128 : Shape := ⟨3, ![3, 128, 128]⟩
abbrev S3x128 : Shape := ⟨2, ![3, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  main_v18

def fn {F : FTy → Type} [FloatOps F] (main_arg0 : FVec F S50000x128 .f32) (main_arg1 : FVec F S3x128x128 .f32) (main_arg2 : FVec F S3x128 .f32) (main_arg3 : FVec F S3x128x128 .f32) (main_arg4 : IVec S800000 32) (main_arg5 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg3
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_v13 main_v16
-- ==== Kernel.lean ====
abbrev S50000x128 : Shape := ⟨2, ![50000, 128]⟩
abbrev S3x128x128 : Shape := ⟨3, ![3, 128, 128]⟩
abbrev S3x128 : Shape := ⟨2, ![3, 128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x384 : Shape := ⟨2, ![50000, 384]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩
abbrev S2000x1 : Shape := ⟨2, ![2000, 1]⟩
abbrev S50000x3x128 : Shape := ⟨3, ![50000, 3, 128]⟩

abbrev nBuf : Space → Nat
  | .hbm => 101
  | .vmem => 45
  | .smem => 0
  | _ => 0

abbrev bufTy : (tb : Table) → Fin (tcTables nBuf tb) → BufTy
  | .hbm, ⟨0, _⟩ => ⟨S50000x128, .f32⟩
  | .hbm, ⟨1, _⟩ => ⟨S3x128x128, .f32⟩
  | .hbm, ⟨2, _⟩ => ⟨S3x128, .f32⟩
  | .hbm, ⟨3, _⟩ => ⟨S3x128x128, .f32⟩
  | .hbm, ⟨4, _⟩ => ⟨S800000, .i32⟩
  | .hbm, ⟨5, _⟩ => ⟨S800000, .i32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .i1⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .f32⟩
  | .hbm, ⟨27, _⟩ => ⟨S50000x384, .f32⟩
  | .hbm, ⟨28, _⟩ => ⟨S50000x128, .bf16⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .bf16⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S1x128x128, .f32⟩
  | .hbm, ⟨44, _⟩ => ⟨S128x128, .f32⟩
  | .hbm, ⟨45, _⟩ => ⟨S1x128, .f32⟩
  | .hbm, ⟨46, _⟩ => ⟨S128, .f32⟩
  | .hbm, ⟨47, _⟩ => ⟨S1x128x128, .f32⟩
  | .hbm, ⟨48, _⟩ => ⟨S128x128, .f32⟩
  | .hbm, ⟨49, _⟩ => ⟨S1x128, .f32⟩
  | .hbm, ⟨50, _⟩ => ⟨S50000x384, .f32⟩
  | .hbm, ⟨51, _⟩ => ⟨S50000x128, .f32⟩
  | .hbm, ⟨52, _⟩ => ⟨S50000x128, .bf16⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .bf16⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S1x128x128, .f32⟩
  | .hbm, ⟨68, _⟩ => ⟨S128x128, .f32⟩
  | .hbm, ⟨69, _⟩ => ⟨S1x128, .f32⟩
  | .hbm, ⟨70, _⟩ => ⟨S128, .f32⟩
  | .hbm, ⟨71, _⟩ => ⟨S1x128x128, .f32⟩
  | .hbm, ⟨72, _⟩ => ⟨S128x128, .f32⟩
  | .hbm, ⟨73, _⟩ => ⟨S1x128, .f32⟩
  | .hbm, ⟨74, _⟩ => ⟨S50000x384, .f32⟩
  | .hbm, ⟨75, _⟩ => ⟨S50000x128, .f32⟩
  | .hbm, ⟨76, _⟩ => ⟨S50000x128, .bf16⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .bf16⟩
  | .hbm, ⟨86, _⟩ => ⟨S800000x128, .f32⟩
  | .hbm, ⟨87, _⟩ => ⟨S_, .f32⟩
  | .hbm, ⟨88, _⟩ => ⟨S50000x128, .f32⟩
  | .hbm, ⟨89, _⟩ => ⟨S800000x1, .i32⟩
  | .hbm, ⟨90, _⟩ => ⟨S50000x128, .f32⟩
  | .hbm, ⟨91, _⟩ => ⟨S1x128x128, .f32⟩
  | .hbm, ⟨92, _⟩ => ⟨S128x128, .f32⟩
  | .hbm, ⟨93, _⟩ => ⟨S1x128, .f32⟩
  | .hbm, ⟨94, _⟩ => ⟨S128, .f32⟩
  | .hbm, ⟨95, _⟩ => ⟨S1x128x128, .f32⟩
  | .hbm, ⟨96, _⟩ => ⟨S128x128, .f32⟩
  | .hbm, ⟨97, _⟩ => ⟨S1x128, .f32⟩
  | .hbm, ⟨98, _⟩ => ⟨S50000x384, .f32⟩
  | .hbm, ⟨99, _⟩ => ⟨S50000x128, .f32⟩
  | .hbm, ⟨100, _⟩ => ⟨S50000x3x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S2000x128, .f32⟩
  | .local _ .vmem, ⟨20, _⟩ => ⟨S2000x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x1, .f32⟩
  | .local _ .vmem, ⟨33, _⟩ => ⟨S2000x1, .f32⟩
  | .local _ .vmem, ⟨34, _⟩ => ⟨S2000x128, .f32⟩
  | .local _ .vmem, ⟨35, _⟩ => ⟨S2000x128, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v10 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_6 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32_0 : Ref sig .tc := ⟨.hbm, 50, rfl⟩
abbrev main_v32_1 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_c_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52_0 : Ref sig .tc := ⟨.hbm, 74, rfl⟩
abbrev main_v52_1 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72_0 : Ref sig .tc := ⟨.hbm, 98, rfl⟩
abbrev main_v72_1 : Ref sig .tc := ⟨.hbm, 99, rfl⟩
abbrev main_v73 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg6_1 : Ref sig .tc := ⟨.vmem, 40, rfl⟩
abbrev cc2_stg7_0 : Ref sig .tc := ⟨.vmem, 41, rfl⟩
abbrev cc2_stg7_1 : Ref sig .tc := ⟨.vmem, 42, rfl⟩
abbrev cc2_stg8_0 : Ref sig .tc := ⟨.vmem, 43, rfl⟩
abbrev cc2_stg8_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem6_1 : DmaSem sig := 40
abbrev cc2_sem7_0 : DmaSem sig := 41
abbrev cc2_sem7_1 : DmaSem sig := 42
abbrev cc2_sem8_0 : DmaSem sig := 43
abbrev cc2_sem8_1 : DmaSem sig := 44

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_7 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c2_i32 : BitVec 32 := 2#32
  let c0_i32 : BitVec 32 := 0#32
  ![arg0.toNat, c2_i32.toNat]

def cc2_transform_7 (i : grid2.Coords) : Fin 2 → Nat :=
  let arg0 : BitVec 32 := BitVec.ofNat 32 (i 0).val
  let c2_i32 : BitVec 32 := 2#32
  let c0_i32 : BitVec 32 := 0#32
  ![arg0.toNat, c2_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x384 : S_.BroadcastsInDim S50000x384 (![] : Fin 0 → Fin S50000x384.rank)
  bitsLt_bf16_f32 : FTy.bits .bf16 < FTy.bits .f32
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S50000x384_S50000x3x128 : S50000x384.ShapeCasts S50000x3x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x384.size a
  hwx0_6 : ∀ i : grid0.Coords, EltTy.bits .f32 = 32 ∨ (Rect.block (s := S50000x384) S2000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x384.size a
  hwx0_7 : ∀ i : grid0.Coords, EltTy.bits .f32 = 32 ∨ (Rect.block (s := S50000x384) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x384.size a
  hwx1_6 : ∀ i : grid1.Coords, EltTy.bits .f32 = 32 ∨ (Rect.block (s := S50000x384) S2000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x384.size a
  hwx1_7 : ∀ i : grid1.Coords, EltTy.bits .f32 = 32 ∨ (Rect.block (s := S50000x384) S2000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x384.size a
  hwx2_6 : ∀ i : grid2.Coords, EltTy.bits .f32 = 32 ∨ (Rect.block (s := S50000x384) S2000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x384.size a
  hwx2_7 : ∀ i : grid2.Coords, EltTy.bits .f32 = 32 ∨ (Rect.block (s := S50000x384) S2000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S50000x128.size a
  hwx2_8 : ∀ i : grid2.Coords, EltTy.bits .f32 = 32 ∨ (Rect.block (s := S50000x128) S2000x128.size (cc2_transform_8 i) (hinb2_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S2000x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v32_0) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v32_1) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32_1) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32_0) S2000x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v52_0) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v52_1) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v64) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52_1) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v66) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52_0) S2000x128.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v72_0) S2000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v72_1) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where
  halias0_7 : Pipeline.Aliased win0 6 7
  halias1_7 : Pipeline.Aliased win1 6 7
  halias2_7 : Pipeline.Aliased win2 6 7

variable [Facts]
-- ==== ReferenceIdeal.lean ====
abbrev S50000x128 : Shape := ⟨2, ![50000, 128]⟩
abbrev S3x128x128 : Shape := ⟨3, ![3, 128, 128]⟩
abbrev S3x128 : Shape := ⟨2, ![3, 128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x1x128 : Shape := ⟨3, ![50000, 1, 128]⟩
abbrev S50000x3x128 : Shape := ⟨3, ![50000, 3, 128]⟩

abbrev nBuf : Space → Nat
  | .hbm => 117
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S3x128x128, .f32⟩
  | .hbm, ⟨2, _⟩ => ⟨S3x128, .f32⟩
  | .hbm, ⟨3, _⟩ => ⟨S3x128x128, .f32⟩
  | .hbm, ⟨4, _⟩ => ⟨S800000, .i32⟩
  | .hbm, ⟨5, _⟩ => ⟨S800000, .i32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .i1⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S1x128x128, .f32⟩
  | .hbm, ⟨42, _⟩ => ⟨S128x128, .f32⟩
  | .hbm, ⟨43, _⟩ => ⟨S50000x128, .f32⟩
  | .hbm, ⟨44, _⟩ => ⟨S1x128, .f32⟩
  | .hbm, ⟨45, _⟩ => ⟨S128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S1x128x128, .f32⟩
  | .hbm, ⟨50, _⟩ => ⟨S128x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x128x128, .f32⟩
  | .hbm, ⟨72, _⟩ => ⟨S128x128, .f32⟩
  | .hbm, ⟨73, _⟩ => ⟨S50000x128, .f32⟩
  | .hbm, ⟨74, _⟩ => ⟨S1x128, .f32⟩
  | .hbm, ⟨75, _⟩ => ⟨S128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S1x128x128, .f32⟩
  | .hbm, ⟨80, _⟩ => ⟨S128x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x128, .f32⟩
  | .hbm, ⟨95, _⟩ => ⟨S_, .f32⟩
  | .hbm, ⟨96, _⟩ => ⟨S50000x128, .f32⟩
  | .hbm, ⟨97, _⟩ => ⟨S800000x1, .i32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S1x128x128, .f32⟩
  | .hbm, ⟨102, _⟩ => ⟨S128x128, .f32⟩
  | .hbm, ⟨103, _⟩ => ⟨S50000x128, .f32⟩
  | .hbm, ⟨104, _⟩ => ⟨S1x128, .f32⟩
  | .hbm, ⟨105, _⟩ => ⟨S128, .f32⟩
  | .hbm, ⟨106, _⟩ => ⟨S1x128, .f32⟩
  | .hbm, ⟨107, _⟩ => ⟨S50000x128, .f32⟩
  | .hbm, ⟨108, _⟩ => ⟨S50000x128, .f32⟩
  | .hbm, ⟨109, _⟩ => ⟨S1x128x128, .f32⟩
  | .hbm, ⟨110, _⟩ => ⟨S128x128, .f32⟩
  | .hbm, ⟨111, _⟩ => ⟨S50000x128, .f32⟩
  | .hbm, ⟨112, _⟩ => ⟨S50000x128, .f32⟩
  | .hbm, ⟨113, _⟩ => ⟨S50000x1x128, .f32⟩
  | .hbm, ⟨114, _⟩ => ⟨S50000x1x128, .f32⟩
  | .hbm, ⟨115, _⟩ => ⟨S50000x1x128, .f32⟩
  | .hbm, ⟨116, _⟩ => ⟨S50000x3x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call1_cst : Ref sig .tc := ⟨.hbm, 53, rfl⟩
abbrev main_call1_v0 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_call2_cst : Ref sig .tc := ⟨.hbm, 83, rfl⟩
abbrev main_call2_v0 : Ref sig .tc := ⟨.hbm, 84, rfl⟩
abbrev main_v61 : Ref sig .tc := ⟨.hbm, 85, rfl⟩
abbrev main_c_10 : Ref sig .tc := ⟨.hbm, 86, rfl⟩
abbrev main_v62 : Ref sig .tc := ⟨.hbm, 87, rfl⟩
abbrev main_v63 : Ref sig .tc := ⟨.hbm, 88, rfl⟩
abbrev main_c_11 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_12 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S50000x128_S50000x1x128_0_2 : S50000x128.BroadcastsInDim S50000x1x128 (![0, 2] : Fin 2 → Fin S50000x1x128.rank)
  concatenates_S50000x1x128_S50000x1x128_S50000x1x128_S50000x3x128_d1 : Shape.Concatenates [S50000x1x128, S50000x1x128, S50000x1x128] S50000x3x128 1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The kernel program's run, with the result buffer's final contents named.

  Every weakly fair execution of the kernel program on the TensorCores, from any launch memory with zero counters,
  terminates without a fault; in every final state the result buffer holds the last boundary's contents of the run's
  fold of buffer contents, and the six argument arrays hold what they held at launch.
-/
import proofs.«127925_j33998961116076_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the kernel program from the launch memory `m`: it terminates, nothing faulting, and at the end every
    unscoped buffer holds the last boundary's contents — read here at the result buffer and at the six arguments, the
    latter walked back to the launch memory. -/
theorem run_W9 : θ_run defs (onTc (τ := τ) (main (F := F))) ⟨m, fun _ => 0, ρ⟩ (fun r => ∀ c : Dev nD,
      r.2.mem ((c.tc : Thread nD τ).loc main_v73) = Gen.W9 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v73 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Run

end
-- ==== Proof.LibRowWise.lean ====
/-
  Row-wise layers on rank-2 arrays of extended reals.

  Every layer of the network is ROW-WISE: row r of its result is a function of row r of its input (and of a small
  parameter array).  "rowMap f x" applies a row function "f" to every row of "x".  The three row functions:
  "linRow w" (the row times the matrix "w": entry c is the sum over l of z l * w (l, c)), "reluRow b" (add the
  one-row array "b", then the maximum with zero) and "lsmRow b" (add "b", subtract the row's maximum, then subtract
  the logarithm of the sum of the exponentials: the logarithm of the softmax).  The row's maximum is the fold of
  "max" from minus infinity, which is how both a lane reduction and a host reduction read it.

  A row-wise layer commutes with cutting out a band of rows ("rowMap_band"): the band of the result is the result
  of the band.  That one fact is what lets a computation done band by band be compared with the whole computation.
-/
import Idealize.ShloMosaic.Lib.ValueIdx
import Idealize.ShloMosaic.PureOps.Ideal.Laws

noncomputable section

open scoped BigOperators

namespace GcnSpec

open Idealize.ShloMosaic Idealize.ShloMosaic.ValueIdx

/-- An n × k array of extended reals. -/
abbrev Arr (n k : ℕ) : Type := (⟨2, ![n, k]⟩ : Shape).Idx → EReal

/-- Row r of an array, as a function of the column. -/
def row {n k : ℕ} (x : Arr n k) (r : Fin n) : Fin k → EReal := fun l => x (ix2 r l)

/-- A row function applied to every row. -/
def rowMap {n k q : ℕ} (f : (Fin k → EReal) → Fin q → EReal) (x : Arr n k) : Arr n q :=
  fun i => f (row x ⟨(i 0).val, idx2_lt0 i⟩) ⟨(i 1).val, idx2_lt1 i⟩

theorem rowMap_ix2 {n k q : ℕ} (f : (Fin k → EReal) → Fin q → EReal) (x : Arr n k) (r : Fin n) (c : Fin q) :
    rowMap f x (ix2 r c) = f (row x r) c := rfl

/-- To show an array is "rowMap f x" it is enough to read it at every pair of coordinates. -/
theorem eq_rowMap {n k q : ℕ} (f : (Fin k → EReal) → Fin q → EReal) (x : Arr n k) (y : Arr n q)
    (h : ∀ (r : Fin n) (c : Fin q), y (ix2 r c) = f (row x r) c) : y = rowMap f x := by
  funext i
  obtain ⟨r, c, rfl⟩ : ∃ (r : Fin n) (c : Fin q), i = ix2 r c := ⟨i 0, i 1, eq_ix2 i⟩
  rw [h, rowMap_ix2]

/-- A band of rows: the band of the result is the result of the band.  "e₁" and "e₂" send an index of the band to
    the index of the whole array "o" rows further down, in the same column. -/
theorem rowMap_band {N n k q : ℕ} (f : (Fin k → EReal) → Fin q → EReal) (X : Arr N k) (o : ℕ)
    (e₁ : (⟨2, ![n, k]⟩ : Shape).Idx → (⟨2, ![N, k]⟩ : Shape).Idx)
    (e₂ : (⟨2, ![n, q]⟩ : Shape).Idx → (⟨2, ![N, q]⟩ : Shape).Idx)
    (h10 : ∀ j, (e₁ j 0).val = o + (j 0).val) (h11 : ∀ j, (e₁ j 1).val = (j 1).val)
    (h20 : ∀ j, (e₂ j 0).val = o + (j 0).val) (h21 : ∀ j, (e₂ j 1).val = (j 1).val)
    (j : (⟨2, ![n, q]⟩ : Shape).Idx) :
    rowMap f X (e₂ j) = rowMap f (fun y => X (e₁ y)) j := by
  unfold rowMap
  have hr : row X ⟨(e₂ j 0).val, idx2_lt0 (e₂ j)⟩ = row (fun y => X (e₁ y)) ⟨(j 0).val, idx2_lt0 j⟩ := by
    funext l
    unfold row
    refine congrArg X (funext fun a => Fin.ext ?_)
    match a with
    | ⟨0, _⟩ => show (e₂ j 0).val = (e₁ (ix2 ⟨(j 0).val, idx2_lt0 j⟩ l) 0).val; rw [h20, h10]; rfl
    | ⟨1, _⟩ => show l.val = (e₁ (ix2 ⟨(j 0).val, idx2_lt0 j⟩ l) 1).val; rw [h11]; rfl
  have hc : (⟨(e₂ j 1).val, idx2_lt1 (e₂ j)⟩ : Fin q) = ⟨(j 1).val, idx2_lt1 j⟩ := Fin.ext (h21 j)
  rw [hr, hc]

/-! ## The three row functions -/

/-- The row times a matrix. -/
def linRow {k q : ℕ} (w : Arr k q) (z : Fin k → EReal) : Fin q → EReal := fun c => ∑ l : Fin k, z l * w (ix2 l c)

/-- The float zero and minus infinity, kept as the words the programs spell them with. -/
def zeroF : EReal := Ideal.ofBits .f32 0x00000000#32
def negInfF : EReal := Ideal.ofBits .f32 0xFF800000#32

/-- Add the one-row array, then the maximum with zero. -/
def reluRow {k : ℕ} (b : Arr 1 k) (z : Fin k → EReal) : Fin k → EReal :=
  fun c => max (z c + b (ix2 (0 : Fin 1) c)) zeroF

/-- A row's maximum: the fold of "max" from minus infinity. -/
def rowMax {k : ℕ} (y : Fin k → EReal) : EReal := (Finset.univ : Finset (Fin k)).fold max negInfF y

/-- The row shifted by its maximum. -/
def shifted {k : ℕ} (y : Fin k → EReal) : Fin k → EReal := fun c => y c - rowMax y

/-- The logarithm of the softmax of a row. -/
def logSoftmax {k : ℕ} (y : Fin k → EReal) : Fin k → EReal :=
  fun c => shifted y c - Ideal.log (∑ l : Fin k, Ideal.exp (shifted y l))

/-- Add the one-row array, then the logarithm of the softmax. -/
def lsmRow {k : ℕ} (b : Arr 1 k) (z : Fin k → EReal) : Fin k → EReal :=
  logSoftmax fun c => z c + b (ix2 (0 : Fin 1) c)

/-- Minus infinity is the unit of "max". -/
theorem max_negInfF (y : EReal) : max negInfF y = y := by
  unfold negInfF; simp [Ideal.ofBits, Ideal.ieee]

theorem zeroF_eq : zeroF = 0 := Ideal.ofBits_zero_f32

/-! ## The layers -/

/-- The linear layer: every row times the matrix. -/
def lin {n k q : ℕ} (x : Arr n k) (w : Arr k q) : Arr n q := rowMap (linRow w) x
/-- Bias, then the maximum with zero. -/
def relu {n k : ℕ} (a : Arr n k) (b : Arr 1 k) : Arr n k := rowMap (reluRow b) a
/-- Bias, then the logarithm of the softmax along the row. -/
def lsm {n k : ℕ} (a : Arr n k) (b : Arr 1 k) : Arr n k := rowMap (lsmRow b) a

end GcnSpec

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibLayout.lean ====
/-
  Layout operations read at an index written by its coordinates, for the shapes a "keepdims" reduction kernel meets:
  a unit axis inserted in the middle or at the end of a shape by a shape cast, a broadcast along such a unit axis,
  the two composed, and a sum over one axis read as a `Fin`-indexed sum at coordinates.  All statements are over
  generic extents; the indices are the library's `ixN` constructors.
-/
import Idealize.ShloMosaic.Lib.Pipeline.Value
import Idealize.ShloMosaic.Lib.ValueIdx
import Idealize.ShloMosaic.Lib.ValueLayout
import Idealize.ShloMosaic.PureOps.Ideal.Laws

namespace PushPull.Layout

open Idealize.ShloMosaic Idealize.ShloMosaic.ValueIdx

variable {α : Type}

/-! ## A unit axis inserted by a shape cast -/

/-- `[a, b] → [a, b, 1]`: the entry `(i, j, 0)` is the entry `(i, j)`. -/
theorem cast_ab_ab1 {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- `[a, b] → [a, 1, b]`. -/
theorem cast_ab_a1b {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- `[a, b, c] → [a, b, 1, c]`. -/
theorem cast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_three, Shape.rowMajor_val_four]
    show (i.val * b + j.val) * c + k.val = ((i.val * b + j.val) * 1 + u.val) * c + k.val
    rw [hu, Nat.mul_one, Nat.add_zero])

/-- `[a, b, c] → [a, 1, b, c]`. -/
theorem cast_abc_a1bc {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu, Nat.mul_one, Nat.add_zero])

/-- `[a, b, c] → [a, b, c, 1]`. -/
theorem cast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- `[a] → [a, 1]`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-! ## A broadcast along a unit axis -/

/-- `[a, b, 1, c] → [a, b, k, c]`. -/
theorem bcast_ab1c {a b c k : ℕ} (x : (⟨4, ![a, b, 1, c]⟩ : Shape).Idx → α)
    (h : (⟨4, ![a, b, 1, c]⟩ : Shape).Broadcasts ⟨4, ![a, b, k, c]⟩) (i : Fin a) (j : Fin b) (q : Fin k) (l : Fin c) :
    broadcastTo ⟨4, ![a, b, k, c]⟩ x h (ix4 i j q l) = x (ix4 i j (0 : Fin 1) l) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm
    | ⟨3, _⟩ => show l.val = if c = 1 then 0 else l.val; split <;> omega)

/-- `[a, 1, b, c] → [a, k, b, c]`. -/
theorem bcast_a1bc {a b c k : ℕ} (x : (⟨4, ![a, 1, b, c]⟩ : Shape).Idx → α)
    (h : (⟨4, ![a, 1, b, c]⟩ : Shape).Broadcasts ⟨4, ![a, k, b, c]⟩) (i : Fin a) (q : Fin k) (j : Fin b) (l : Fin c) :
    broadcastTo ⟨4, ![a, k, b, c]⟩ x h (ix4 i q j l) = x (ix4 i (0 : Fin 1) j l) :=
  broadcastTo_apply x h _ _ (fun ax => by
    have hi := i.isLt; have hj := j.isLt; have hl := l.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega
    | ⟨3, _⟩ => show l.val = if c = 1 then 0 else l.val; split <;> omega)

/-- `[a, b, 1] → [a, b, k]`. -/
theorem bcast_ab1 {a b k : ℕ} (x : (⟨3, ![a, b, 1]⟩ : Shape).Idx → α)
    (h : (⟨3, ![a, b, 1]⟩ : Shape).Broadcasts ⟨3, ![a, b, k]⟩) (i : Fin a) (j : Fin b) (q : Fin k) :
    broadcastTo ⟨3, ![a, b, k]⟩ x h (ix3 i j q) = x (ix3 i j (0 : Fin 1)) :=
  broadcastTo_apply x h _ _ (fun ax => by
    have hi := i.isLt; have hj := j.isLt
    match ax with
    | ⟨0, _⟩ => show i.val = if a = 1 then 0 else i.val; split <;> omega
    | ⟨1, _⟩ => show j.val = if b = 1 then 0 else j.val; split <;> omega
    | ⟨2, _⟩ => show (0 : ℕ) = if 1 = 1 then 0 else q.val; exact (if_pos rfl).symm)

/-- `[a, 1, b] → [a, k, b]`. -/
theorem bcast_a1b {a b k : ℕ} (x : (⟨3, ![a, 1, b]⟩ : Shape).Idx → α)
    (h : (⟨3, ![a, 1, b]⟩ : Shape).Broadcasts ⟨3, ![a, k, b]⟩) (i : Fin a) (q : Fin k) (j : Fin b) :
    broadcastTo ⟨3, ![a, k, b]⟩ x h (ix3 i q j) = x (ix3 i (0 : Fin 1) j) :=
  broadcastTo_apply x h _ _ (fun ax => by
    have hi := i.isLt; have hj := j.isLt
    match ax with
    | ⟨0, _⟩ => show i.val = if a = 1 then 0 else i.val; split <;> omega
    | ⟨1, _⟩ => show (0 : ℕ) = if 1 = 1 then 0 else q.val; exact (if_pos rfl).symm
    | ⟨2, _⟩ => show j.val = if b = 1 then 0 else j.val; split <;> omega)

/-- `[a, b, c, 1] → [a, b, c, k]`. -/
theorem bcast_abc1 {a b c k : ℕ} (x : (⟨4, ![a, b, c, 1]⟩ : Shape).Idx → α)
    (h : (⟨4, ![a, b, c, 1]⟩ : Shape).Broadcasts ⟨4, ![a, b, c, k]⟩) (i : Fin a) (j : Fin b) (l : Fin c) (q : Fin k) :
    broadcastTo ⟨4, ![a, b, c, k]⟩ x h (ix4 i j l q) = x (ix4 i j l (0 : Fin 1)) :=
  broadcastTo_apply x h _ _ (fun ax => by
    have hi := i.isLt; have hj := j.isLt; have hl := l.isLt
    match ax with
    | ⟨0, _⟩ => show i.val = if a = 1 then 0 else i.val; split <;> omega
    | ⟨1, _⟩ => show j.val = if b = 1 then 0 else j.val; split <;> omega
    | ⟨2, _⟩ => show l.val = if c = 1 then 0 else l.val; split <;> omega
    | ⟨3, _⟩ => show (0 : ℕ) = if 1 = 1 then 0 else q.val; exact (if_pos rfl).symm)

/-- `[1, 1] → [1, k]`. -/
theorem bcast_11 {k : ℕ} (x : (⟨2, ![1, 1]⟩ : Shape).Idx → α)
    (h : (⟨2, ![1, 1]⟩ : Shape).Broadcasts ⟨2, ![1, k]⟩) (u : Fin 1) (q : Fin k) :
    broadcastTo ⟨2, ![1, k]⟩ x h (ix2 u q) = x (ix2 (0 : Fin 1) (0 : Fin 1)) :=
  broadcastTo_apply x h _ _ (fun ax => by
    match ax with
    | ⟨0, _⟩ => show (0 : ℕ) = if 1 = 1 then 0 else u.val; exact (if_pos rfl).symm
    | ⟨1, _⟩ => show (0 : ℕ) = if 1 = 1 then 0 else q.val; exact (if_pos rfl).symm)

/-! ## A sum over one axis, at coordinates -/

section Sums
variable {φ : FTy}

/-- The last axis of three. -/
theorem sum_abc_2 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext (by
      match ax with | ⟨0, _⟩ => rfl | ⟨1, _⟩ => rfl | ⟨2, _⟩ => rfl)))

/-- The last axis of four. -/
theorem sum_abcd_3 {a b c d : ℕ} (src : FVec Ideal ⟨4, ![a, b, c, d]⟩ φ) (acc : BitVec φ.bits)
    (h : (⟨4, ![a, b, c, d]⟩ : Shape).Reduces [3] ⟨3, ![a, b, c]⟩) (hφ : FKind.Formats φ) (hacc : acc = FKind.add.neutral φ hφ)
    (i : Fin a) (j : Fin b) (l : Fin c) :
    multiReduction .add [3] ⟨3, ![a, b, c]⟩ src acc h hφ hacc (ix3 i j l) = ∑ k : Fin d, src (ix4 i j l k) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The third axis of four. -/
theorem sum_abcd_2 {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction .add [2] ⟨3, ![a, b, d]⟩ src acc h hφ hacc (ix3 i j l) = ∑ k : Fin c, src (ix4 i j k l) :=
  (Ideal.multiReduction_add_single src acc h hφ hacc (ix3 i j l)).trans
    (Finset.sum_congr rfl fun k _ => congrArg src (funext fun ax => Fin.ext (by
      match ax with | ⟨0, _⟩ => rfl | ⟨1, _⟩ => rfl | ⟨2, _⟩ => rfl | ⟨3, _⟩ => rfl)))

/-- The last axis of two. -/
theorem sum_ab_1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun ax => Fin.ext (by
      match ax with | ⟨0, _⟩ => rfl | ⟨1, _⟩ => rfl)))

/-- The first axis of two. -/
theorem sum_ab_0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) :=
  (Ideal.multiReduction_add_single src acc h hφ hacc (ix1 j)).trans
    (Finset.sum_congr rfl fun k _ => congrArg src (funext fun ax => Fin.ext (by
      match ax with | ⟨0, _⟩ => rfl | ⟨1, _⟩ => rfl)))

end Sums

end PushPull.Layout
-- ==== Proof.LibRowOps.lean ====
/-
  The programs' operation chains as row-wise layers.

  Each lemma takes a chain of vector operations exactly as one of the two programs spells it, over arrays with ANY
  number "n" of rows, and says it is a layer of GcnSpec: a matrix unit's product onto the zero accumulator and the
  host's dot_general are both "lin"; bias-add followed by the maximum with zero is "relu", whether the bias arrives
  as a loaded one-row block broadcast over the rows or as a vector broadcast twice on the host; and the shifted
  log-sum-exp chain is the logarithm of the softmax of every row, whether the row's maximum and the row's sum are
  lane reductions or host reductions (the host takes one more maximum with minus infinity, which changes nothing).
  All reductions are over the second axis; a reduced vector is put back beside the rows as a one-column array.
-/
import Idealize.ShloMosaic.Lib.Pipeline.Value
import Idealize.ShloMosaic.Lib.ValueIdx
import Idealize.ShloMosaic.Lib.ValueLayout
import Idealize.ShloMosaic.PureOps.Ideal.Laws
import proofs.«127925_j33998961116076_2_alg».proof.Proof.LibRowWise
import proofs.«127925_j33998961116076_2_alg».proof.Proof.LibMatProd
import proofs.«127925_j33998961116076_2_alg».proof.Proof.LibRowCol
import proofs.«127925_j33998961116076_2_alg».proof.Proof.LibLayout

noncomputable section

open scoped BigOperators

namespace GcnOps

open Idealize.ShloMosaic Idealize.ShloMosaic.ValueIdx GcnSpec

variable {n k q : ℕ}

/-! ## The linear layer -/

/-- A matrix unit's product of rank-2 operands onto the zero accumulator is the linear layer. -/
theorem matmul_zero_eq_lin {φ₁ φ₂ : FTy}
    (d : DotDims (⟨2, ![n, k]⟩ : Shape) (⟨2, ![k, q]⟩ : Shape) (⟨2, ![n, q]⟩ : Shape)) (prec : Option ContractPrecision)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (lhs : FVec Ideal (⟨2, ![n, k]⟩ : Shape) φ₁) (rhs : FVec Ideal (⟨2, ![k, q]⟩ : Shape) φ₂) :
    FloatOps.matmul d prec lhs rhs (constant (F := Ideal) (⟨2, ![n, q]⟩ : Shape) .f32 0x00000000#32) = lin lhs rhs :=
  eq_rowMap _ _ _ fun r c => (MatProd.matmul_zero_entry d prec hr hs hl0 hl1 hr0 hr1 lhs rhs r c).trans rfl

/-- The host's dot_general of rank-2 operands, one axis contracted, is the linear layer. -/
theorem dotGeneral_eq_lin {φ₁ φ₂ : FTy}
    (d : DotDims (⟨2, ![n, k]⟩ : Shape) (⟨2, ![k, q]⟩ : Shape) (⟨2, ![n, q]⟩ : Shape)) (prec : Option ContractPrecision)
    (sched : HostSchedule)
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (lhs : FVec Ideal (⟨2, ![n, k]⟩ : Shape) φ₁) (rhs : FVec Ideal (⟨2, ![k, q]⟩ : Shape) φ₂) :
    FloatOps.dotGeneral d prec sched lhs rhs = lin lhs rhs := by
  refine eq_rowMap _ _ _ fun r c => ?_
  rw [Ideal.dotGeneral_apply, ← Equiv.sum_comp (contrEquiv1 d k hr hs).symm]
  show _ = ∑ l : Fin k, lhs (ix2 r l) * rhs (ix2 l c)
  refine Finset.sum_congr rfl fun l _ => ?_
  have hk := contrEquiv1_symm_val d k hr hs l
  have el : d.lhsIdx (ix2 r c) ((contrEquiv1 d k hr hs).symm l) = ix2 r l := funext fun a => Fin.ext (by
    match a with
    | ⟨0, _⟩ => exact hl0 _ _
    | ⟨1, _⟩ => exact (hl1 _ _).trans hk)
  have er : d.rhsIdx (ix2 r c) ((contrEquiv1 d k hr hs).symm l) = ix2 l c := funext fun a => Fin.ext (by
    match a with
    | ⟨0, _⟩ => exact (hr0 _ _).trans hk
    | ⟨1, _⟩ => exact hr1 _ _)
  rw [el, er]

/-! ## Bias, then the maximum with zero -/

/-- As a kernel body spells it: the block and the one-row bias block loaded (casts to their own shapes), the bias
    broadcast over the rows, the zero a scalar splat. -/
theorem relu_body (x : FVec Ideal (⟨2, ![n, k]⟩ : Shape) .f32) (b : FVec Ideal (⟨2, ![1, k]⟩ : Shape) .f32)
    (h1 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x h1) (broadcastTo ⟨2, ![n, k]⟩ (shapeCast ⟨2, ![1, k]⟩ b h2) hb))
      (broadcast ⟨2, ![n, k]⟩ (Scalar.ofBits (F := Ideal) .f32 0x00000000#32)) = relu x b := by
  rw [shapeCast_self, shapeCast_self]
  refine eq_rowMap _ _ _ fun r c => ?_
  rw [maximumf_apply, addf_apply, broadcast_apply, broadcastTo_1b_ab_apply]
  rfl

/-- The one-row view of a vector, broadcast over the rows on the host in two steps, read at coordinates. -/
theorem bias_host_apply (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (hsc : (⟨1, ![k]⟩ : Shape).ShapeCasts ⟨2, ![1, k]⟩) (r : Fin n) (c : Fin k) :
    broadcastInDim (⟨2, ![n, k]⟩ : Shape) (![0, 1] : Fin 2 → Fin 2) h2
        (broadcastInDim (⟨2, ![1, k]⟩ : Shape) (![1] : Fin 1 → Fin 2) h1 b) (ix2 r c)
      = shapeCast ⟨2, ![1, k]⟩ b hsc (ix2 (0 : Fin 1) c) := by
  have hc := c.isLt
  rw [broadcastInDim_apply _ h2 _ (ix2 r c) (ix2 (0 : Fin 1) c) (fun a => match a with
      | ⟨0, _⟩ => by show (0 : ℕ) = if (1 : ℕ) = 1 then 0 else r.val; rw [if_pos rfl]
      | ⟨1, _⟩ => by show c.val = if k = 1 then 0 else c.val; split <;> omega),
    broadcastInDim_apply _ h1 b (ix2 (0 : Fin 1) c) (ix1 c) (fun a => match a with
      | ⟨0, _⟩ => by show c.val = if k = 1 then 0 else c.val; split <;> omega),
    shapeCast_a_1a_apply]

/-- As the host spells it: the bias vector broadcast in two steps, the zero a rank-0 constant broadcast. -/
theorem relu_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (h0 : (⟨0, ![]⟩ : Shape).BroadcastsInDim (⟨2, ![n, k]⟩ : Shape) (![] : Fin 0 → Fin 2))
    (hsc : (⟨1, ![k]⟩ : Shape).ShapeCasts ⟨2, ![1, k]⟩) :
    maximumf (addf a (broadcastInDim (⟨2, ![n, k]⟩ : Shape) (![0, 1] : Fin 2 → Fin 2) h2
        (broadcastInDim (⟨2, ![1, k]⟩ : Shape) (![1] : Fin 1 → Fin 2) h1 b)))
      (broadcastInDim (⟨2, ![n, k]⟩ : Shape) (![] : Fin 0 → Fin 2) h0 (constant (F := Ideal) (⟨0, ![]⟩ : Shape) .f32 0x00000000#32))
      = relu a (shapeCast ⟨2, ![1, k]⟩ b hsc) := by
  refine eq_rowMap _ _ _ fun r c => ?_
  rw [maximumf_apply, addf_apply, bias_host_apply b h1 h2 hsc r c,
    broadcastInDim_apply _ h0 _ (ix2 r c) ix0 (fun a => a.elim0), constant_apply]
  rfl

/-! ## The logarithm of the softmax -/

/-- The exponential and the logarithm, a body's and the host's, read at an index. -/
theorem exp_apply {s : Shape} (v : FVec Ideal s .f32) (i : s.Idx) : exp v i = Ideal.exp (v i) := rfl
theorem log_apply {s : Shape} (v : FVec Ideal s .f32) (i : s.Idx) : log v i = Ideal.log (v i) := rfl
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- Index (r, l) is the reduced index r with the coordinate l put back on axis 1. -/
theorem lift1 (h : (⟨2, ![n, k]⟩ : Shape).Reduces [1] (⟨1, ![n]⟩ : Shape)) (r : Fin n)
    (l : Fin ((⟨2, ![n, k]⟩ : Shape).size 1)) : h.lift (ix1 r) l = ix2 r (⟨l.val, l.isLt⟩ : Fin k) :=
  funext fun ax => Fin.ext (by match ax with | ⟨0, _⟩ => rfl | ⟨1, _⟩ => rfl)

/-- A lane maximum along the row, from minus infinity, is the row's maximum. -/
theorem rowMax_body (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ) (r : Fin n) :
    multiReduction .maximumf [1] (⟨1, ![n]⟩ : Shape) y 0xFF800000#32 hR hφ hacc (ix1 r) = rowMax (row y r) := by
  refine (Ideal.multiReduction_maximumf_single y 0xFF800000#32 hR hφ hacc (ix1 r)).trans ?_
  have hf : (y ∘ hR.lift (ix1 r)) = fun l : Fin k => y (ix2 r l) := funext fun l => congrArg y (lift1 hR r l)
  exact congrArg (fun f => Finset.fold max negInfF f (Finset.univ : Finset (Fin k))) hf

/-- The host's reduce with a maximum body along the row, from minus infinity, is the row's maximum. -/
theorem rowMax_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel) (r : Fin n) :
    Host.reduce FloatOps.maximumf y (constant (F := Ideal) (⟨0, ![]⟩ : Shape) .f32 0xFF800000#32) hR' hu (ix1 r)
      = rowMax (row y r) := by
  rw [Host.reduce_eq_fold_single FloatOps.maximumf y _ hR' hR hu]
  have hf : (y ∘ hR.lift (ix1 r)) = fun l : Fin k => y (ix2 r l) := funext fun l => congrArg y (lift1 hR r l)
  exact congrArg (fun f => Finset.fold max negInfF f (Finset.univ : Finset (Fin k))) hf

/-- A lane sum along the row. -/
theorem rowSum_body (y : FVec Ideal (⟨2, ![n, k]⟩ : Shape) .f32)
    (hR : (⟨2, ![n, k]⟩ : Shape).Reduces [1] (⟨1, ![n]⟩ : Shape)) (hφ : FKind.Formats .f32)
    (hacc : (0x00000000#32 : BitVec 32) = FKind.add.neutral .f32 hφ) (r : Fin n) :
    multiReduction .add [1] (⟨1, ![n]⟩ : Shape) y 0x00000000#32 hR hφ hacc (ix1 r) = ∑ l : Fin k, y (ix2 r l) :=
  PushPull.Layout.sum_ab_1 y 0x00000000#32 hR hφ hacc r

/-- The host's sum along the row, from zero. -/
theorem rowSum_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel) (r : Fin n) :
    Host.reduceAdd y (constant (F := Ideal) (⟨0, ![]⟩ : Shape) .f32 0x00000000#32) hR' hu (ix1 r) = ∑ l : Fin k, y (ix2 r l) := by
  simp only [Host.reduceAdd, Ideal.hostReduceAdd_def]
  rw [Ideal.hostReduceAdd_single hR' hR, constant_apply, Ideal.ofBits_zero_f32, zero_add]
  exact Finset.sum_congr rfl fun l _ => congrArg y (lift1 hR r l)

/-- The row shifted by its maximum, as a kernel body spells it. -/
def shiftBody (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, k]⟩) :
    FVec Ideal (⟨2, ![n, k]⟩ : Shape) .f32 :=
  subf y (broadcastTo ⟨2, ![n, k]⟩
    (shapeCast ⟨2, ![n, 1]⟩ (multiReduction .maximumf [1] (⟨1, ![n]⟩ : Shape) y 0xFF800000#32 hR hφ hacc) hc) hb)

theorem shiftBody_apply (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, k]⟩)
    (r : Fin n) (c : Fin k) : shiftBody y hR hφ hacc hc hb (ix2 r c) = shifted (row y r) c := by
  unfold shiftBody
  rw [subf_apply, RowCol.broadcastTo_a1_ab_apply, RowCol.shapeCast_a_a1_apply, rowMax_body]
  rfl

/-- The logarithm of the softmax of every row, as a kernel body spells it. -/
theorem logSoftmax_body (y : FVec Ideal (⟨2, ![n, k]⟩ : Shape) .f32)
    (hR : (⟨2, ![n, k]⟩ : Shape).Reduces [1] (⟨1, ![n]⟩ : Shape)) (hφ : FKind.Formats .f32)
    (hacc : (0xFF800000#32 : BitVec 32) = FKind.maximumf.neutral .f32 hφ)
    (hacc0 : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, k]⟩) :
    subf (shiftBody y hR hφ hacc hc hb) (broadcastTo ⟨2, ![n, k]⟩
      (log (shapeCast ⟨2, ![n, 1]⟩
        (multiReduction .add [1] (⟨1, ![n]⟩ : Shape) (exp (shiftBody y hR hφ hacc hc hb)) 0x00000000#32 hR hφ hacc0) hc)) hb)
      = rowMap logSoftmax y := by
  refine eq_rowMap _ _ _ fun r c => ?_
  rw [subf_apply, shiftBody_apply, RowCol.broadcastTo_a1_ab_apply, log_apply, RowCol.shapeCast_a_a1_apply, rowSum_body]
  show _ = shifted (row y r) c - Ideal.log (∑ l : Fin k, Ideal.exp (shifted (row y r) l))
  refine congrArg (fun s => shifted (row y r) c - Ideal.log s) (Finset.sum_congr rfl fun l _ => ?_)
  rw [exp_apply, shiftBody_apply]

/-- The whole last-layer body: bias added to the loaded block, then the logarithm of the softmax. -/
theorem lsm_body (x : FVec Ideal (⟨2, ![n, k]⟩ : Shape) .f32) (b : FVec Ideal (⟨2, ![1, k]⟩ : Shape) .f32)
    (h1 : (⟨2, ![n, k]⟩ : Shape).ShapeCasts ⟨2, ![n, k]⟩) (h2 : (⟨2, ![1, k]⟩ : Shape).ShapeCasts ⟨2, ![1, k]⟩)
    (hbb : (⟨2, ![1, k]⟩ : Shape).Broadcasts ⟨2, ![n, k]⟩)
    (hR : (⟨2, ![n, k]⟩ : Shape).Reduces [1] (⟨1, ![n]⟩ : Shape)) (hφ : FKind.Formats .f32)
    (hacc : (0xFF800000#32 : BitVec 32) = FKind.maximumf.neutral .f32 hφ)
    (hacc0 : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, k]⟩) :
    subf (shiftBody (addf (shapeCast ⟨2, ![n, k]⟩ x h1) (broadcastTo ⟨2, ![n, k]⟩ (shapeCast ⟨2, ![1, k]⟩ b h2) hbb)) hR hφ hacc hc hb)
      (broadcastTo ⟨2, ![n, k]⟩ (log (shapeCast ⟨2, ![n, 1]⟩ (multiReduction .add [1] (⟨1, ![n]⟩ : Shape)
        (exp (shiftBody (addf (shapeCast ⟨2, ![n, k]⟩ x h1) (broadcastTo ⟨2, ![n, k]⟩ (shapeCast ⟨2, ![1, k]⟩ b h2) hbb)) hR hφ hacc hc hb))
        0x00000000#32 hR hφ hacc0) hc)) hb)
      = lsm x b := by
  rw [logSoftmax_body, shapeCast_self, shapeCast_self]
  refine eq_rowMap _ _ _ fun r c => ?_
  rw [rowMap_ix2]
  refine congrFun (congrArg logSoftmax (funext fun l => ?_)) c
  show addf x (broadcastTo ⟨2, ![n, k]⟩ b hbb) (ix2 r l) = x (ix2 r l) + b (ix2 (0 : Fin 1) l)
  rw [addf_apply, broadcastTo_1b_ab_apply]

/-- The row shifted by its maximum, as the host spells it: the reduced maximum once more against minus infinity, then
    put back beside the rows by two broadcasts. -/
def shiftHost (y : FVec Ideal (⟨2, ![n, k]⟩ : Shape) .f32)
    (hR' : (⟨2, ![n, k]⟩ : Shape).ReducesTo [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    FVec Ideal (⟨2, ![n, k]⟩ : Shape) .f32 :=
  subf y (broadcastInDim (⟨2, ![n, k]⟩ : Shape) (![0, 1] : Fin 2 → Fin 2) hrow
    (broadcastInDim (⟨2, ![n, 1]⟩ : Shape) (![0] : Fin 1 → Fin 2) hcol
      (maximumf (broadcastInDim (⟨1, ![n]⟩ : Shape) (![] : Fin 0 → Fin 1) h0 (constant (F := Ideal) (⟨0, ![]⟩ : Shape) .f32 0xFF800000#32))
        (Host.reduce FloatOps.maximumf y (constant (F := Ideal) (⟨0, ![]⟩ : Shape) .f32 0xFF800000#32) hR' hu))))

/-- A vector put beside the rows by the host's two broadcasts, read at coordinates. -/
theorem col_host_apply (v : FVec Ideal (⟨1, ![n]⟩ : Shape) .f32)
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2))
    (r : Fin n) (c : Fin k) :
    broadcastInDim (⟨2, ![n, k]⟩ : Shape) (![0, 1] : Fin 2 → Fin 2) hrow
      (broadcastInDim (⟨2, ![n, 1]⟩ : Shape) (![0] : Fin 1 → Fin 2) hcol v) (ix2 r c) = v (ix1 r) := by
  have hr := r.isLt
  rw [broadcastInDim_apply _ hrow _ (ix2 r c) (ix2 r (0 : Fin 1)) (fun a => match a with
      | ⟨0, _⟩ => by show r.val = if n = 1 then 0 else r.val; split <;> omega
      | ⟨1, _⟩ => by show (0 : ℕ) = if (1 : ℕ) = 1 then 0 else c.val; rw [if_pos rfl]),
    broadcastInDim_apply _ hcol v (ix2 r (0 : Fin 1)) (ix1 r) (fun a => match a with
      | ⟨0, _⟩ => by show r.val = if n = 1 then 0 else r.val; split <;> omega)]

theorem shiftHost_apply (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2))
    (r : Fin n) (c : Fin k) : shiftHost y hR' hu h0 hcol hrow (ix2 r c) = shifted (row y r) c := by
  unfold shiftHost
  rw [subf_apply, col_host_apply, maximumf_apply,
    broadcastInDim_apply _ h0 _ (ix1 r) ix0 (fun a => a.elim0), constant_apply, rowMax_host y hR' hR hu r]
  show y (ix2 r c) - max negInfF (rowMax (row y r)) = _
  rw [max_negInfF]
  rfl

/-- The logarithm of the softmax of every row, as the host spells it. -/
theorem logSoftmax_host (y : FVec Ideal (⟨2, ![n, k]⟩ : Shape) .f32)
    (hR' : (⟨2, ![n, k]⟩ : Shape).ReducesTo [1] (⟨1, ![n]⟩ : Shape))
    (hR : (⟨2, ![n, k]⟩ : Shape).Reduces [1] (⟨1, ![n]⟩ : Shape)) (hu : 0 < (⟨0, ![]⟩ : Shape).numel)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    subf (shiftHost y hR' hu h0 hcol hrow)
      (broadcastInDim (⟨2, ![n, k]⟩ : Shape) (![0, 1] : Fin 2 → Fin 2) hrow
        (Host.log (broadcastInDim (⟨2, ![n, 1]⟩ : Shape) (![0] : Fin 1 → Fin 2) hcol
          (Host.reduceAdd (Host.exp (shiftHost y hR' hu h0 hcol hrow))
            (constant (F := Ideal) (⟨0, ![]⟩ : Shape) .f32 0x00000000#32) hR' hu))))
      = rowMap logSoftmax y := by
  have hr1 : ∀ r : Fin n, (if n = 1 then 0 else r.val) = r.val := fun r => by have := r.isLt; split <;> omega
  refine eq_rowMap _ _ _ fun r c => ?_
  rw [subf_apply, shiftHost_apply y hR' hR hu h0 hcol hrow r c,
    broadcastInDim_apply _ hrow _ (ix2 r c) (ix2 r (0 : Fin 1)) (fun a => match a with
      | ⟨0, _⟩ => (hr1 r).symm
      | ⟨1, _⟩ => by show (0 : ℕ) = if (1 : ℕ) = 1 then 0 else c.val; rw [if_pos rfl]), hostLog_apply,
    broadcastInDim_apply _ hcol _ (ix2 r (0 : Fin 1)) (ix1 r) (fun a => match a with
      | ⟨0, _⟩ => (hr1 r).symm), rowSum_host _ hR' hR hu r]
  show _ = shifted (row y r) c - Ideal.log (∑ l : Fin k, Ideal.exp (shifted (row y r) l))
  refine congrArg (fun s => shifted (row y r) c - Ideal.log s) (Finset.sum_congr rfl fun l _ => ?_)
  rw [hostExp_apply, shiftHost_apply y hR' hR hu h0 hcol hrow r l]

/-- The host's last layer: bias broadcast in two steps and added, then the logarithm of the softmax. -/
theorem lsm_host (a : FVec Ideal (⟨2, ![n, k]⟩ : Shape) .f32) (b : FVec Ideal (⟨1, ![k]⟩ : Shape) .f32)
    (h1 : (⟨1, ![k]⟩ : Shape).BroadcastsInDim (⟨2, ![1, k]⟩ : Shape) (![1] : Fin 1 → Fin 2))
    (h2 : (⟨2, ![1, k]⟩ : Shape).BroadcastsInDim (⟨2, ![n, k]⟩ : Shape) (![0, 1] : Fin 2 → Fin 2))
    (hsc : (⟨1, ![k]⟩ : Shape).ShapeCasts ⟨2, ![1, k]⟩) :
    rowMap logSoftmax (addf a (broadcastInDim (⟨2, ![n, k]⟩ : Shape) (![0, 1] : Fin 2 → Fin 2) h2
        (broadcastInDim (⟨2, ![1, k]⟩ : Shape) (![1] : Fin 1 → Fin 2) h1 b)))
      = lsm a (shapeCast ⟨2, ![1, k]⟩ b hsc) := by
  refine eq_rowMap _ _ _ fun r c => ?_
  rw [rowMap_ix2]
  refine congrFun (congrArg logSoftmax (funext fun l => ?_)) c
  show addf a _ (ix2 r l) = a (ix2 r l) + shapeCast ⟨2, ![1, k]⟩ b hsc (ix2 (0 : Fin 1) l)
  rw [addf_apply, bias_host_apply b h1 h2 hsc r l]

end GcnOps

end
-- ==== Proof.LibSageLayer.lean ====
/-
  One layer of a mean-aggregation graph network on arrays of extended reals, and the law that joins its two spellings.

  A layer takes, for every node r, the row M(r, ·) of aggregated neighbour features already divided by the node's
  in-degree ("the mean"), and the node's own row h(r, ·).  Entry (r, c) of its result is

      (sum over l of M(r, l) * Wl(l, c))  +  b(c)  +  (sum over l of h(r, l) * Wr(l, c)),

  followed, in every layer but the last, by the maximum with zero.  The bias is added to the first product before
  the second product is added: that is the grouping both programs use, so no re-association is needed.

  The two programs differ only in how they form the mean from the aggregated sum A and the clamped degree d:
  one multiplies the row by the reciprocal 1 / d computed once, the other divides every entry by d.  On the
  extended reals  x * (1 / d) = x / d  holds for every x as soon as d is not zero (both sides are x times the
  inverse of d; at d = 0 they would differ, 0 * (1 / 0) = 0 against 0 / 0 = bottom).  The clamped degree is the
  maximum of 1 and a count, hence at least 1 and never zero, whatever the count is: the law needs no finiteness.

  The layer is ROW-WISE: row r of the result depends on row r of M, row r of h and the parameters only.  So a band
  of rows computed from the band of M and the band of h is the band of the whole result ("layer_row").
-/
import Idealize.ShloMosaic.Lib.ValueIdx
import Idealize.ShloMosaic.PureOps.Ideal.Laws
import proofs.«127925_j33998961116076_2_alg».proof.Proof.LibRowWise
import proofs.«127925_j33998961116076_2_alg».proof.Proof.LibMatProd

noncomputable section

open scoped BigOperators

namespace Sage

open Idealize.ShloMosaic Idealize.ShloMosaic.ValueIdx GcnSpec

/-- What follows the two products and the bias: the maximum with zero, or nothing (the last layer). -/
def post (relu : Bool) (z : EReal) : EReal := if relu then max z zeroF else z

theorem post_true (z : EReal) : post true z = max z zeroF := rfl
theorem post_false (z : EReal) : post false z = z := rfl

/-- One layer, from the mean M and the nodes' own features h. -/
def layer (relu : Bool) {n k q : ℕ} (M h : Arr n k) (Wl : Arr k q) (b : Arr 1 q) (Wr : Arr k q) : Arr n q :=
  fun i => post relu
    ((lin M Wl i + b (ix2 (0 : Fin 1) (⟨(i 1).val, idx2_lt1 i⟩ : Fin q))) + lin h Wr i)

/-- The layer read at a pair of coordinates: the two products as plain sums. -/
theorem layer_ix2 (relu : Bool) {n k q : ℕ} (M h : Arr n k) (Wl : Arr k q) (b : Arr 1 q) (Wr : Arr k q)
    (r : Fin n) (c : Fin q) :
    layer relu M h Wl b Wr (ix2 r c)
      = post relu (((∑ l : Fin k, M (ix2 r l) * Wl (ix2 l c)) + b (ix2 (0 : Fin 1) c))
          + ∑ l : Fin k, h (ix2 r l) * Wr (ix2 l c)) := rfl

/-- To show an array is the layer it is enough to read it at every pair of coordinates. -/
theorem eq_layer (relu : Bool) {n k q : ℕ} (M h : Arr n k) (Wl : Arr k q) (b : Arr 1 q) (Wr : Arr k q) (y : Arr n q)
    (hy : ∀ (r : Fin n) (c : Fin q), y (ix2 r c)
      = post relu (((∑ l : Fin k, M (ix2 r l) * Wl (ix2 l c)) + b (ix2 (0 : Fin 1) c))
          + ∑ l : Fin k, h (ix2 r l) * Wr (ix2 l c))) :
    y = layer relu M h Wl b Wr := by
  funext i
  obtain ⟨r, c, rfl⟩ : ∃ (r : Fin n) (c : Fin q), i = ix2 r c := ⟨i 0, i 1, eq_ix2 i⟩
  rw [hy, layer_ix2]

/-- Row-wise: a row of the result is fixed by the same row of the mean and of the own features, and column c of the
    result by column c of the parameters.  Row r of a band and row r' of the whole array give the same entry when the
    two rows of M agree, the two rows of h agree, and the parameters agree in column c. -/
theorem layer_row (relu : Bool) {n n' k q : ℕ} (M h : Arr n k) (M' h' : Arr n' k) (Wl Wl' : Arr k q) (b b' : Arr 1 q)
    (Wr Wr' : Arr k q) (r : Fin n) (r' : Fin n') (c : Fin q)
    (hM : ∀ l : Fin k, M (ix2 r l) = M' (ix2 r' l)) (hh : ∀ l : Fin k, h (ix2 r l) = h' (ix2 r' l))
    (hWl : ∀ l : Fin k, Wl (ix2 l c) = Wl' (ix2 l c)) (hb : b (ix2 (0 : Fin 1) c) = b' (ix2 (0 : Fin 1) c))
    (hWr : ∀ l : Fin k, Wr (ix2 l c) = Wr' (ix2 l c)) :
    layer relu M h Wl b Wr (ix2 r c) = layer relu M' h' Wl' b' Wr' (ix2 r' c) := by
  rw [layer_ix2, layer_ix2]
  have e1 : (∑ l : Fin k, M (ix2 r l) * Wl (ix2 l c)) = ∑ l : Fin k, M' (ix2 r' l) * Wl' (ix2 l c) :=
    Finset.sum_congr rfl fun l _ => by rw [hM l, hWl l]
  have e2 : (∑ l : Fin k, h (ix2 r l) * Wr (ix2 l c)) = ∑ l : Fin k, h' (ix2 r' l) * Wr' (ix2 l c) :=
    Finset.sum_congr rfl fun l _ => by rw [hh l, hWr l]
  rw [e1, e2, hb]

/-! ## The mean, two ways -/

/-- Every row of A times that row's entry of the one-column array s. -/
def scaleRows {n k : ℕ} (A : Arr n k) (s : Arr n 1) : Arr n k :=
  fun i => A i * s (ix2 (⟨(i 0).val, idx2_lt0 i⟩ : Fin n) (0 : Fin 1))

theorem scaleRows_ix2 {n k : ℕ} (A : Arr n k) (s : Arr n 1) (r : Fin n) (l : Fin k) :
    scaleRows A s (ix2 r l) = A (ix2 r l) * s (ix2 r (0 : Fin 1)) := rfl

/-- Every entry of A divided by its row's entry of the vector d. -/
def divRows {n k : ℕ} (A : Arr n k) (d : (⟨1, ![n]⟩ : Shape).Idx → EReal) : Arr n k :=
  fun i => Ideal.div (A i) (d (ix1 (⟨(i 0).val, idx2_lt0 i⟩ : Fin n)))

theorem divRows_ix2 {n k : ℕ} (A : Arr n k) (d : (⟨1, ![n]⟩ : Shape).Idx → EReal) (r : Fin n) (l : Fin k) :
    divRows A d (ix2 r l) = Ideal.div (A (ix2 r l)) (d (ix1 r)) := rfl

/-- Multiplying by the reciprocal is dividing, off zero: both are the product with the inverse. -/
theorem mul_div_one (x : EReal) {y : EReal} (hy : y ≠ 0) : x * Ideal.div 1 y = Ideal.div x y := by
  unfold Ideal.div
  rw [if_neg hy, if_neg hy, one_mul]

/-- The float one, kept as the word the programs spell it with, is the number one. -/
def oneF : EReal := Ideal.ofBits .f32 0x3F800000#32

theorem oneF_eq : oneF = 1 := by
  unfold oneF
  simp [Ideal.ofBits, Ideal.ieee, -EReal.coe_mul]; norm_num

/-- A count clamped below at one is not zero, whatever the count. -/
theorem clamp_ne_zero (g : EReal) : max oneF g ≠ 0 := by
  have h1 : (0 : EReal) < oneF := by rw [oneF_eq]; exact zero_lt_one
  exact ne_of_gt (lt_of_lt_of_le h1 (le_max_left _ _))

/-- Scaling the rows by the reciprocals of a vector with no zero entry is dividing the rows by the vector. -/
theorem scaleRows_eq_divRows {n k : ℕ} (A : Arr n k) (s : Arr n 1) (d : (⟨1, ![n]⟩ : Shape).Idx → EReal)
    (hs : ∀ r : Fin n, s (ix2 r (0 : Fin 1)) = Ideal.div oneF (d (ix1 r))) (hd : ∀ r : Fin n, d (ix1 r) ≠ 0) :
    scaleRows A s = divRows A d := by
  funext i
  obtain ⟨r, l, rfl⟩ : ∃ (r : Fin n) (l : Fin k), i = ix2 r l := ⟨i 0, i 1, eq_ix2 i⟩
  rw [scaleRows_ix2, divRows_ix2, hs r, oneF_eq]
  exact mul_div_one _ (hd r)

end Sage

end
-- ==== Proof.LibSageSpellings.lean ====
/-
  The two programs' operation chains for one layer ARE the layer of Sage.

  A kernel body computes a band of n rows: it scales the band of the aggregated sum by the band of the reciprocal
  degree (a one-column block broadcast along the row), multiplies by the first weight matrix on the matrix unit (onto
  a zero accumulator), adds the bias (a one-row block broadcast over the rows), adds the matrix unit's product of the
  band of the nodes' own features with the second weight matrix, and, except in the last layer, takes the maximum
  with zero.  The roundings to a narrower format in front of the matrix unit are the identity on the extended reals.

  The host divides the aggregated sum by the clamped degree (a vector put beside the rows by two broadcasts), takes the
  two products as dot_generals, broadcasts the bias vector in two steps, and takes the maximum against a broadcast
  rank-0 zero.

  Each lemma takes its chain over arrays with any number n of rows and reads it at a pair of coordinates: a matrix
  unit's product onto zero and a dot_general with one contracted axis are both the plain sum over the contracted
  coordinate.
-/
import Idealize.ShloMosaic.Lib.Pipeline.Value
import Idealize.ShloMosaic.Lib.ValueIdx
import Idealize.ShloMosaic.Lib.ValueLayout
import Idealize.ShloMosaic.PureOps.Ideal.Laws
import proofs.«127925_j33998961116076_2_alg».proof.Proof.LibRowOps
import proofs.«127925_j33998961116076_2_alg».proof.Proof.LibSageLayer

noncomputable section

open scoped BigOperators

namespace Sage.Spell

open Idealize.ShloMosaic Idealize.ShloMosaic.ValueIdx GcnSpec Sage

variable {n k q : ℕ}

/-! ## A kernel body -/

/-- The value in front of the last maximum, as a body spells it. -/
theorem body_core
    (d : DotDims (⟨2, ![n, k]⟩ : Shape) (⟨2, ![k, q]⟩ : Shape) (⟨2, ![n, q]⟩ : Shape))
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (x0 x1 : FVec Ideal (⟨2, ![n, k]⟩ : Shape) .f32) (x2 : FVec Ideal (⟨2, ![n, 1]⟩ : Shape) .f32)
    (x3 x5 : FVec Ideal (⟨2, ![k, q]⟩ : Shape) .f32) (x4 : FVec Ideal (⟨2, ![1, q]⟩ : Shape) .f32)
    (b2 : (⟨2, ![n, 1]⟩ : Shape).Broadcasts ⟨2, ![n, k]⟩) (b4 : (⟨2, ![1, q]⟩ : Shape).Broadcasts ⟨2, ![n, q]⟩)
    (t : FTy.bf16.bits < FTy.f32.bits) :
    addf (addf (FloatOps.matmul d none (truncf .bf16 (mulf x0 (broadcastTo ⟨2, ![n, k]⟩ x2 b2)) t) (truncf .bf16 x3 t)
          (constant (F := Ideal) (⟨2, ![n, q]⟩ : Shape) .f32 0x00000000#32))
        (broadcastTo ⟨2, ![n, q]⟩ x4 b4))
      (FloatOps.matmul d none (truncf .bf16 x1 t) (truncf .bf16 x5 t)
        (constant (F := Ideal) (⟨2, ![n, q]⟩ : Shape) .f32 0x00000000#32))
      = layer false (scaleRows x0 x2) x1 x3 x4 x5 := by
  refine eq_layer false _ _ _ _ _ _ fun r c => ?_
  rw [addf_apply, addf_apply, MatProd.matmul_zero_entry d none hr hs hl0 hl1 hr0 hr1,
    MatProd.matmul_zero_entry d none hr hs hl0 hl1 hr0 hr1, broadcastTo_1b_ab_apply, post_false]
  unfold MatProd.entry
  refine congrArg₂ (· + ·) (congrArg (· + x4 (ix2 (0 : Fin 1) c)) (Finset.sum_congr rfl fun l _ => ?_)) rfl
  show (x0 (ix2 r l) * broadcastTo ⟨2, ![n, k]⟩ x2 b2 (ix2 r l)) * x3 (ix2 l c) = scaleRows x0 x2 (ix2 r l) * x3 (ix2 l c)
  rw [RowCol.broadcastTo_a1_ab_apply, scaleRows_ix2]

/-- A layer followed by the maximum with zero is the layer with the maximum. -/
theorem max_layer (M h : Arr n k) (Wl : Arr k q) (b : Arr 1 q) (Wr : Arr k q) (z : Arr n q)
    (hz : ∀ i, z i = zeroF) :
    (fun i => max (layer false M h Wl b Wr i) (z i)) = layer true M h Wl b Wr := by
  funext i
  rw [hz]
  rfl

/-- The whole body of a layer that ends in the maximum with zero (a scalar zero splat over the block). -/
theorem body_relu
    (d : DotDims (⟨2, ![n, k]⟩ : Shape) (⟨2, ![k, q]⟩ : Shape) (⟨2, ![n, q]⟩ : Shape))
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (x0 x1 : FVec Ideal (⟨2, ![n, k]⟩ : Shape) .f32) (x2 : FVec Ideal (⟨2, ![n, 1]⟩ : Shape) .f32)
    (x3 x5 : FVec Ideal (⟨2, ![k, q]⟩ : Shape) .f32) (x4 : FVec Ideal (⟨2, ![1, q]⟩ : Shape) .f32)
    (b2 : (⟨2, ![n, 1]⟩ : Shape).Broadcasts ⟨2, ![n, k]⟩) (b4 : (⟨2, ![1, q]⟩ : Shape).Broadcasts ⟨2, ![n, q]⟩)
    (t : FTy.bf16.bits < FTy.f32.bits) :
    maximumf
      (addf (addf (FloatOps.matmul d none (truncf .bf16 (mulf x0 (broadcastTo ⟨2, ![n, k]⟩ x2 b2)) t) (truncf .bf16 x3 t)
            (constant (F := Ideal) (⟨2, ![n, q]⟩ : Shape) .f32 0x00000000#32))
          (broadcastTo ⟨2, ![n, q]⟩ x4 b4))
        (FloatOps.matmul d none (truncf .bf16 x1 t) (truncf .bf16 x5 t)
          (constant (F := Ideal) (⟨2, ![n, q]⟩ : Shape) .f32 0x00000000#32)))
      (broadcast ⟨2, ![n, q]⟩ (Scalar.ofBits (F := Ideal) .f32 0x00000000#32))
      = layer true (scaleRows x0 x2) x1 x3 x4 x5 := by
  rw [body_core d hr hs hl0 hl1 hr0 hr1 x0 x1 x2 x3 x5 x4 b2 b4 t]
  exact max_layer _ _ _ _ _ _ fun _ => rfl

/-! ## The host -/

/-- The aggregated sum divided by a vector put beside the rows by two broadcasts is the rows divided by the vector. -/
theorem divf_col_eq_divRows (A : FVec Ideal (⟨2, ![n, k]⟩ : Shape) .f32) (d1 : FVec Ideal (⟨1, ![n]⟩ : Shape) .f32)
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    Host.divf A (broadcastInDim (⟨2, ![n, k]⟩ : Shape) (![0, 1] : Fin 2 → Fin 2) hrow
        (broadcastInDim (⟨2, ![n, 1]⟩ : Shape) (![0] : Fin 1 → Fin 2) hcol d1))
      = divRows A d1 := by
  funext i
  obtain ⟨r, l, rfl⟩ : ∃ (r : Fin n) (l : Fin k), i = ix2 r l := ⟨i 0, i 1, eq_ix2 i⟩
  show Ideal.div (A (ix2 r l)) (broadcastInDim (⟨2, ![n, k]⟩ : Shape) (![0, 1] : Fin 2 → Fin 2) hrow
        (broadcastInDim (⟨2, ![n, 1]⟩ : Shape) (![0] : Fin 1 → Fin 2) hcol d1) (ix2 r l)) = _
  rw [GcnOps.col_host_apply, divRows_ix2]

/-- The value in front of the last maximum, as the host spells it, from the mean already formed. -/
theorem host_core
    (d : DotDims (⟨2, ![n, k]⟩ : Shape) (⟨2, ![k, q]⟩ : Shape) (⟨2, ![n, q]⟩ : Shape))
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (M h : FVec Ideal (⟨2, ![n, k]⟩ : Shape) .f32) (Wl Wr : FVec Ideal (⟨2, ![k, q]⟩ : Shape) .f32)
    (bv : FVec Ideal (⟨1, ![q]⟩ : Shape) .f32)
    (h1 : (⟨1, ![q]⟩ : Shape).BroadcastsInDim (⟨2, ![1, q]⟩ : Shape) (![1] : Fin 1 → Fin 2))
    (h2 : (⟨2, ![1, q]⟩ : Shape).BroadcastsInDim (⟨2, ![n, q]⟩ : Shape) (![0, 1] : Fin 2 → Fin 2))
    (hsc : (⟨1, ![q]⟩ : Shape).ShapeCasts ⟨2, ![1, q]⟩) :
    addf (addf (Host.dotGeneral d none M Wl)
        (broadcastInDim (⟨2, ![n, q]⟩ : Shape) (![0, 1] : Fin 2 → Fin 2) h2
          (broadcastInDim (⟨2, ![1, q]⟩ : Shape) (![1] : Fin 1 → Fin 2) h1 bv)))
      (Host.dotGeneral d none h Wr)
      = layer false M h Wl (shapeCast ⟨2, ![1, q]⟩ bv hsc) Wr := by
  simp only [Host.dotGeneral]
  rw [GcnOps.dotGeneral_eq_lin d none _ hr hs hl0 hl1 hr0 hr1, GcnOps.dotGeneral_eq_lin d none _ hr hs hl0 hl1 hr0 hr1]
  refine eq_layer false _ _ _ _ _ _ fun r c => ?_
  rw [addf_apply, addf_apply, GcnOps.bias_host_apply bv h1 h2 hsc r c, post_false]
  rfl

/-- A host layer that ends in the maximum against a broadcast rank-0 zero. -/
theorem host_relu
    (d : DotDims (⟨2, ![n, k]⟩ : Shape) (⟨2, ![k, q]⟩ : Shape) (⟨2, ![n, q]⟩ : Shape))
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (M h : FVec Ideal (⟨2, ![n, k]⟩ : Shape) .f32) (Wl Wr : FVec Ideal (⟨2, ![k, q]⟩ : Shape) .f32)
    (bv : FVec Ideal (⟨1, ![q]⟩ : Shape) .f32)
    (h1 : (⟨1, ![q]⟩ : Shape).BroadcastsInDim (⟨2, ![1, q]⟩ : Shape) (![1] : Fin 1 → Fin 2))
    (h2 : (⟨2, ![1, q]⟩ : Shape).BroadcastsInDim (⟨2, ![n, q]⟩ : Shape) (![0, 1] : Fin 2 → Fin 2))
    (h0 : (⟨0, ![]⟩ : Shape).BroadcastsInDim (⟨2, ![n, q]⟩ : Shape) (![] : Fin 0 → Fin 2))
    (hsc : (⟨1, ![q]⟩ : Shape).ShapeCasts ⟨2, ![1, q]⟩) :
    maximumf
      (addf (addf (Host.dotGeneral d none M Wl)
          (broadcastInDim (⟨2, ![n, q]⟩ : Shape) (![0, 1] : Fin 2 → Fin 2) h2
            (broadcastInDim (⟨2, ![1, q]⟩ : Shape) (![1] : Fin 1 → Fin 2) h1 bv)))
        (Host.dotGeneral d none h Wr))
      (broadcastInDim (⟨2, ![n, q]⟩ : Shape) (![] : Fin 0 → Fin 2) h0
        (constant (F := Ideal) (⟨0, ![]⟩ : Shape) .f32 0x00000000#32))
      = layer true M h Wl (shapeCast ⟨2, ![1, q]⟩ bv hsc) Wr := by
  rw [host_core d hr hs hl0 hl1 hr0 hr1 M h Wl Wr bv h1 h2 hsc]
  refine max_layer _ _ _ _ _ _ fun i => ?_
  rw [broadcastInDim_apply _ h0 _ i ix0 (fun a => a.elim0), constant_apply]
  rfl

end Sage.Spell

end
-- ==== Proof.LibSageSumFirst.lean ====
/-
  One layer of the network, as the kernel body spells it.

  The body multiplies each row of the aggregated sums by that row's reciprocal degree, multiplies the result by the
  neighbour weights and the layer input by the root weights (two products onto a zero accumulator, the operands passed
  through the narrower float format, which changes nothing on the extended reals), adds the two products FIRST and the bias
  row LAST.  The layer as specified adds the bias to the neighbour product first and the root product last.  Addition of
  extended reals is commutative and associative, so the two are the same array; no finiteness is needed.
-/
import Idealize.ShloMosaic.Lib.Pipeline.Value
import Idealize.ShloMosaic.Lib.ValueIdx
import Idealize.ShloMosaic.Lib.ValueLayout
import Idealize.ShloMosaic.PureOps.Ideal.Laws
import proofs.«127925_j33998961116076_2_alg».proof.Proof.LibRowOps
import proofs.«127925_j33998961116076_2_alg».proof.Proof.LibSageLayer
import proofs.«127925_j33998961116076_2_alg».proof.Proof.LibSageSpellings

noncomputable section

open scoped BigOperators

namespace Sage.Spell

open Idealize.ShloMosaic Idealize.ShloMosaic.ValueIdx GcnSpec Sage

variable {n k q : ℕ}

/-- (scaled aggregate · Wl + h · Wr) + bias row = the layer ((scaled aggregate · Wl + bias) + h · Wr). -/
theorem body_sum_first
    (d : DotDims (⟨2, ![n, k]⟩ : Shape) (⟨2, ![k, q]⟩ : Shape) (⟨2, ![n, q]⟩ : Shape))
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (x0 x1 : FVec Ideal (⟨2, ![n, k]⟩ : Shape) .f32) (x2 : FVec Ideal (⟨2, ![n, 1]⟩ : Shape) .f32)
    (x3 x5 : FVec Ideal (⟨2, ![k, q]⟩ : Shape) .f32) (x4 : FVec Ideal (⟨2, ![1, q]⟩ : Shape) .f32)
    (b2 : (⟨2, ![n, 1]⟩ : Shape).Broadcasts ⟨2, ![n, k]⟩) (b4 : (⟨2, ![1, q]⟩ : Shape).Broadcasts ⟨2, ![n, q]⟩)
    (t : FTy.bf16.bits < FTy.f32.bits) :
    addf (addf (FloatOps.matmul d none (truncf .bf16 (mulf x0 (broadcastTo ⟨2, ![n, k]⟩ x2 b2)) t) (truncf .bf16 x3 t)
          (constant (F := Ideal) (⟨2, ![n, q]⟩ : Shape) .f32 0x00000000#32))
        (FloatOps.matmul d none (truncf .bf16 x1 t) (truncf .bf16 x5 t)
          (constant (F := Ideal) (⟨2, ![n, q]⟩ : Shape) .f32 0x00000000#32)))
      (broadcastTo ⟨2, ![n, q]⟩ x4 b4)
      = layer false (scaleRows x0 x2) x1 x3 x4 x5 := by
  rw [← body_core d hr hs hl0 hl1 hr0 hr1 x0 x1 x2 x3 x5 x4 b2 b4 t]
  funext i
  rw [addf_apply, addf_apply, addf_apply, addf_apply]
  exact add_right_comm _ _ _

/-- The same followed by the maximum with a splat zero: the layer with its maximum. -/
theorem body_sum_first_relu
    (d : DotDims (⟨2, ![n, k]⟩ : Shape) (⟨2, ![k, q]⟩ : Shape) (⟨2, ![n, q]⟩ : Shape))
    (hr : d.contr.rank = 1) (hs : d.contr.size ⟨0, by omega⟩ = k)
    (hl0 : ∀ (j : (⟨2, ![n, q]⟩ : Shape).Idx) (c : d.contr.Idx), (d.lhsIdx j c 0).val = (j 0).val)
    (hl1 : ∀ (j : (⟨2, ![n, q]⟩ : Shape).Idx) (c : d.contr.Idx), (d.lhsIdx j c 1).val = (c ⟨0, by omega⟩).val)
    (hr0 : ∀ (j : (⟨2, ![n, q]⟩ : Shape).Idx) (c : d.contr.Idx), (d.rhsIdx j c 0).val = (c ⟨0, by omega⟩).val)
    (hr1 : ∀ (j : (⟨2, ![n, q]⟩ : Shape).Idx) (c : d.contr.Idx), (d.rhsIdx j c 1).val = (j 1).val)
    (x0 x1 : FVec Ideal (⟨2, ![n, k]⟩ : Shape) .f32) (x2 : FVec Ideal (⟨2, ![n, 1]⟩ : Shape) .f32)
    (x3 x5 : FVec Ideal (⟨2, ![k, q]⟩ : Shape) .f32) (x4 : FVec Ideal (⟨2, ![1, q]⟩ : Shape) .f32)
    (b2 : (⟨2, ![n, 1]⟩ : Shape).Broadcasts ⟨2, ![n, k]⟩) (b4 : (⟨2, ![1, q]⟩ : Shape).Broadcasts ⟨2, ![n, q]⟩)
    (t : FTy.bf16.bits < FTy.f32.bits) :
    maximumf
      (addf (addf (FloatOps.matmul d none (truncf .bf16 (mulf x0 (broadcastTo ⟨2, ![n, k]⟩ x2 b2)) t) (truncf .bf16 x3 t)
            (constant (F := Ideal) (⟨2, ![n, q]⟩ : Shape) .f32 0x00000000#32))
          (FloatOps.matmul d none (truncf .bf16 x1 t) (truncf .bf16 x5 t)
            (constant (F := Ideal) (⟨2, ![n, q]⟩ : Shape) .f32 0x00000000#32)))
        (broadcastTo ⟨2, ![n, q]⟩ x4 b4))
      (broadcast ⟨2, ![n, q]⟩ (Scalar.ofBits (F := Ideal) .f32 0x00000000#32))
      = layer true (scaleRows x0 x2) x1 x3 x4 x5 := by
  rw [body_sum_first d hr hs hl0 hl1 hr0 hr1 x0 x1 x2 x3 x5 x4 b2 b4 t]
  exact max_layer _ _ _ _ _ _ fun _ => rfl

end Sage.Spell

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.Payload.lean ====
/-
  What one grid point of each region stores, as a layer of the network on the block's 2000 rows.

  The three region bodies are the same chain: the aggregated block scaled row by row by the reciprocal-degree column,
  times the neighbour weights, plus the layer-input block times the root weights, plus the bias row; the second store is
  that value with its negative entries replaced by zero.  Casts between equal shapes are the identity.
-/
import proofs.«127925_j33998961116076_2_alg».proof.Proof.Gen.KernelIdeal.Skeleton
import proofs.«127925_j33998961116076_2_alg».proof.Proof.LibSageSumFirst
import proofs.«127925_j33998961116076_2_alg».proof.Proof.LibDot2

noncomputable section

namespace Cert.KernelIdeal.Pay

open Idealize.ShloMosaic Idealize.ShloMosaic.ValueIdx Cert.KernelIdeal Cert.KernelIdeal.Gen

/-! The block product contracts the columns of its left operand against the rows of its right operand. -/
theorem hrank : (dot_S2000x128_S128x128_S2000x128_1_0_0_1_n_n).contr.rank = 1 := Dot2.rank_contr _ rfl
theorem hsize : (dot_S2000x128_S128x128_S2000x128_1_0_0_1_n_n).contr.size ⟨0, by rw [hrank]; exact Nat.one_pos⟩ = 128 := Dot2.size_contr _ rfl _
theorem hl0 (j : S2000x128.Idx) (c : (dot_S2000x128_S128x128_S2000x128_1_0_0_1_n_n).contr.Idx) : ((dot_S2000x128_S128x128_S2000x128_1_0_0_1_n_n).lhsIdx j c 0).val = (j 0).val :=
  Dot2.lhs0 _ rfl rfl j c
theorem hl1 (j : S2000x128.Idx) (c : (dot_S2000x128_S128x128_S2000x128_1_0_0_1_n_n).contr.Idx) :
    ((dot_S2000x128_S128x128_S2000x128_1_0_0_1_n_n).lhsIdx j c 1).val = (c ⟨0, by rw [hrank]; exact Nat.one_pos⟩).val := Dot2.lhs1 _ rfl _ j c
theorem hr0 (j : S2000x128.Idx) (c : (dot_S2000x128_S128x128_S2000x128_1_0_0_1_n_n).contr.Idx) :
    ((dot_S2000x128_S128x128_S2000x128_1_0_0_1_n_n).rhsIdx j c 0).val = (c ⟨0, by rw [hrank]; exact Nat.one_pos⟩).val := Dot2.rhs0 _ rfl _ j c
theorem hr1 (j : S2000x128.Idx) (c : (dot_S2000x128_S128x128_S2000x128_1_0_0_1_n_n).contr.Idx) : ((dot_S2000x128_S128x128_S2000x128_1_0_0_1_n_n).rhsIdx j c 1).val = (j 1).val :=
  Dot2.rhs1 _ rfl rfl rfl rfl j c

/-- Region 0's stored value before the clamp is the layer on the block's rows. -/
theorem pay1_0 (v0 : Vec Ideal S2000x128 .f32) (v2 : Vec Ideal S2000x1 .f32) (v7 : Vec Ideal S2000x128 .f32)
    (v9 v12 : Vec Ideal S128x128 .f32) (v18 : Vec Ideal S1x128 .f32) :
    k0_pay1 (F := Ideal) v0 v2 v7 v9 v12 v18 = Sage.layer false (Sage.scaleRows v0 v2) v7 v9 v18 v12 := by
  unfold k0_pay1
  simp only [shapeCast_self]
  exact Sage.Spell.body_sum_first dot_S2000x128_S128x128_S2000x128_1_0_0_1_n_n hrank hsize hl0 hl1 hr0 hr1 v0 v7 v2 v9 v12 v18 _ _ _

/-- Region 0's clamped stored value is the layer with its maximum on the block's rows. -/
theorem pay2_0 (v0 : Vec Ideal S2000x128 .f32) (v2 : Vec Ideal S2000x1 .f32) (v7 : Vec Ideal S2000x128 .f32)
    (v9 v12 : Vec Ideal S128x128 .f32) (v18 : Vec Ideal S1x128 .f32) :
    k0_pay2 (F := Ideal) v0 v2 v7 v9 v12 v18 = Sage.layer true (Sage.scaleRows v0 v2) v7 v9 v18 v12 := by
  unfold k0_pay2 k0_pay1
  simp only [shapeCast_self]
  exact Sage.Spell.body_sum_first_relu dot_S2000x128_S128x128_S2000x128_1_0_0_1_n_n hrank hsize hl0 hl1 hr0 hr1 v0 v7 v2 v9 v12 v18 _ _ _

/-- Region 1's stored value before the clamp is the layer on the block's rows. -/
theorem pay1_1 (v0 : Vec Ideal S2000x128 .f32) (v2 : Vec Ideal S2000x1 .f32) (v7 : Vec Ideal S2000x128 .f32)
    (v9 v12 : Vec Ideal S128x128 .f32) (v18 : Vec Ideal S1x128 .f32) :
    k1_pay1 (F := Ideal) v0 v2 v7 v9 v12 v18 = Sage.layer false (Sage.scaleRows v0 v2) v7 v9 v18 v12 := by
  unfold k1_pay1
  simp only [shapeCast_self]
  exact Sage.Spell.body_sum_first dot_S2000x128_S128x128_S2000x128_1_0_0_1_n_n hrank hsize hl0 hl1 hr0 hr1 v0 v7 v2 v9 v12 v18 _ _ _

/-- Region 1's clamped stored value is the layer with its maximum on the block's rows. -/
theorem pay2_1 (v0 : Vec Ideal S2000x128 .f32) (v2 : Vec Ideal S2000x1 .f32) (v7 : Vec Ideal S2000x128 .f32)
    (v9 v12 : Vec Ideal S128x128 .f32) (v18 : Vec Ideal S1x128 .f32) :
    k1_pay2 (F := Ideal) v0 v2 v7 v9 v12 v18 = Sage.layer true (Sage.scaleRows v0 v2) v7 v9 v18 v12 := by
  unfold k1_pay2 k1_pay1
  simp only [shapeCast_self]
  exact Sage.Spell.body_sum_first_relu dot_S2000x128_S128x128_S2000x128_1_0_0_1_n_n hrank hsize hl0 hl1 hr0 hr1 v0 v7 v2 v9 v12 v18 _ _ _

/-- Region 2's stored value before the clamp is the layer on the block's rows. -/
theorem pay1_2 (v0 : Vec Ideal S2000x128 .f32) (v2 : Vec Ideal S2000x1 .f32) (v7 : Vec Ideal S2000x128 .f32)
    (v9 v12 : Vec Ideal S128x128 .f32) (v18 : Vec Ideal S1x128 .f32) :
    k2_pay1 (F := Ideal) v0 v2 v7 v9 v12 v18 = Sage.layer false (Sage.scaleRows v0 v2) v7 v9 v18 v12 := by
  unfold k2_pay1
  simp only [shapeCast_self]
  exact Sage.Spell.body_sum_first dot_S2000x128_S128x128_S2000x128_1_0_0_1_n_n hrank hsize hl0 hl1 hr0 hr1 v0 v7 v2 v9 v12 v18 _ _ _

/-- Region 2's clamped stored value is the layer with its maximum on the block's rows. -/
theorem pay2_2 (v0 : Vec Ideal S2000x128 .f32) (v2 : Vec Ideal S2000x1 .f32) (v7 : Vec Ideal S2000x128 .f32)
    (v9 v12 : Vec Ideal S128x128 .f32) (v18 : Vec Ideal S1x128 .f32) :
    k2_pay2 (F := Ideal) v0 v2 v7 v9 v12 v18 = Sage.layer true (Sage.scaleRows v0 v2) v7 v9 v18 v12 := by
  unfold k2_pay2 k2_pay1
  simp only [shapeCast_self]
  exact Sage.Spell.body_sum_first_relu dot_S2000x128_S128x128_S2000x128_1_0_0_1_n_n hrank hsize hl0 hl1 hr0 hr1 v0 v7 v2 v9 v12 v18 _ _ _

end Cert.KernelIdeal.Pay

end
-- ==== Proof.LibBandLayer.lean ====
/-
  A band of rows of one layer of the network.

  The layer is row-wise: entry (r, c) of its result is fixed by row r of the aggregated sums, entry r of the
  reciprocal-degree column, row r of the nodes' own features, and column c of the parameters.  So when a block of n rows
  is cut out of the N rows of every row-indexed array, starting "o" rows down, and the parameters are taken whole, the
  layer of the blocks is the block of the layer: entry (y, c) of the first is entry (o + y, c) of the second.

  The hypotheses say where each block entry sits in its array by the values of the coordinates only, so that they can
  be discharged for blocks whose index types are spelled differently from the arrays'.
-/
import proofs.«127925_j33998961116076_2_alg».proof.Proof.LibSageLayer

noncomputable section

namespace Sage

open Idealize.ShloMosaic Idealize.ShloMosaic.ValueIdx GcnSpec

/-- The layer of a band of rows is the band of the layer. -/
theorem layer_band (relu : Bool) {N n k q : ℕ} (A h : Arr N k) (s : Arr N 1) (Wl : Arr k q) (b : Arr 1 q) (Wr : Arr k q)
    (x0 x2 : Arr n k) (x1 : Arr n 1) (x3 : Arr k q) (x4 : Arr 1 q) (x5 : Arr k q) (o : ℕ)
    (h0 : ∀ (y : (⟨2, ![n, k]⟩ : Shape).Idx) (i : (⟨2, ![N, k]⟩ : Shape).Idx),
      (i 0).val = o + (y 0).val → (i 1).val = (y 1).val → x0 y = A i)
    (h1 : ∀ (y : (⟨2, ![n, 1]⟩ : Shape).Idx) (i : (⟨2, ![N, 1]⟩ : Shape).Idx),
      (i 0).val = o + (y 0).val → x1 y = s i)
    (h2 : ∀ (y : (⟨2, ![n, k]⟩ : Shape).Idx) (i : (⟨2, ![N, k]⟩ : Shape).Idx),
      (i 0).val = o + (y 0).val → (i 1).val = (y 1).val → x2 y = h i)
    (h3 : x3 = Wl) (h4 : x4 = b) (h5 : x5 = Wr)
    (j : (⟨2, ![n, q]⟩ : Shape).Idx) (i : (⟨2, ![N, q]⟩ : Shape).Idx)
    (hi0 : (i 0).val = o + (j 0).val) (hi1 : (i 1).val = (j 1).val) :
    layer relu (scaleRows x0 x1) x2 x3 x4 x5 j = layer relu (scaleRows A s) h Wl b Wr i := by
  subst h3 h4 h5
  obtain ⟨y, c, rfl⟩ : ∃ (y : Fin n) (c : Fin q), j = ix2 y c := ⟨j 0, j 1, eq_ix2 j⟩
  obtain ⟨r, c', rfl⟩ : ∃ (r : Fin N) (c' : Fin q), i = ix2 r c' := ⟨i 0, i 1, eq_ix2 i⟩
  obtain rfl : c' = c := Fin.ext hi1
  have hr : r.val = o + y.val := hi0
  refine layer_row relu _ _ _ _ _ _ _ _ _ _ y r c' (fun l => ?_) (fun l => ?_) (fun _ => rfl) rfl (fun _ => rfl)
  · rw [scaleRows_ix2, scaleRows_ix2, h0 (ix2 y l) (ix2 r l) hr rfl, h1 (ix2 y (0 : Fin 1)) (ix2 r (0 : Fin 1)) hr]
  · exact h2 (ix2 y l) (ix2 r l) hr rfl

end Sage

end
-- ==== Proof.Region0.lean ====
/-
  Region 0 of the program, from blocks to arrays.

  The region runs over 25 grid points.  Point t reads rows 2000 t .. 2000 t + 1999 of the aggregated sums, of the
  reciprocal-degree column and of the layer's input, and the whole of the two weight matrices and of the bias row; it
  stores one layer of the network on those 2000 rows twice: unclamped into columns 0 .. 127 of the same rows
  of the wide result array, and clamped at zero into the same rows of the narrow result array.

  Because the layer is row-wise, what point t stores is the band of rows 2000 t .. 2000 t + 1999 of ONE array: the layer
  of the whole arrays.  The 25 bands tile the 50000 rows, so the narrow array ends as the clamped layer of the whole
  arrays, and the wide array ends as the unclamped layer in its columns 0 .. 127 and as it was found elsewhere.
-/
import proofs.«127925_j33998961116076_2_alg».proof.Proof.Gen.KernelIdeal.Frame
import proofs.«127925_j33998961116076_2_alg».proof.Proof.Payload
import proofs.«127925_j33998961116076_2_alg».proof.Proof.LibBandLayer
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region0

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The layer of the whole arrays as the region finds them, clamped or not. -/
abbrev whole (relu : Bool) : S50000x128.Idx → EReal :=
  Sage.layer relu (Sage.scaleRows (V c main_v24 : S50000x128.Idx → EReal) (V c main_v11 : S50000x1.Idx → EReal))
    (V c main_arg0 : S50000x128.Idx → EReal) (V c main_v26 : S128x128.Idx → EReal) (V c main_v31 : S1x128.Idx → EReal)
    (V c main_v30 : S128x128.Idx → EReal)

/-- The wide array after the region: the unclamped layer in columns 0 .. 127, the entry contents elsewhere. -/
abbrev wide (i : S50000x384.Idx) : EReal :=
  if (i 1).val / 128 = 0 then whole V c false (ix2 ⟨(i 0).val, idx2_lt0 i⟩ ⟨(i 1).val % 128, Nat.mod_lt _ (by decide)⟩)
  else (V c main_v32_0 : S50000x384.Idx → EReal) i

/-- The block index of every window at every grid point: the row-indexed windows move one block down per point, the
    parameters stay, and the wide result sits in block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## Each input block, entry by entry -/

/-- The block of aggregated sums at point t is rows 2000 t .. of the array. -/
theorem blk_agg (t : Fin cfg0.N) (y : S2000x128.Idx) (k : S50000x128.Idx)
    (hk0 : (k 0).val = 2000 * t.val + (y 0).val) (hk1 : (k 1).val = (y 1).val) :
    (Gen.iblk0 (F := Ideal) V c 0 t : S2000x128.Idx → EReal) y = (V c main_v24 : S50000x128.Idx → EReal) k := by
  obtain ⟨e0, e1, -⟩ := idx_facts t
  unfold Gen.iblk0
  rw [View.read_apply]
  show V c main_v24 _ = V c main_v24 _
  congr 1
  funext a
  apply Fin.ext
  match a with
  | ⟨0, _⟩ => show win0_0.index t 0 * 2000 + 1 * (y 0).val = (k 0).val; rw [e0, hk0]; omega
  | ⟨1, _⟩ => show win0_0.index t 1 * 128 + 1 * (y 1).val = (k 1).val; rw [e1, hk1]; omega

/-- The block of the reciprocal-degree column at point t is rows 2000 t .. of the column. -/
theorem blk_inv (t : Fin cfg0.N) (y : S2000x1.Idx) (k : S50000x1.Idx)
    (hk0 : (k 0).val = 2000 * t.val + (y 0).val) :
    (Gen.iblk0 (F := Ideal) V c 1 t : S2000x1.Idx → EReal) y = (V c main_v11 : S50000x1.Idx → EReal) k := by
  obtain ⟨-, -, e0, e1, -⟩ := idx_facts t
  have hy : (y 1).val < 1 := (y 1).isLt
  have hk : (k 1).val < 1 := (k 1).isLt
  unfold Gen.iblk0
  rw [View.read_apply]
  show V c main_v11 _ = V c main_v11 _
  congr 1
  funext a
  apply Fin.ext
  match a with
  | ⟨0, _⟩ => show win0_1.index t 0 * 2000 + 1 * (y 0).val = (k 0).val; rw [e0, hk0]; omega
  | ⟨1, _⟩ => show win0_1.index t 1 * 1 + 1 * (y 1).val = (k 1).val; rw [e1]; omega

/-- The block of the layer's input at point t is rows 2000 t .. of the array. -/
theorem blk_in (t : Fin cfg0.N) (y : S2000x128.Idx) (k : S50000x128.Idx)
    (hk0 : (k 0).val = 2000 * t.val + (y 0).val) (hk1 : (k 1).val = (y 1).val) :
    (Gen.iblk0 (F := Ideal) V c 2 t : S2000x128.Idx → EReal) y = (V c main_arg0 : S50000x128.Idx → EReal) k := by
  obtain ⟨-, -, -, -, e0, e1, -⟩ := idx_facts t
  unfold Gen.iblk0
  rw [View.read_apply]
  show V c main_arg0 _ = V c main_arg0 _
  congr 1
  funext a
  apply Fin.ext
  match a with
  | ⟨0, _⟩ => show win0_2.index t 0 * 2000 + 1 * (y 0).val = (k 0).val; rw [e0, hk0]; omega
  | ⟨1, _⟩ => show win0_2.index t 1 * 128 + 1 * (y 1).val = (k 1).val; rw [e1, hk1]; omega

/-- The block of the neighbour weights is the whole matrix at every point. -/
theorem blk_wl (t : Fin cfg0.N) :
    (Gen.iblk0 (F := Ideal) V c 3 t : S128x128.Idx → EReal) = (V c main_v26 : S128x128.Idx → EReal) := by
  obtain ⟨-, -, -, -, -, -, e0, e1, -⟩ := idx_facts t
  funext y
  have h0 : (y 0).val < 128 := (y 0).isLt
  have h1 : (y 1).val < 128 := (y 1).isLt
  unfold Gen.iblk0
  rw [View.read_apply]
  show V c main_v26 _ = V c main_v26 _
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

/-- The block of the bias is the whole row at every point. -/
theorem blk_bias (t : Fin cfg0.N) :
    (Gen.iblk0 (F := Ideal) V c 4 t : S1x128.Idx → EReal) = (V c main_v31 : S1x128.Idx → EReal) := by
  obtain ⟨-, -, -, -, -, -, -, -, e0, e1, -⟩ := idx_facts t
  funext y
  have h0 : (y 0).val < 1 := (y 0).isLt
  have h1 : (y 1).val < 128 := (y 1).isLt
  unfold Gen.iblk0
  rw [View.read_apply]
  show V c main_v31 _ = V c main_v31 _
  congr 1
  funext a
  apply Fin.ext
  match a with
  | ⟨0, _⟩ => show win0_4.index t 0 * 1 + 1 * (y 0).val = (y 0).val; rw [e0]; omega
  | ⟨1, _⟩ => show win0_4.index t 1 * 128 + 1 * (y 1).val = (y 1).val; rw [e1]; omega

/-- The block of the root weights is the whole matrix at every point. -/
theorem blk_wr (t : Fin cfg0.N) :
    (Gen.iblk0 (F := Ideal) V c 5 t : S128x128.Idx → EReal) = (V c main_v30 : S128x128.Idx → EReal) := by
  obtain ⟨-, -, -, -, -, -, -, -, -, -, e0, e1, -⟩ := idx_facts t
  funext y
  have h0 : (y 0).val < 128 := (y 0).isLt
  have h1 : (y 1).val < 128 := (y 1).isLt
  unfold Gen.iblk0
  rw [View.read_apply]
  show V c main_v30 _ = V c main_v30 _
  congr 1
  funext a
  apply Fin.ext
  match a with
  | ⟨0, _⟩ => show win0_5.index t 0 * 128 + 1 * (y 0).val = (y 0).val; rw [e0]; omega
  | ⟨1, _⟩ => show win0_5.index t 1 * 128 + 1 * (y 1).val = (y 1).val; rw [e1]; omega

/-! ## The layer of the blocks at point t is the band of the layer of the arrays -/

/-- Entry j of the layer of point t's blocks is the entry of the whole layer 2000 t rows further down. -/
theorem band (relu : Bool) (t : Fin cfg0.N) (j : S2000x128.Idx) (i : S50000x128.Idx)
    (hi0 : (i 0).val = 2000 * t.val + (j 0).val) (hi1 : (i 1).val = (j 1).val) :
    Sage.layer relu (Sage.scaleRows (Gen.iblk0 (F := Ideal) V c 0 t : S2000x128.Idx → EReal) (Gen.iblk0 (F := Ideal) V c 1 t : S2000x1.Idx → EReal))
        (Gen.iblk0 (F := Ideal) V c 2 t : S2000x128.Idx → EReal) (Gen.iblk0 (F := Ideal) V c 3 t : S128x128.Idx → EReal)
        (Gen.iblk0 (F := Ideal) V c 4 t : S1x128.Idx → EReal) (Gen.iblk0 (F := Ideal) V c 5 t : S128x128.Idx → EReal) j
      = whole V c relu i :=
  Sage.layer_band relu (V c main_v24 : S50000x128.Idx → EReal) (V c main_arg0 : S50000x128.Idx → EReal)
    (V c main_v11 : S50000x1.Idx → EReal) (V c main_v26 : S128x128.Idx → EReal) (V c main_v31 : S1x128.Idx → EReal)
    (V c main_v30 : S128x128.Idx → EReal)
    (Gen.iblk0 (F := Ideal) V c 0 t : S2000x128.Idx → EReal) (Gen.iblk0 (F := Ideal) V c 2 t : S2000x128.Idx → EReal)
    (Gen.iblk0 (F := Ideal) V c 1 t : S2000x1.Idx → EReal) (Gen.iblk0 (F := Ideal) V c 3 t : S128x128.Idx → EReal)
    (Gen.iblk0 (F := Ideal) V c 4 t : S1x128.Idx → EReal) (Gen.iblk0 (F := Ideal) V c 5 t : S128x128.Idx → EReal)
    (2000 * t.val)
    (fun y k h0 h1 => blk_agg V c t y k h0 h1) (fun y k h0 => blk_inv V c t y k h0) (fun y k h0 h1 => blk_in V c t y k h0 h1)
    (blk_wl V c t) (blk_bias V c t) (blk_wr V c t) j i hi0 hi1

/-- The same entry read in the wide array, 0 columns to the right. -/
theorem band_wide (t : Fin cfg0.N) (j : S2000x128.Idx) (i : S50000x384.Idx)
    (hi0 : (i 0).val = 2000 * t.val + (j 0).val) (hi1 : (i 1).val = 0 + (j 1).val) :
    Sage.layer false (Sage.scaleRows (Gen.iblk0 (F := Ideal) V c 0 t : S2000x128.Idx → EReal) (Gen.iblk0 (F := Ideal) V c 1 t : S2000x1.Idx → EReal))
        (Gen.iblk0 (F := Ideal) V c 2 t : S2000x128.Idx → EReal) (Gen.iblk0 (F := Ideal) V c 3 t : S128x128.Idx → EReal)
        (Gen.iblk0 (F := Ideal) V c 4 t : S1x128.Idx → EReal) (Gen.iblk0 (F := Ideal) V c 5 t : S128x128.Idx → EReal) j
      = wide V c i := by
  have hj1 : (j 1).val < 128 := (j 1).isLt
  unfold wide
  rw [if_pos (by omega)]
  exact band V c false t j _ hi0 (by show (i 1).val % 128 = (j 1).val; omega)

/-! ## What each point writes back -/

/-- Point t writes back, into the narrow array, block t of the clamped layer of the whole arrays. -/
theorem flushed_act (t : Fin cfg0.N) :
    (Gen.dat0 (F := Ideal) V c).flushed 8 t = ((cfg0.win 8).blk t).view.read (Elt Ideal) (whole V c true) := by
  show (cfg0.win 8).cut (grid0.coords t) ((Gen.dat0 (F := Ideal) V c).after 8 t) = _
  rw [Gen.after0_8]
  unfold Gen.out0_8
  rw [View.canon_unit_zero hz]
  simp only [View.ld_unit_zero (S := S2000x128) hz, View.ld_unit_zero (S := S2000x1) hz,
    View.ld_unit_zero (S := S128x128) hz, View.ld_unit_zero (S := S1x128) hz]
  rw [Pay.pay2_0]
  obtain ⟨-, -, -, -, -, -, -, -, -, -, -, -, -, -, e0, e1⟩ := idx_facts t
  funext j
  refine band V c true t _ (((cfg0.win 8).blk t).view.emb j) ?_ ?_
  · show win0_8.index t 0 * 2000 + 1 * (j 0).val = 2000 * t.val + (j 0).val; rw [e0]; omega
  · show win0_8.index t 1 * 128 + 1 * (j 1).val = (j 1).val; rw [e1]; omega

/-- Point t writes back, into the wide array, block t of "wide". -/
theorem flushed_raw (t : Fin cfg0.N) :
    (Gen.dat0 (F := Ideal) V c).flushed 7 t = ((cfg0.win 7).blk t).view.read (Elt Ideal) (wide V c) := by
  show (cfg0.win 7).cut (grid0.coords t) ((Gen.dat0 (F := Ideal) V c).after 7 t) = _
  rw [Gen.after0_7]
  unfold Gen.out0_7
  rw [View.canon_unit_zero hz]
  simp only [View.ld_unit_zero (S := S2000x128) hz, View.ld_unit_zero (S := S2000x1) hz,
    View.ld_unit_zero (S := S128x128) hz, View.ld_unit_zero (S := S1x128) hz]
  rw [Pay.pay1_0]
  obtain ⟨-, -, -, -, -, -, -, -, -, -, -, -, e0, e1, -⟩ := idx_facts t
  funext j
  refine band_wide V c t _ (((cfg0.win 7).blk t).view.emb j) ?_ ?_
  · show win0_7.index t 0 * 2000 + 1 * (j 0).val = 2000 * t.val + (j 0).val; rw [e0]; omega
  · show win0_7.index t 1 * 128 + 1 * (j 1).val = 0 + (j 1).val; rw [e1]; omega

/-! ## The blocks tile the rows -/

/-- An index of the narrow array is in point t's block iff each coordinate is in the block's range. -/
theorem mem_blk_act (t : Fin cfg0.N) (i : S50000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v32_1).slice (win0_8.rect t)).set ↔ _
  rw [View.set_slice_whole, Rect.mem_set_unit]
  exact Iff.rfl

/-- An index of the wide array is in point t's block iff each coordinate is in the block's range. -/
theorem mem_blk_raw (t : Fin cfg0.N) (i : S50000x384.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v32_0).slice (win0_7.rect t)).set ↔ _
  rw [View.set_slice_whole, Rect.mem_set_unit]
  exact Iff.rfl

/-- The grid point whose block holds row r is r / 2000. -/
theorem point_of_row (r : ℕ) (hr : r < 50000) : ∃ t : Fin cfg0.N, t.val = r / 2000 :=
  ⟨⟨r / 2000, by show r / 2000 < 25; omega⟩, rfl⟩

/-- Every index of the narrow array is in some point's block. -/
theorem cover_act (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  obtain ⟨t, ht⟩ := point_of_row (i 0).val hi0
  obtain ⟨-, -, -, -, -, -, -, -, -, -, -, -, -, -, e0, e1⟩ := idx_facts t
  refine ⟨t, Gen.flush0_8 t, ?_⟩
  rw [mem_blk_act]
  intro a
  match a with
  | ⟨0, _⟩ =>
    show win0_8.index t 0 * 2000 ≤ (i 0).val ∧ (i 0).val < win0_8.index t 0 * 2000 + 2000
    rw [e0, ht]; omega
  | ⟨1, _⟩ =>
    show win0_8.index t 1 * 128 ≤ (i 1).val ∧ (i 1).val < win0_8.index t 1 * 128 + 128
    rw [e1]; omega

/-- Every index of the wide array in columns 0 .. 127 is in some point's block. -/
theorem cover_raw (i : S50000x384.Idx) (hcol : (i 1).val / 128 = 0) :
    ∃ t : Fin cfg0.N, (cfg0.win 7).flush t = true ∧ i ∈ ((cfg0.win 7).blk t).view.set := by
  have hi0 : (i 0).val < 50000 := (i 0).isLt
  obtain ⟨t, ht⟩ := point_of_row (i 0).val hi0
  obtain ⟨-, -, -, -, -, -, -, -, -, -, -, -, e0, e1, -⟩ := idx_facts t
  refine ⟨t, Gen.flush0_7 t, ?_⟩
  rw [mem_blk_raw]
  intro a
  match a with
  | ⟨0, _⟩ =>
    show win0_7.index t 0 * 2000 ≤ (i 0).val ∧ (i 0).val < win0_7.index t 0 * 2000 + 2000
    rw [e0, ht]; omega
  | ⟨1, _⟩ =>
    show win0_7.index t 1 * 128 ≤ (i 1).val ∧ (i 1).val < win0_7.index t 1 * 128 + 128
    rw [e1]; omega

/-! ## The arrays after the region -/

/-- The narrow result array ends as the clamped layer of the whole arrays. -/
theorem act_out :
    ((Gen.dat0 (F := Ideal) V c).arrAt 8 cfg0.N : S50000x128.Idx → EReal)
      = Sage.layer true (Sage.scaleRows (V c main_v24 : S50000x128.Idx → EReal) (V c main_v11 : S50000x1.Idx → EReal))
          (V c main_arg0 : S50000x128.Idx → EReal) (V c main_v26 : S128x128.Idx → EReal) (V c main_v31 : S1x128.Idx → EReal)
          (V c main_v30 : S128x128.Idx → EReal) :=
  (Gen.dat0 (F := Ideal) V c).arrAt_eq_of_cover 8 (whole V c true) (fun t _ => flushed_act V c t) (cover_act)

/-- The wide result array ends as the unclamped layer in columns 0 .. 127 and as it was found elsewhere. -/
theorem raw_out (i : S50000x384.Idx) :
    ((Gen.dat0 (F := Ideal) V c).arrAt 7 cfg0.N : S50000x384.Idx → EReal) i
      = if (i 1).val / 128 = 0 then
          Sage.layer false (Sage.scaleRows (V c main_v24 : S50000x128.Idx → EReal) (V c main_v11 : S50000x1.Idx → EReal))
            (V c main_arg0 : S50000x128.Idx → EReal) (V c main_v26 : S128x128.Idx → EReal) (V c main_v31 : S1x128.Idx → EReal)
            (V c main_v30 : S128x128.Idx → EReal)
            (ix2 ⟨(i 0).val, idx2_lt0 i⟩ ⟨(i 1).val % 128, Nat.mod_lt _ (by decide)⟩)
        else (V c main_v32_0 : S50000x384.Idx → EReal) i := by
  rw [(Gen.dat0 (F := Ideal) V c).arrAt_eq_piecewise 7 (wide V c) (fun t _ => flushed_raw V c t) i]
  split
  · rfl
  · rename_i hno
    rw [Gen.A_eq0]
    exact (if_neg fun hcol => hno (cover_raw i hcol)).symm

end Cert.KernelIdeal.Region0

end
-- ==== Proof.Region1.lean ====
/-
  Region 1 of the program, from blocks to arrays.

  The region runs over 25 grid points.  Point t reads rows 2000 t .. 2000 t + 1999 of the aggregated sums, of the
  reciprocal-degree column and of the layer's input, and the whole of the two weight matrices and of the bias row; it
  stores one layer of the network on those 2000 rows twice: unclamped into columns 128 .. 255 of the same rows
  of the wide result array, and clamped at zero into the same rows of the narrow result array.

  Because the layer is row-wise, what point t stores is the band of rows 2000 t .. 2000 t + 1999 of ONE array: the layer
  of the whole arrays.  The 25 bands tile the 50000 rows, so the narrow array ends as the clamped layer of the whole
  arrays, and the wide array ends as the unclamped layer in its columns 128 .. 255 and as it was found elsewhere.
-/
import proofs.«127925_j33998961116076_2_alg».proof.Proof.Gen.KernelIdeal.Frame
import proofs.«127925_j33998961116076_2_alg».proof.Proof.Payload
import proofs.«127925_j33998961116076_2_alg».proof.Proof.LibBandLayer
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region1

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The layer of the whole arrays as the region finds them, clamped or not. -/
abbrev whole (relu : Bool) : S50000x128.Idx → EReal :=
  Sage.layer relu (Sage.scaleRows (V c main_v44 : S50000x128.Idx → EReal) (V c main_v11 : S50000x1.Idx → EReal))
    (V c main_v32_1 : S50000x128.Idx → EReal) (V c main_v46 : S128x128.Idx → EReal) (V c main_v51 : S1x128.Idx → EReal)
    (V c main_v50 : S128x128.Idx → EReal)

/-- The wide array after the region: the unclamped layer in columns 128 .. 255, the entry contents elsewhere. -/
abbrev wide (i : S50000x384.Idx) : EReal :=
  if (i 1).val / 128 = 1 then whole V c false (ix2 ⟨(i 0).val, idx2_lt0 i⟩ ⟨(i 1).val % 128, Nat.mod_lt _ (by decide)⟩)
  else (V c main_v52_0 : S50000x384.Idx → EReal) i

/-- The block index of every window at every grid point: the row-indexed windows move one block down per point, the
    parameters stay, and the wide result sits in block column 1. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_7.index t (0 : Fin 2) = t.val ∧ win1_7.index t (1 : Fin 2) = 1
    ∧ win1_8.index t (0 : Fin 2) = t.val ∧ win1_8.index t (1 : Fin 2) = 0 :=
  (by decide +kernel : ∀ t : Fin grid1.N, _)

/-! ## Each input block, entry by entry -/

/-- The block of aggregated sums at point t is rows 2000 t .. of the array. -/
theorem blk_agg (t : Fin cfg1.N) (y : S2000x128.Idx) (k : S50000x128.Idx)
    (hk0 : (k 0).val = 2000 * t.val + (y 0).val) (hk1 : (k 1).val = (y 1).val) :
    (Gen.iblk1 (F := Ideal) V c 0 t : S2000x128.Idx → EReal) y = (V c main_v44 : S50000x128.Idx → EReal) k := by
  obtain ⟨e0, e1, -⟩ := idx_facts t
  unfold Gen.iblk1
  rw [View.read_apply]
  show V c main_v44 _ = V c main_v44 _
  congr 1
  funext a
  apply Fin.ext
  match a with
  | ⟨0, _⟩ => show win1_0.index t 0 * 2000 + 1 * (y 0).val = (k 0).val; rw [e0, hk0]; omega
  | ⟨1, _⟩ => show win1_0.index t 1 * 128 + 1 * (y 1).val = (k 1).val; rw [e1, hk1]; omega

/-- The block of the reciprocal-degree column at point t is rows 2000 t .. of the column. -/
theorem blk_inv (t : Fin cfg1.N) (y : S2000x1.Idx) (k : S50000x1.Idx)
    (hk0 : (k 0).val = 2000 * t.val + (y 0).val) :
    (Gen.iblk1 (F := Ideal) V c 1 t : S2000x1.Idx → EReal) y = (V c main_v11 : S50000x1.Idx → EReal) k := by
  obtain ⟨-, -, e0, e1, -⟩ := idx_facts t
  have hy : (y 1).val < 1 := (y 1).isLt
  have hk : (k 1).val < 1 := (k 1).isLt
  unfold Gen.iblk1
  rw [View.read_apply]
  show V c main_v11 _ = V c main_v11 _
  congr 1
  funext a
  apply Fin.ext
  match a with
  | ⟨0, _⟩ => show win1_1.index t 0 * 2000 + 1 * (y 0).val = (k 0).val; rw [e0, hk0]; omega
  | ⟨1, _⟩ => show win1_1.index t 1 * 1 + 1 * (y 1).val = (k 1).val; rw [e1]; omega

/-- The block of the layer's input at point t is rows 2000 t .. of the array. -/
theorem blk_in (t : Fin cfg1.N) (y : S2000x128.Idx) (k : S50000x128.Idx)
    (hk0 : (k 0).val = 2000 * t.val + (y 0).val) (hk1 : (k 1).val = (y 1).val) :
    (Gen.iblk1 (F := Ideal) V c 2 t : S2000x128.Idx → EReal) y = (V c main_v32_1 : S50000x128.Idx → EReal) k := by
  obtain ⟨-, -, -, -, e0, e1, -⟩ := idx_facts t
  unfold Gen.iblk1
  rw [View.read_apply]
  show V c main_v32_1 _ = V c main_v32_1 _
  congr 1
  funext a
  apply Fin.ext
  match a with
  | ⟨0, _⟩ => show win1_2.index t 0 * 2000 + 1 * (y 0).val = (k 0).val; rw [e0, hk0]; omega
  | ⟨1, _⟩ => show win1_2.index t 1 * 128 + 1 * (y 1).val = (k 1).val; rw [e1, hk1]; omega

/-- The block of the neighbour weights is the whole matrix at every point. -/
theorem blk_wl (t : Fin cfg1.N) :
    (Gen.iblk1 (F := Ideal) V c 3 t : S128x128.Idx → EReal) = (V c main_v46 : S128x128.Idx → EReal) := by
  obtain ⟨-, -, -, -, -, -, e0, e1, -⟩ := idx_facts t
  funext y
  have h0 : (y 0).val < 128 := (y 0).isLt
  have h1 : (y 1).val < 128 := (y 1).isLt
  unfold Gen.iblk1
  rw [View.read_apply]
  show V c main_v46 _ = V c main_v46 _
  congr 1
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega

/-- The block of the bias is the whole row at every point. -/
theorem blk_bias (t : Fin cfg1.N) :
    (Gen.iblk1 (F := Ideal) V c 4 t : S1x128.Idx → EReal) = (V c main_v51 : S1x128.Idx → EReal) := by
  obtain ⟨-, -, -, -, -, -, -, -, e0, e1, -⟩ := idx_facts t
  funext y
  have h0 : (y 0).val < 1 := (y 0).isLt
  have h1 : (y 1).val < 128 := (y 1).isLt
  unfold Gen.iblk1
  rw [View.read_apply]
  show V c main_v51 _ = V c main_v51 _
  congr 1
  funext a
  apply Fin.ext
  match a with
  | ⟨0, _⟩ => show win1_4.index t 0 * 1 + 1 * (y 0).val = (y 0).val; rw [e0]; omega
  | ⟨1, _⟩ => show win1_4.index t 1 * 128 + 1 * (y 1).val = (y 1).val; rw [e1]; omega

/-- The block of the root weights is the whole matrix at every point. -/
theorem blk_wr (t : Fin cfg1.N) :
    (Gen.iblk1 (F := Ideal) V c 5 t : S128x128.Idx → EReal) = (V c main_v50 : S128x128.Idx → EReal) := by
  obtain ⟨-, -, -, -, -, -, -, -, -, -, e0, e1, -⟩ := idx_facts t
  funext y
  have h0 : (y 0).val < 128 := (y 0).isLt
  have h1 : (y 1).val < 128 := (y 1).isLt
  unfold Gen.iblk1
  rw [View.read_apply]
  show V c main_v50 _ = V c main_v50 _
  congr 1
  funext a
  apply Fin.ext
  match a with
  | ⟨0, _⟩ => show win1_5.index t 0 * 128 + 1 * (y 0).val = (y 0).val; rw [e0]; omega
  | ⟨1, _⟩ => show win1_5.index t 1 * 128 + 1 * (y 1).val = (y 1).val; rw [e1]; omega

/-! ## The layer of the blocks at point t is the band of the layer of the arrays -/

/-- Entry j of the layer of point t's blocks is the entry of the whole layer 2000 t rows further down. -/
theorem band (relu : Bool) (t : Fin cfg1.N) (j : S2000x128.Idx) (i : S50000x128.Idx)
    (hi0 : (i 0).val = 2000 * t.val + (j 0).val) (hi1 : (i 1).val = (j 1).val) :
    Sage.layer relu (Sage.scaleRows (Gen.iblk1 (F := Ideal) V c 0 t : S2000x128.Idx → EReal) (Gen.iblk1 (F := Ideal) V c 1 t : S2000x1.Idx → EReal))
        (Gen.iblk1 (F := Ideal) V c 2 t : S2000x128.Idx → EReal) (Gen.iblk1 (F := Ideal) V c 3 t : S128x128.Idx → EReal)
        (Gen.iblk1 (F := Ideal) V c 4 t : S1x128.Idx → EReal) (Gen.iblk1 (F := Ideal) V c 5 t : S128x128.Idx → EReal) j
      = whole V c relu i :=
  Sage.layer_band relu (V c main_v44 : S50000x128.Idx → EReal) (V c main_v32_1 : S50000x128.Idx → EReal)
    (V c main_v11 : S50000x1.Idx → EReal) (V c main_v46 : S128x128.Idx → EReal) (V c main_v51 : S1x128.Idx → EReal)
    (V c main_v50 : S128x128.Idx → EReal)
    (Gen.iblk1 (F := Ideal) V c 0 t : S2000x128.Idx → EReal) (Gen.iblk1 (F := Ideal) V c 2 t : S2000x128.Idx → EReal)
    (Gen.iblk1 (F := Ideal) V c 1 t : S2000x1.Idx → EReal) (Gen.iblk1 (F := Ideal) V c 3 t : S128x128.Idx → EReal)
    (Gen.iblk1 (F := Ideal) V c 4 t : S1x128.Idx → EReal) (Gen.iblk1 (F := Ideal) V c 5 t : S128x128.Idx → EReal)
    (2000 * t.val)
    (fun y k h0 h1 => blk_agg V c t y k h0 h1) (fun y k h0 => blk_inv V c t y k h0) (fun y k h0 h1 => blk_in V c t y k h0 h1)
    (blk_wl V c t) (blk_bias V c t) (blk_wr V c t) j i hi0 hi1

/-- The same entry read in the wide array, 128 columns to the right. -/
theorem band_wide (t : Fin cfg1.N) (j : S2000x128.Idx) (i : S50000x384.Idx)
    (hi0 : (i 0).val = 2000 * t.val + (j 0).val) (hi1 : (i 1).val = 128 + (j 1).val) :
    Sage.layer false (Sage.scaleRows (Gen.iblk1 (F := Ideal) V c 0 t : S2000x128.Idx → EReal) (Gen.iblk1 (F := Ideal) V c 1 t : S2000x1.Idx → EReal))
        (Gen.iblk1 (F := Ideal) V c 2 t : S2000x128.Idx → EReal) (Gen.iblk1 (F := Ideal) V c 3 t : S128x128.Idx → EReal)
        (Gen.iblk1 (F := Ideal) V c 4 t : S1x128.Idx → EReal) (Gen.iblk1 (F := Ideal) V c 5 t : S128x128.Idx → EReal) j
      = wide V c i := by
  have hj1 : (j 1).val < 128 := (j 1).isLt
  unfold wide
  rw [if_pos (by omega)]
  exact band V c false t j _ hi0 (by show (i 1).val % 128 = (j 1).val; omega)

/-! ## What each point writes back -/

/-- Point t writes back, into the narrow array, block t of the clamped layer of the whole arrays. -/
theorem flushed_act (t : Fin cfg1.N) :
    (Gen.dat1 (F := Ideal) V c).flushed 8 t = ((cfg1.win 8).blk t).view.read (Elt Ideal) (whole V c true) := by
  show (cfg1.win 8).cut (grid1.coords t) ((Gen.dat1 (F := Ideal) V c).after 8 t) = _
  rw [Gen.after1_8]
  unfold Gen.out1_8
  rw [View.canon_unit_zero hz]
  simp only [View.ld_unit_zero (S := S2000x128) hz, View.ld_unit_zero (S := S2000x1) hz,
    View.ld_unit_zero (S := S128x128) hz, View.ld_unit_zero (S := S1x128) hz]
  rw [Pay.pay2_1]
  obtain ⟨-, -, -, -, -, -, -, -, -, -, -, -, -, -, e0, e1⟩ := idx_facts t
  funext j
  refine band V c true t _ (((cfg1.win 8).blk t).view.emb j) ?_ ?_
  · show win1_8.index t 0 * 2000 + 1 * (j 0).val = 2000 * t.val + (j 0).val; rw [e0]; omega
  · show win1_8.index t 1 * 128 + 1 * (j 1).val = (j 1).val; rw [e1]; omega

/-- Point t writes back, into the wide array, block t of "wide". -/
theorem flushed_raw (t : Fin cfg1.N) :
    (Gen.dat1 (F := Ideal) V c).flushed 7 t = ((cfg1.win 7).blk t).view.read (Elt Ideal) (wide V c) := by
  show (cfg1.win 7).cut (grid1.coords t) ((Gen.dat1 (F := Ideal) V c).after 7 t) = _
  rw [Gen.after1_7]
  unfold Gen.out1_7
  rw [View.canon_unit_zero hz]
  simp only [View.ld_unit_zero (S := S2000x128) hz, View.ld_unit_zero (S := S2000x1) hz,
    View.ld_unit_zero (S := S128x128) hz, View.ld_unit_zero (S := S1x128) hz]
  rw [Pay.pay1_1]
  obtain ⟨-, -, -, -, -, -, -, -, -, -, -, -, e0, e1, -⟩ := idx_facts t
  funext j
  refine band_wide V c t _ (((cfg1.win 7).blk t).view.emb j) ?_ ?_
  · show win1_7.index t 0 * 2000 + 1 * (j 0).val = 2000 * t.val + (j 0).val; rw [e0]; omega
  · show win1_7.index t 1 * 128 + 1 * (j 1).val = 128 + (j 1).val; rw [e1]; omega

/-! ## The blocks tile the rows -/

/-- An index of the narrow array is in point t's block iff each coordinate is in the block's range. -/
theorem mem_blk_act (t : Fin cfg1.N) (i : S50000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v52_1).slice (win1_8.rect t)).set ↔ _
  rw [View.set_slice_whole, Rect.mem_set_unit]
  exact Iff.rfl

/-- An index of the wide array is in point t's block iff each coordinate is in the block's range. -/
theorem mem_blk_raw (t : Fin cfg1.N) (i : S50000x384.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v52_0).slice (win1_7.rect t)).set ↔ _
  rw [View.set_slice_whole, Rect.mem_set_unit]
  exact Iff.rfl

/-- The grid point whose block holds row r is r / 2000. -/
theorem point_of_row (r : ℕ) (hr : r < 50000) : ∃ t : Fin cfg1.N, t.val = r / 2000 :=
  ⟨⟨r / 2000, by show r / 2000 < 25; omega⟩, rfl⟩

/-- Every index of the narrow array is in some point's block. -/
theorem cover_act (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  obtain ⟨t, ht⟩ := point_of_row (i 0).val hi0
  obtain ⟨-, -, -, -, -, -, -, -, -, -, -, -, -, -, e0, e1⟩ := idx_facts t
  refine ⟨t, Gen.flush1_8 t, ?_⟩
  rw [mem_blk_act]
  intro a
  match a with
  | ⟨0, _⟩ =>
    show win1_8.index t 0 * 2000 ≤ (i 0).val ∧ (i 0).val < win1_8.index t 0 * 2000 + 2000
    rw [e0, ht]; omega
  | ⟨1, _⟩ =>
    show win1_8.index t 1 * 128 ≤ (i 1).val ∧ (i 1).val < win1_8.index t 1 * 128 + 128
    rw [e1]; omega

/-- Every index of the wide array in columns 128 .. 255 is in some point's block. -/
theorem cover_raw (i : S50000x384.Idx) (hcol : (i 1).val / 128 = 1) :
    ∃ t : Fin cfg1.N, (cfg1.win 7).flush t = true ∧ i ∈ ((cfg1.win 7).blk t).view.set := by
  have hi0 : (i 0).val < 50000 := (i 0).isLt
  obtain ⟨t, ht⟩ := point_of_row (i 0).val hi0
  obtain ⟨-, -, -, -, -, -, -, -, -, -, -, -, e0, e1, -⟩ := idx_facts t
  refine ⟨t, Gen.flush1_7 t, ?_⟩
  rw [mem_blk_raw]
  intro a
  match a with
  | ⟨0, _⟩ =>
    show win1_7.index t 0 * 2000 ≤ (i 0).val ∧ (i 0).val < win1_7.index t 0 * 2000 + 2000
    rw [e0, ht]; omega
  | ⟨1, _⟩ =>
    show win1_7.index t 1 * 128 ≤ (i 1).val ∧ (i 1).val < win1_7.index t 1 * 128 + 128
    rw [e1]; omega

/-! ## The arrays after the region -/

/-- The narrow result array ends as the clamped layer of the whole arrays. -/
theorem act_out :
    ((Gen.dat1 (F := Ideal) V c).arrAt 8 cfg1.N : S50000x128.Idx → EReal)
      = Sage.layer true (Sage.scaleRows (V c main_v44 : S50000x128.Idx → EReal) (V c main_v11 : S50000x1.Idx → EReal))
          (V c main_v32_1 : S50000x128.Idx → EReal) (V c main_v46 : S128x128.Idx → EReal) (V c main_v51 : S1x128.Idx → EReal)
          (V c main_v50 : S128x128.Idx → EReal) :=
  (Gen.dat1 (F := Ideal) V c).arrAt_eq_of_cover 8 (whole V c true) (fun t _ => flushed_act V c t) (cover_act)

/-- The wide result array ends as the unclamped layer in columns 128 .. 255 and as it was found elsewhere. -/
theorem raw_out (i : S50000x384.Idx) :
    ((Gen.dat1 (F := Ideal) V c).arrAt 7 cfg1.N : S50000x384.Idx → EReal) i
      = if (i 1).val / 128 = 1 then
          Sage.layer false (Sage.scaleRows (V c main_v44 : S50000x128.Idx → EReal) (V c main_v11 : S50000x1.Idx → EReal))
            (V c main_v32_1 : S50000x128.Idx → EReal) (V c main_v46 : S128x128.Idx → EReal) (V c main_v51 : S1x128.Idx → EReal)
            (V c main_v50 : S128x128.Idx → EReal)
            (ix2 ⟨(i 0).val, idx2_lt0 i⟩ ⟨(i 1).val % 128, Nat.mod_lt _ (by decide)⟩)
        else (V c main_v52_0 : S50000x384.Idx → EReal) i := by
  rw [(Gen.dat1 (F := Ideal) V c).arrAt_eq_piecewise 7 (wide V c) (fun t _ => flushed_raw V c t) i]
  split
  · rfl
  · rename_i hno
    rw [Gen.A_eq1]
    exact (if_neg fun hcol => hno (cover_raw i hcol)).symm

end Cert.KernelIdeal.Region1

end
-- ==== Proof.Region2.lean ====
/-
  Region 2 of the program, from blocks to arrays.

  The region runs over 25 grid points.  Point t reads rows 2000 t .. 2000 t + 1999 of the aggregated sums, of the
  reciprocal-degree column and of the layer's input, and the whole of the two weight matrices and of the bias row; it
  stores one layer of the network on those 2000 rows twice: unclamped into columns 256 .. 383 of the same rows
  of the wide result array, and clamped at zero into the same rows of the narrow result array.

  Because the layer is row-wise, what point t stores is the band of rows 2000 t .. 2000 t + 1999 of ONE array: the layer
  of the whole arrays.  The 25 bands tile the 50000 rows, so the narrow array ends as the clamped layer of the whole
  arrays, and the wide array ends as the unclamped layer in its columns 256 .. 383 and as it was found elsewhere.
-/
import proofs.«127925_j33998961116076_2_alg».proof.Proof.Gen.KernelIdeal.Frame
import proofs.«127925_j33998961116076_2_alg».proof.Proof.Payload
import proofs.«127925_j33998961116076_2_alg».proof.Proof.LibBandLayer
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Region2

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The layer of the whole arrays as the region finds them, clamped or not. -/
abbrev whole (relu : Bool) : S50000x128.Idx → EReal :=
  Sage.layer relu (Sage.scaleRows (V c main_v64 : S50000x128.Idx → EReal) (V c main_v11 : S50000x1.Idx → EReal))
    (V c main_v52_1 : S50000x128.Idx → EReal) (V c main_v66 : S128x128.Idx → EReal) (V c main_v71 : S1x128.Idx → EReal)
    (V c main_v70 : S128x128.Idx → EReal)

/-- The wide array after the region: the unclamped layer in columns 256 .. 383, the entry contents elsewhere. -/
abbrev wide (i : S50000x384.Idx) : EReal :=
  if (i 1).val / 128 = 2 then whole V c false (ix2 ⟨(i 0).val, idx2_lt0 i⟩ ⟨(i 1).val % 128, Nat.mod_lt _ (by decide)⟩)
  else (V c main_v72_0 : S50000x384.Idx → EReal) i

/-- The block index of every window at every grid point: the row-indexed windows move one block down per point, the
    parameters stay, and the wide result sits in block column 2. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_7.index t (0 : Fin 2) = t.val ∧ win2_7.index t (1 : Fin 2) = 2
    ∧ win2_8.index t (0 : Fin 2) = t.val ∧ win2_8.index t (1 : Fin 2) = 0 :=
  (by decide +kernel : ∀ t : Fin grid2.N, _)

/-! ## Each input block, entry by entry -/

/-- The block of aggregated sums at point t is rows 2000 t .. of the array. -/
theorem blk_agg (t : Fin cfg2.N) (y : S2000x128.Idx) (k : S50000x128.Idx)
    (hk0 : (k 0).val = 2000 * t.val + (y 0).val) (hk1 : (k 1).val = (y 1).val) :
    (Gen.iblk2 (F := Ideal) V c 0 t : S2000x128.Idx → EReal) y = (V c main_v64 : S50000x128.Idx → EReal) k := by
  obtain ⟨e0, e1, -⟩ := idx_facts t
  unfold Gen.iblk2
  rw [View.read_apply]
  show V c main_v64 _ = V c main_v64 _
  congr 1
  funext a
  apply Fin.ext
  match a with
  | ⟨0, _⟩ => show win2_0.index t 0 * 2000 + 1 * (y 0).val = (k 0).val; rw [e0, hk0]; omega
  | ⟨1, _⟩ => show win2_0.index t 1 * 128 + 1 * (y 1).val = (k 1).val; rw [e1, hk1]; omega

/-- The block of the reciprocal-degree column at point t is rows 2000 t .. of the column. -/
theorem blk_inv (t : Fin cfg2.N) (y : S2000x1.Idx) (k : S50000x1.Idx)
    (hk0 : (k 0).val = 2000 * t.val + (y 0).val) :
    (Gen.iblk2 (F := Ideal) V c 1 t : S2000x1.Idx → EReal) y = (V c main_v11 : S50000x1.Idx → EReal) k := by
  obtain ⟨-, -, e0, e1, -⟩ := idx_facts t
  have hy : (y 1).val < 1 := (y 1).isLt
  have hk : (k 1).val < 1 := (k 1).isLt
  unfold Gen.iblk2
  rw [View.read_apply]
  show V c main_v11 _ = V c main_v11 _
  congr 1
  funext a
  apply Fin.ext
  match a with
  | ⟨0, _⟩ => show win2_1.index t 0 * 2000 + 1 * (y 0).val = (k 0).val; rw [e0, hk0]; omega
  | ⟨1, _⟩ => show win2_1.index t 1 * 1 + 1 * (y 1).val = (k 1).val; rw [e1]; omega

/-- The block of the layer's input at point t is rows 2000 t .. of the array. -/
theorem blk_in (t : Fin cfg2.N) (y : S2000x128.Idx) (k : S50000x128.Idx)
    (hk0 : (k 0).val = 2000 * t.val + (y 0).val) (hk1 : (k 1).val = (y 1).val) :
    (Gen.iblk2 (F := Ideal) V c 2 t : S2000x128.Idx → EReal) y = (V c main_v52_1 : S50000x128.Idx → EReal) k := by
  obtain ⟨-, -, -, -, e0, e1, -⟩ := idx_facts t
  unfold Gen.iblk2
  rw [View.read_apply]
  show V c main_v52_1 _ = V c main_v52_1 _
  congr 1
  funext a
  apply Fin.ext
  match a with
  | ⟨0, _⟩ => show win2_2.index t 0 * 2000 + 1 * (y 0).val = (k 0).val; rw [e0, hk0]; omega
  | ⟨1, _⟩ => show win2_2.index t 1 * 128 + 1 * (y 1).val = (k 1).val; rw [e1, hk1]; omega

/-- The block of the neighbour weights is the whole matrix at every point. -/
theorem blk_wl (t : Fin cfg2.N) :
    (Gen.iblk2 (F := Ideal) V c 3 t : S128x128.Idx → EReal) = (V c main_v66 : S128x128.Idx → EReal) := by
  obtain ⟨-, -, -, -, -, -, e0, e1, -⟩ := idx_facts t
  funext y
  have h0 : (y 0).val < 128 := (y 0).isLt
  have h1 : (y 1).val < 128 := (y 1).isLt
  unfold Gen.iblk2
  rw [View.read_apply]
  show V c main_v66 _ = V c main_v66 _
  congr 1
  funext a
  apply Fin.ext
  match a with
  | ⟨0, _⟩ => show win2_3.index t 0 * 128 + 1 * (y 0).val = (y 0).val; rw [e0]; omega
  | ⟨1, _⟩ => show win2_3.index t 1 * 128 + 1 * (y 1).val = (y 1).val; rw [e1]; omega

/-- The block of the bias is the whole row at every point. -/
theorem blk_bias (t : Fin cfg2.N) :
    (Gen.iblk2 (F := Ideal) V c 4 t : S1x128.Idx → EReal) = (V c main_v71 : S1x128.Idx → EReal) := by
  obtain ⟨-, -, -, -, -, -, -, -, e0, e1, -⟩ := idx_facts t
  funext y
  have h0 : (y 0).val < 1 := (y 0).isLt
  have h1 : (y 1).val < 128 := (y 1).isLt
  unfold Gen.iblk2
  rw [View.read_apply]
  show V c main_v71 _ = V c main_v71 _
  congr 1
  funext a
  apply Fin.ext
  match a with
  | ⟨0, _⟩ => show win2_4.index t 0 * 1 + 1 * (y 0).val = (y 0).val; rw [e0]; omega
  | ⟨1, _⟩ => show win2_4.index t 1 * 128 + 1 * (y 1).val = (y 1).val; rw [e1]; omega

/-- The block of the root weights is the whole matrix at every point. -/
theorem blk_wr (t : Fin cfg2.N) :
    (Gen.iblk2 (F := Ideal) V c 5 t : S128x128.Idx → EReal) = (V c main_v70 : S128x128.Idx → EReal) := by
  obtain ⟨-, -, -, -, -, -, -, -, -, -, e0, e1, -⟩ := idx_facts t
  funext y
  have h0 : (y 0).val < 128 := (y 0).isLt
  have h1 : (y 1).val < 128 := (y 1).isLt
  unfold Gen.iblk2
  rw [View.read_apply]
  show V c main_v70 _ = V c main_v70 _
  congr 1
  funext a
  apply Fin.ext
  match a with
  | ⟨0, _⟩ => show win2_5.index t 0 * 128 + 1 * (y 0).val = (y 0).val; rw [e0]; omega
  | ⟨1, _⟩ => show win2_5.index t 1 * 128 + 1 * (y 1).val = (y 1).val; rw [e1]; omega

/-! ## The layer of the blocks at point t is the band of the layer of the arrays -/

/-- Entry j of the layer of point t's blocks is the entry of the whole layer 2000 t rows further down. -/
theorem band (relu : Bool) (t : Fin cfg2.N) (j : S2000x128.Idx) (i : S50000x128.Idx)
    (hi0 : (i 0).val = 2000 * t.val + (j 0).val) (hi1 : (i 1).val = (j 1).val) :
    Sage.layer relu (Sage.scaleRows (Gen.iblk2 (F := Ideal) V c 0 t : S2000x128.Idx → EReal) (Gen.iblk2 (F := Ideal) V c 1 t : S2000x1.Idx → EReal))
        (Gen.iblk2 (F := Ideal) V c 2 t : S2000x128.Idx → EReal) (Gen.iblk2 (F := Ideal) V c 3 t : S128x128.Idx → EReal)
        (Gen.iblk2 (F := Ideal) V c 4 t : S1x128.Idx → EReal) (Gen.iblk2 (F := Ideal) V c 5 t : S128x128.Idx → EReal) j
      = whole V c relu i :=
  Sage.layer_band relu (V c main_v64 : S50000x128.Idx → EReal) (V c main_v52_1 : S50000x128.Idx → EReal)
    (V c main_v11 : S50000x1.Idx → EReal) (V c main_v66 : S128x128.Idx → EReal) (V c main_v71 : S1x128.Idx → EReal)
    (V c main_v70 : S128x128.Idx → EReal)
    (Gen.iblk2 (F := Ideal) V c 0 t : S2000x128.Idx → EReal) (Gen.iblk2 (F := Ideal) V c 2 t : S2000x128.Idx → EReal)
    (Gen.iblk2 (F := Ideal) V c 1 t : S2000x1.Idx → EReal) (Gen.iblk2 (F := Ideal) V c 3 t : S128x128.Idx → EReal)
    (Gen.iblk2 (F := Ideal) V c 4 t : S1x128.Idx → EReal) (Gen.iblk2 (F := Ideal) V c 5 t : S128x128.Idx → EReal)
    (2000 * t.val)
    (fun y k h0 h1 => blk_agg V c t y k h0 h1) (fun y k h0 => blk_inv V c t y k h0) (fun y k h0 h1 => blk_in V c t y k h0 h1)
    (blk_wl V c t) (blk_bias V c t) (blk_wr V c t) j i hi0 hi1

/-- The same entry read in the wide array, 256 columns to the right. -/
theorem band_wide (t : Fin cfg2.N) (j : S2000x128.Idx) (i : S50000x384.Idx)
    (hi0 : (i 0).val = 2000 * t.val + (j 0).val) (hi1 : (i 1).val = 256 + (j 1).val) :
    Sage.layer false (Sage.scaleRows (Gen.iblk2 (F := Ideal) V c 0 t : S2000x128.Idx → EReal) (Gen.iblk2 (F := Ideal) V c 1 t : S2000x1.Idx → EReal))
        (Gen.iblk2 (F := Ideal) V c 2 t : S2000x128.Idx → EReal) (Gen.iblk2 (F := Ideal) V c 3 t : S128x128.Idx → EReal)
        (Gen.iblk2 (F := Ideal) V c 4 t : S1x128.Idx → EReal) (Gen.iblk2 (F := Ideal) V c 5 t : S128x128.Idx → EReal) j
      = wide V c i := by
  have hj1 : (j 1).val < 128 := (j 1).isLt
  unfold wide
  rw [if_pos (by omega)]
  exact band V c false t j _ hi0 (by show (i 1).val % 128 = (j 1).val; omega)

/-! ## What each point writes back -/

/-- Point t writes back, into the narrow array, block t of the clamped layer of the whole arrays. -/
theorem flushed_act (t : Fin cfg2.N) :
    (Gen.dat2 (F := Ideal) V c).flushed 8 t = ((cfg2.win 8).blk t).view.read (Elt Ideal) (whole V c true) := by
  show (cfg2.win 8).cut (grid2.coords t) ((Gen.dat2 (F := Ideal) V c).after 8 t) = _
  rw [Gen.after2_8]
  unfold Gen.out2_8
  rw [View.canon_unit_zero hz]
  simp only [View.ld_unit_zero (S := S2000x128) hz, View.ld_unit_zero (S := S2000x1) hz,
    View.ld_unit_zero (S := S128x128) hz, View.ld_unit_zero (S := S1x128) hz]
  rw [Pay.pay2_2]
  obtain ⟨-, -, -, -, -, -, -, -, -, -, -, -, -, -, e0, e1⟩ := idx_facts t
  funext j
  refine band V c true t _ (((cfg2.win 8).blk t).view.emb j) ?_ ?_
  · show win2_8.index t 0 * 2000 + 1 * (j 0).val = 2000 * t.val + (j 0).val; rw [e0]; omega
  · show win2_8.index t 1 * 128 + 1 * (j 1).val = (j 1).val; rw [e1]; omega

/-- Point t writes back, into the wide array, block t of "wide". -/
theorem flushed_raw (t : Fin cfg2.N) :
    (Gen.dat2 (F := Ideal) V c).flushed 7 t = ((cfg2.win 7).blk t).view.read (Elt Ideal) (wide V c) := by
  show (cfg2.win 7).cut (grid2.coords t) ((Gen.dat2 (F := Ideal) V c).after 7 t) = _
  rw [Gen.after2_7]
  unfold Gen.out2_7
  rw [View.canon_unit_zero hz]
  simp only [View.ld_unit_zero (S := S2000x128) hz, View.ld_unit_zero (S := S2000x1) hz,
    View.ld_unit_zero (S := S128x128) hz, View.ld_unit_zero (S := S1x128) hz]
  rw [Pay.pay1_2]
  obtain ⟨-, -, -, -, -, -, -, -, -, -, -, -, e0, e1, -⟩ := idx_facts t
  funext j
  refine band_wide V c t _ (((cfg2.win 7).blk t).view.emb j) ?_ ?_
  · show win2_7.index t 0 * 2000 + 1 * (j 0).val = 2000 * t.val + (j 0).val; rw [e0]; omega
  · show win2_7.index t 1 * 128 + 1 * (j 1).val = 256 + (j 1).val; rw [e1]; omega

/-! ## The blocks tile the rows -/

/-- An index of the narrow array is in point t's block iff each coordinate is in the block's range. -/
theorem mem_blk_act (t : Fin cfg2.N) (i : S50000x128.Idx) :
    i ∈ ((cfg2.win 8).blk t).view.set ↔ ∀ a : Fin 2, win2_8.index t a * S2000x128.size a ≤ (i a).val
      ∧ (i a).val < win2_8.index t a * S2000x128.size a + S2000x128.size a := by
  show i ∈ ((View.whole main_v72_1).slice (win2_8.rect t)).set ↔ _
  rw [View.set_slice_whole, Rect.mem_set_unit]
  exact Iff.rfl

/-- An index of the wide array is in point t's block iff each coordinate is in the block's range. -/
theorem mem_blk_raw (t : Fin cfg2.N) (i : S50000x384.Idx) :
    i ∈ ((cfg2.win 7).blk t).view.set ↔ ∀ a : Fin 2, win2_7.index t a * S2000x128.size a ≤ (i a).val
      ∧ (i a).val < win2_7.index t a * S2000x128.size a + S2000x128.size a := by
  show i ∈ ((View.whole main_v72_0).slice (win2_7.rect t)).set ↔ _
  rw [View.set_slice_whole, Rect.mem_set_unit]
  exact Iff.rfl

/-- The grid point whose block holds row r is r / 2000. -/
theorem point_of_row (r : ℕ) (hr : r < 50000) : ∃ t : Fin cfg2.N, t.val = r / 2000 :=
  ⟨⟨r / 2000, by show r / 2000 < 25; omega⟩, rfl⟩

/-- Every index of the narrow array is in some point's block. -/
theorem cover_act (i : S50000x128.Idx) :
    ∃ t : Fin cfg2.N, (cfg2.win 8).flush t = true ∧ i ∈ ((cfg2.win 8).blk t).view.set := by
  have hi0 : (i 0).val < 50000 := (i 0).isLt
  have hi1 : (i 1).val < 128 := (i 1).isLt
  obtain ⟨t, ht⟩ := point_of_row (i 0).val hi0
  obtain ⟨-, -, -, -, -, -, -, -, -, -, -, -, -, -, e0, e1⟩ := idx_facts t
  refine ⟨t, Gen.flush2_8 t, ?_⟩
  rw [mem_blk_act]
  intro a
  match a with
  | ⟨0, _⟩ =>
    show win2_8.index t 0 * 2000 ≤ (i 0).val ∧ (i 0).val < win2_8.index t 0 * 2000 + 2000
    rw [e0, ht]; omega
  | ⟨1, _⟩ =>
    show win2_8.index t 1 * 128 ≤ (i 1).val ∧ (i 1).val < win2_8.index t 1 * 128 + 128
    rw [e1]; omega

/-- Every index of the wide array in columns 256 .. 383 is in some point's block. -/
theorem cover_raw (i : S50000x384.Idx) (hcol : (i 1).val / 128 = 2) :
    ∃ t : Fin cfg2.N, (cfg2.win 7).flush t = true ∧ i ∈ ((cfg2.win 7).blk t).view.set := by
  have hi0 : (i 0).val < 50000 := (i 0).isLt
  obtain ⟨t, ht⟩ := point_of_row (i 0).val hi0
  obtain ⟨-, -, -, -, -, -, -, -, -, -, -, -, e0, e1, -⟩ := idx_facts t
  refine ⟨t, Gen.flush2_7 t, ?_⟩
  rw [mem_blk_raw]
  intro a
  match a with
  | ⟨0, _⟩ =>
    show win2_7.index t 0 * 2000 ≤ (i 0).val ∧ (i 0).val < win2_7.index t 0 * 2000 + 2000
    rw [e0, ht]; omega
  | ⟨1, _⟩ =>
    show win2_7.index t 1 * 128 ≤ (i 1).val ∧ (i 1).val < win2_7.index t 1 * 128 + 128
    rw [e1]; omega

/-! ## The arrays after the region -/

/-- The narrow result array ends as the clamped layer of the whole arrays. -/
theorem act_out :
    ((Gen.dat2 (F := Ideal) V c).arrAt 8 cfg2.N : S50000x128.Idx → EReal)
      = Sage.layer true (Sage.scaleRows (V c main_v64 : S50000x128.Idx → EReal) (V c main_v11 : S50000x1.Idx → EReal))
          (V c main_v52_1 : S50000x128.Idx → EReal) (V c main_v66 : S128x128.Idx → EReal) (V c main_v71 : S1x128.Idx → EReal)
          (V c main_v70 : S128x128.Idx → EReal) :=
  (Gen.dat2 (F := Ideal) V c).arrAt_eq_of_cover 8 (whole V c true) (fun t _ => flushed_act V c t) (cover_act)

/-- The wide result array ends as the unclamped layer in columns 256 .. 383 and as it was found elsewhere. -/
theorem raw_out (i : S50000x384.Idx) :
    ((Gen.dat2 (F := Ideal) V c).arrAt 7 cfg2.N : S50000x384.Idx → EReal) i
      = if (i 1).val / 128 = 2 then
          Sage.layer false (Sage.scaleRows (V c main_v64 : S50000x128.Idx → EReal) (V c main_v11 : S50000x1.Idx → EReal))
            (V c main_v52_1 : S50000x128.Idx → EReal) (V c main_v66 : S128x128.Idx → EReal) (V c main_v71 : S1x128.Idx → EReal)
            (V c main_v70 : S128x128.Idx → EReal)
            (ix2 ⟨(i 0).val, idx2_lt0 i⟩ ⟨(i 1).val % 128, Nat.mod_lt _ (by decide)⟩)
        else (V c main_v72_0 : S50000x384.Idx → EReal) i := by
  rw [(Gen.dat2 (F := Ideal) V c).arrAt_eq_piecewise 7 (wide V c) (fun t _ => flushed_raw V c t) i]
  split
  · rfl
  · rename_i hno
    rw [Gen.A_eq2]
    exact (if_neg fun hcol => hno (cover_raw i hcol)).symm

end Cert.KernelIdeal.Region2

end
-- ==== Proof.Net.lean ====
/-
  The network both programs compute, as one term of the six argument arrays.

  Nodes carry rows of 128 numbers.  The in-degree of a node is the number of edges that end at it (a scatter-add of ones
  over the destination list), and its reciprocal degree is 1 / max(degree, 1) where the degree is positive and 0 elsewhere.
  One layer takes the node rows h, sums the rows of the source nodes over the edges ending at each node (a row gather by
  the source list — a negative index counted from the end — followed by a scatter-add over the destination list), scales
  each summed row by the node's reciprocal degree, and returns  (scaled sums · Wl + bias) + h · Wr.  The next layer's input is
  that result with its negative entries replaced by zero.  The output lays the three layers' results side by side
  along a new middle axis.
-/
import proofs.«127925_j33998961116076_2_alg».proof.Proof.Gen.ReferenceIdeal
import Idealize.ShloMosaic.Lib.StableHlo.Run
import Idealize.ShloMosaic.PureOps.Ideal

noncomputable section

namespace Cert.Net

open Cert.ReferenceIdeal Cert.ReferenceIdeal.Gen Idealize.ShloMosaic Idealize.ShloMosaic.TcCoe Idealize.SL.Sem Idealize.ShloMosaic.StableHlo

/-- Node rows. -/
abbrev Rows : Type := FVec Ideal S50000x128 .f32
/-- An edge list: one 32-bit node index per edge. -/
abbrev Edges : Type := (⟨S800000, .i32⟩ : BufTy).Contents (Elt Ideal)

/-- The source list as a column of start indices, a negative index counted from the end of the node axis. -/
def srcIdx (src : Edges) : (⟨S800000x1, .i32⟩ : BufTy).Contents (Elt Ideal) :=
  broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)

/-- The rows of the source nodes summed over the edges ending at each node. -/
def agg (h : Rows) (src dst : Edges) : Rows :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 h (srcIdx src))

/-- The in-degree of every node. -/
def deg (dst : Edges) : FVec Ideal S50000 .f32 :=
  Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))

/-- The reciprocal degree as a column: 1 / max(degree, 1) where the degree is positive, 0 elsewhere. -/
def inv (dst : Edges) : FVec Ideal S50000x1 .f32 :=
  broadcastInDim S50000x1 ![0] bcast_S50000_S50000x1_0 (select (cmpf .ogt (deg dst) (broadcastInDim S50000 ![] bcast_S_S50000 (constant S_ .f32 0x00000000#32))) (Host.divf (broadcastInDim S50000 ![] bcast_S_S50000 (constant S_ .f32 0x3F800000#32)) (maximumf (deg dst) (broadcastInDim S50000 ![] bcast_S_S50000 (constant S_ .f32 0x3F800000#32)))) (broadcastInDim S50000 ![] bcast_S_S50000 (id (constant S_ .f32 0x00000000#32))))

/-- Layer 0's, 1's and 2's 128 × 128 matrix out of a stack of three. -/
def mat0 (W : FVec Ideal S3x128x128 .f32) : FVec Ideal S128x128 .f32 :=
  shapeCast _ (extractStridedSlice S1x128x128 ![0, 0, 0] W slices_S3x128x128_S1x128x128_0_0_0) shapeCasts_S1x128x128_S128x128
def mat1 (W : FVec Ideal S3x128x128 .f32) : FVec Ideal S128x128 .f32 :=
  shapeCast _ (extractStridedSlice S1x128x128 ![1, 0, 0] W slices_S3x128x128_S1x128x128_1_0_0) shapeCasts_S1x128x128_S128x128
def mat2 (W : FVec Ideal S3x128x128 .f32) : FVec Ideal S128x128 .f32 :=
  shapeCast _ (extractStridedSlice S1x128x128 ![2, 0, 0] W slices_S3x128x128_S1x128x128_2_0_0) shapeCasts_S1x128x128_S128x128

/-- Layer 0's, 1's and 2's bias vector out of a stack of three. -/
def bias0 (b : FVec Ideal S3x128 .f32) : FVec Ideal S128 .f32 :=
  shapeCast _ (extractStridedSlice S1x128 ![0, 0] b slices_S3x128_S1x128_0_0) shapeCasts_S1x128_S128
def bias1 (b : FVec Ideal S3x128 .f32) : FVec Ideal S128 .f32 :=
  shapeCast _ (extractStridedSlice S1x128 ![1, 0] b slices_S3x128_S1x128_1_0) shapeCasts_S1x128_S128
def bias2 (b : FVec Ideal S3x128 .f32) : FVec Ideal S128 .f32 :=
  shapeCast _ (extractStridedSlice S1x128 ![2, 0] b slices_S3x128_S1x128_2_0) shapeCasts_S1x128_S128

/-- One layer before the clamp: (scaled sums · wl + bias) + h · wr. -/
def pre (h a : Rows) (s : FVec Ideal S50000x1 .f32) (wl : FVec Ideal S128x128 .f32) (bv : FVec Ideal S128 .f32) (wr : FVec Ideal S128x128 .f32) : Rows :=
  addf (addf (Host.dotGeneral dot_S50000x128_S128x128_S50000x128_1_0_0_1_n_n none (mulf a (broadcastInDim S50000x128 ![0, 1] bcast_S50000x1_S50000x128_0_1 s)) wl) (broadcastInDim S50000x128 ![0, 1] bcast_S1x128_S50000x128_0_1 (broadcastInDim S1x128 ![1] bcast_S128_S1x128_1 bv))) (Host.dotGeneral dot_S50000x128_S128x128_S50000x128_1_0_0_1_n_n none h wr)

/-- Negative entries replaced by zero. -/
def act (z : Rows) : Rows := maximumf z (broadcastInDim S50000x128 ![] bcast_S_S50000x128 (constant S_ .f32 0x00000000#32))

section
variable (x : Rows) (Wl : FVec Ideal S3x128x128 .f32) (bl : FVec Ideal S3x128 .f32) (Wr : FVec Ideal S3x128x128 .f32) (src dst : Edges)

/-- The three layers' results and the two clamped ones fed forward. -/
def o0 : Rows := pre x (agg x src dst) (inv dst) (mat0 Wl) (bias0 bl) (mat0 Wr)
def h1 : Rows := act (o0 x Wl bl Wr src dst)
def o1 : Rows := pre (h1 x Wl bl Wr src dst) (agg (h1 x Wl bl Wr src dst) src dst) (inv dst) (mat1 Wl) (bias1 bl) (mat1 Wr)
def h2 : Rows := act (o1 x Wl bl Wr src dst)
def o2 : Rows := pre (h2 x Wl bl Wr src dst) (agg (h2 x Wl bl Wr src dst) src dst) (inv dst) (mat2 Wl) (bias2 bl) (mat2 Wr)

/-- The output: the three results side by side along a new middle axis. -/
def out : FVec Ideal S50000x3x128 .f32 :=
  concatenate S50000x3x128 1 [⟨S50000x1x128, (broadcastInDim S50000x1x128 ![0, 2] bcast_S50000x128_S50000x1x128_0_2 (o0 x Wl bl Wr src dst))⟩, ⟨S50000x1x128, (broadcastInDim S50000x1x128 ![0, 2] bcast_S50000x128_S50000x1x128_0_2 (o1 x Wl bl Wr src dst))⟩, ⟨S50000x1x128, (broadcastInDim S50000x1x128 ![0, 2] bcast_S50000x128_S50000x1x128_0_2 (o2 x Wl bl Wr src dst))⟩] concatenates_S50000x1x128_S50000x1x128_S50000x1x128_S50000x3x128_d1
end

end Cert.Net

end
-- ==== Proof.NetLayers.lean ====
/-
  The specification's layer is the layer of the row-wise calculus.

  A column of reciprocal degrees stretched across the 128 columns and multiplied entry by entry into the aggregated sums
  scales each row by its own reciprocal degree.  With that, "product with the neighbour weights, plus the bias row, plus
  the product of the layer input with the root weights" is the layer, and followed by the maximum with zero it is the
  layer with its maximum.
-/
import proofs.«127925_j33998961116076_2_alg».proof.Proof.Net
import proofs.«127925_j33998961116076_2_alg».proof.Proof.LibSageSpellings
import proofs.«127925_j33998961116076_2_alg».proof.Proof.LibDot2

noncomputable section

namespace Cert.NetLayers

open Idealize.ShloMosaic Idealize.ShloMosaic.ValueIdx Cert.ReferenceIdeal Cert.ReferenceIdeal.Gen Cert.Net GcnSpec Sage

/-! The whole-array product contracts the columns of its left operand against the rows of its right operand. -/
theorem hrank : (dot_S50000x128_S128x128_S50000x128_1_0_0_1_n_n).contr.rank = 1 := Dot2.rank_contr _ rfl
theorem hsize : (dot_S50000x128_S128x128_S50000x128_1_0_0_1_n_n).contr.size ⟨0, by rw [hrank]; exact Nat.one_pos⟩ = 128 := Dot2.size_contr _ rfl _
theorem hl0 (j : S50000x128.Idx) (c : (dot_S50000x128_S128x128_S50000x128_1_0_0_1_n_n).contr.Idx) : ((dot_S50000x128_S128x128_S50000x128_1_0_0_1_n_n).lhsIdx j c 0).val = (j 0).val :=
  Dot2.lhs0 _ rfl rfl j c
theorem hl1 (j : S50000x128.Idx) (c : (dot_S50000x128_S128x128_S50000x128_1_0_0_1_n_n).contr.Idx) :
    ((dot_S50000x128_S128x128_S50000x128_1_0_0_1_n_n).lhsIdx j c 1).val = (c ⟨0, by rw [hrank]; exact Nat.one_pos⟩).val := Dot2.lhs1 _ rfl _ j c
theorem hr0 (j : S50000x128.Idx) (c : (dot_S50000x128_S128x128_S50000x128_1_0_0_1_n_n).contr.Idx) :
    ((dot_S50000x128_S128x128_S50000x128_1_0_0_1_n_n).rhsIdx j c 0).val = (c ⟨0, by rw [hrank]; exact Nat.one_pos⟩).val := Dot2.rhs0 _ rfl _ j c
theorem hr1 (j : S50000x128.Idx) (c : (dot_S50000x128_S128x128_S50000x128_1_0_0_1_n_n).contr.Idx) : ((dot_S50000x128_S128x128_S50000x128_1_0_0_1_n_n).rhsIdx j c 1).val = (j 1).val :=
  Dot2.rhs1 _ rfl rfl rfl rfl j c

/-- Multiplying by the stretched column scales each row by its own entry of the column. -/
theorem mul_col (a : Rows) (s : FVec Ideal S50000x1 .f32) :
    mulf a (broadcastInDim S50000x128 ![0, 1] bcast_S50000x1_S50000x128_0_1 s) = scaleRows a s := by
  funext i
  obtain ⟨r, l, rfl⟩ : ∃ (r : Fin 50000) (l : Fin 128), i = ix2 r l := ⟨i 0, i 1, eq_ix2 i⟩
  rw [mulf_apply, scaleRows_ix2]
  refine congrArg (a (ix2 r l) * ·) ?_
  exact broadcastInDim_apply _ _ s (ix2 r l) (ix2 r (0 : Fin 1))
    (fun d => by match d with | ⟨0, _⟩ => rfl | ⟨1, _⟩ => rfl)

/-- The specification's layer before the clamp. -/
theorem pre_eq (h a : Rows) (s : FVec Ideal S50000x1 .f32) (wl : FVec Ideal S128x128 .f32) (bv : FVec Ideal S128 .f32)
    (wr : FVec Ideal S128x128 .f32) (hsc : S128.ShapeCasts S1x128) :
    pre h a s wl bv wr = layer false (scaleRows a s) h wl (shapeCast S1x128 bv hsc) wr := by
  unfold pre
  rw [mul_col]
  exact Sage.Spell.host_core dot_S50000x128_S128x128_S50000x128_1_0_0_1_n_n hrank hsize hl0 hl1 hr0 hr1 (scaleRows a s) h wl wr bv _ _ hsc

/-- The specification's layer with its clamp. -/
theorem act_pre (h a : Rows) (s : FVec Ideal S50000x1 .f32) (wl : FVec Ideal S128x128 .f32) (bv : FVec Ideal S128 .f32)
    (wr : FVec Ideal S128x128 .f32) (hsc : S128.ShapeCasts S1x128) :
    act (pre h a s wl bv wr) = layer true (scaleRows a s) h wl (shapeCast S1x128 bv hsc) wr := by
  unfold act pre
  rw [mul_col]
  exact Sage.Spell.host_relu dot_S50000x128_S128x128_S50000x128_1_0_0_1_n_n hrank hsize hl0 hl1 hr0 hr1 (scaleRows a s) h wl wr bv _ _ _ hsc

end Cert.NetLayers

end
-- ==== Proof.OutIdx.lean ====
/-
  Two layouts of the result read at (node r, layer l, column q).

  The kernel keeps the three layers' results in one array of 384 columns, layer l in columns 128·l … 128·l + 127, and
  regroups it to [50000, 3, 128]: entry (r, l, q) is entry (r, 128·l + q) of the wide array.  The specification gives
  each result a middle axis of extent one and lays the three side by side along it: entry (r, l, q) is entry (r, q) of
  result l.
-/
import proofs.«127925_j33998961116076_2_alg».proof.Proof.Net
import Idealize.ShloMosaic.Lib.Pipeline.Value
import Idealize.ShloMosaic.Lib.ValueIdx
import Idealize.ShloMosaic.Lib.ValueLayout

noncomputable section

namespace Cert.OutIdx

open Idealize.ShloMosaic Idealize.ShloMosaic.ValueIdx Cert.ReferenceIdeal Cert.ReferenceIdeal.Gen Cert.Net

/-- The wide array regrouped: (r, l, q) reads column 128·l + q of row r. -/
theorem regroup_apply (A : (⟨2, ![50000, 384]⟩ : Shape).Idx → EReal)
    (h : (⟨2, ![50000, 384]⟩ : Shape).ShapeCasts S50000x3x128)
    (r : Fin 50000) (l : Fin 3) (q : Fin 128) (k : Fin 384) (hk : k.val = 128 * l.val + q.val) :
    shapeCast S50000x3x128 A h (ix3 r l q) = A (ix2 r k) :=
  shapeCast_apply A h _ _ (by
    rw [Shape.rowMajor_val_three, Shape.rowMajor_val_two]
    show r.val * 384 + k.val = (r.val * 3 + l.val) * 128 + q.val
    omega)

/-- Slab 0 of the three arrays laid side by side along the middle axis is array 0. -/
theorem side_by_side_0 (p0 p1 p2 : Rows) (r : Fin 50000) (q : Fin 128) :
    (concatenate S50000x3x128 1 [⟨S50000x1x128, (broadcastInDim S50000x1x128 ![0, 2] bcast_S50000x128_S50000x1x128_0_2 p0)⟩, ⟨S50000x1x128, (broadcastInDim S50000x1x128 ![0, 2] bcast_S50000x128_S50000x1x128_0_2 p1)⟩, ⟨S50000x1x128, (broadcastInDim S50000x1x128 ![0, 2] bcast_S50000x128_S50000x1x128_0_2 p2)⟩] concatenates_S50000x1x128_S50000x1x128_S50000x1x128_S50000x3x128_d1) (ix3 r (0 : Fin 3) q) = p0 (ix2 r q) := by
  refine (concatenate_apply_piece _ _ _ (ix3 r (0 : Fin 3) q) 0 (by simp only [List.length_cons, List.length_nil]; omega) S50000x1x128 _ rfl rfl 0 rfl
    (ix3 r (0 : Fin 1) q) (fun b hb => ?_) rfl).trans ?_
  · match b with
    | ⟨0, _⟩ => rfl
    | ⟨1, _⟩ => exact absurd rfl hb
    | ⟨2, _⟩ => rfl
  · exact broadcastInDim_apply _ _ p0 (ix3 r (0 : Fin 1) q) (ix2 r q)
      (fun d => by match d with | ⟨0, _⟩ => rfl | ⟨1, _⟩ => rfl)

/-- Slab 1 of the three arrays laid side by side along the middle axis is array 1. -/
theorem side_by_side_1 (p0 p1 p2 : Rows) (r : Fin 50000) (q : Fin 128) :
    (concatenate S50000x3x128 1 [⟨S50000x1x128, (broadcastInDim S50000x1x128 ![0, 2] bcast_S50000x128_S50000x1x128_0_2 p0)⟩, ⟨S50000x1x128, (broadcastInDim S50000x1x128 ![0, 2] bcast_S50000x128_S50000x1x128_0_2 p1)⟩, ⟨S50000x1x128, (broadcastInDim S50000x1x128 ![0, 2] bcast_S50000x128_S50000x1x128_0_2 p2)⟩] concatenates_S50000x1x128_S50000x1x128_S50000x1x128_S50000x3x128_d1) (ix3 r (1 : Fin 3) q) = p1 (ix2 r q) := by
  refine (concatenate_apply_piece _ _ _ (ix3 r (1 : Fin 3) q) 1 (by simp only [List.length_cons, List.length_nil]; omega) S50000x1x128 _ rfl rfl 1 rfl
    (ix3 r (0 : Fin 1) q) (fun b hb => ?_) rfl).trans ?_
  · match b with
    | ⟨0, _⟩ => rfl
    | ⟨1, _⟩ => exact absurd rfl hb
    | ⟨2, _⟩ => rfl
  · exact broadcastInDim_apply _ _ p1 (ix3 r (0 : Fin 1) q) (ix2 r q)
      (fun d => by match d with | ⟨0, _⟩ => rfl | ⟨1, _⟩ => rfl)

/-- Slab 2 of the three arrays laid side by side along the middle axis is array 2. -/
theorem side_by_side_2 (p0 p1 p2 : Rows) (r : Fin 50000) (q : Fin 128) :
    (concatenate S50000x3x128 1 [⟨S50000x1x128, (broadcastInDim S50000x1x128 ![0, 2] bcast_S50000x128_S50000x1x128_0_2 p0)⟩, ⟨S50000x1x128, (broadcastInDim S50000x1x128 ![0, 2] bcast_S50000x128_S50000x1x128_0_2 p1)⟩, ⟨S50000x1x128, (broadcastInDim S50000x1x128 ![0, 2] bcast_S50000x128_S50000x1x128_0_2 p2)⟩] concatenates_S50000x1x128_S50000x1x128_S50000x1x128_S50000x3x128_d1) (ix3 r (2 : Fin 3) q) = p2 (ix2 r q) := by
  refine (concatenate_apply_piece _ _ _ (ix3 r (2 : Fin 3) q) 2 (by simp only [List.length_cons, List.length_nil]; omega) S50000x1x128 _ rfl rfl 2 rfl
    (ix3 r (0 : Fin 1) q) (fun b hb => ?_) rfl).trans ?_
  · match b with
    | ⟨0, _⟩ => rfl
    | ⟨1, _⟩ => exact absurd rfl hb
    | ⟨2, _⟩ => rfl
  · exact broadcastInDim_apply _ _ p2 (ix3 r (0 : Fin 1) q) (ix2 r q)
      (fun d => by match d with | ⟨0, _⟩ => rfl | ⟨1, _⟩ => rfl)

end Cert.OutIdx

end
-- ==== Proof.Chain.lean ====
/-
  The wide result array, filled one band of 128 columns at a time, regrouped, is the three results side by side.

  The wide array has 384 columns.  It starts with some contents Z.  The first layer overwrites columns 0 .. 127 with its
  result p0 and leaves the rest; the second overwrites columns 128 .. 255 with p1 and leaves the rest; the third overwrites
  columns 256 .. 383 with p2 and leaves the rest.  So at the end column 128 l + q of row r holds entry (r, q) of result l,
  whatever Z was: every column lies in exactly one of the three bands, and a later layer never touches an earlier band.

  Regrouping the 384 columns as 3 groups of 128 reads entry (r, l, q) from column 128 l + q of row r; laying the three
  results side by side along a new middle axis reads entry (r, l, q) from entry (r, q) of result l.  These agree.
-/
import proofs.«127925_j33998961116076_2_alg».proof.Proof.Net
import proofs.«127925_j33998961116076_2_alg».proof.Proof.OutIdx

noncomputable section

namespace Cert.Chain

open Idealize.ShloMosaic Idealize.ShloMosaic.ValueIdx Cert.ReferenceIdeal Cert.ReferenceIdeal.Gen Cert.Net

/-- An array of 50000 rows and 384 columns. -/
abbrev Wide : Type := (⟨2, ![50000, 384]⟩ : Shape).Idx → EReal

/-- An array that holds p in band l and T elsewhere, read inside band l. -/
theorem read_band (S T : Wide) (p : Rows) (l : ℕ)
    (hS : ∀ i : (⟨2, ![50000, 384]⟩ : Shape).Idx, S i = if (i 1).val / 128 = l then
      p (ix2 ⟨(i 0).val, idx2_lt0 i⟩ ⟨(i 1).val % 128, Nat.mod_lt _ (by decide)⟩) else T i)
    (r : Fin 50000) (q : Fin 128) (k : Fin 384) (hk : k.val = 128 * l + q.val) :
    S (ix2 r k) = p (ix2 r q) := by
  have hq : q.val < 128 := q.isLt
  refine (hS (ix2 r k)).trans ?_
  split
  · refine congrArg p ?_
    funext a
    match a with
    | ⟨0, _⟩ => rfl
    | ⟨1, _⟩ => exact Fin.ext (by show k.val % 128 = q.val; omega)
  · rename_i hne
    exact absurd (by show k.val / 128 = l; omega) hne

/-- The same array read outside band l. -/
theorem read_off_band (S T : Wide) (p : Rows) (l : ℕ)
    (hS : ∀ i : (⟨2, ![50000, 384]⟩ : Shape).Idx, S i = if (i 1).val / 128 = l then
      p (ix2 ⟨(i 0).val, idx2_lt0 i⟩ ⟨(i 1).val % 128, Nat.mod_lt _ (by decide)⟩) else T i)
    (r : Fin 50000) (k : Fin 384) (hk : k.val / 128 ≠ l) :
    S (ix2 r k) = T (ix2 r k) := by
  refine (hS (ix2 r k)).trans ?_
  split
  · rename_i he
    exact absurd he hk
  · rfl

/-- The wide array after the three layers, regrouped, is the three results side by side. -/
theorem stack_eq (Z S0 S1 S2 : Wide) (p0 p1 p2 : Rows) (h : (⟨2, ![50000, 384]⟩ : Shape).ShapeCasts S50000x3x128)
    (h0 : ∀ i : (⟨2, ![50000, 384]⟩ : Shape).Idx, S0 i = if (i 1).val / 128 = 0 then
      p0 (ix2 ⟨(i 0).val, idx2_lt0 i⟩ ⟨(i 1).val % 128, Nat.mod_lt _ (by decide)⟩) else Z i)
    (h1 : ∀ i : (⟨2, ![50000, 384]⟩ : Shape).Idx, S1 i = if (i 1).val / 128 = 1 then
      p1 (ix2 ⟨(i 0).val, idx2_lt0 i⟩ ⟨(i 1).val % 128, Nat.mod_lt _ (by decide)⟩) else S0 i)
    (h2 : ∀ i : (⟨2, ![50000, 384]⟩ : Shape).Idx, S2 i = if (i 1).val / 128 = 2 then
      p2 (ix2 ⟨(i 0).val, idx2_lt0 i⟩ ⟨(i 1).val % 128, Nat.mod_lt _ (by decide)⟩) else S1 i) :
    shapeCast S50000x3x128 S2 h = concatenate S50000x3x128 1 [⟨S50000x1x128, (broadcastInDim S50000x1x128 ![0, 2] bcast_S50000x128_S50000x1x128_0_2 p0)⟩, ⟨S50000x1x128, (broadcastInDim S50000x1x128 ![0, 2] bcast_S50000x128_S50000x1x128_0_2 p1)⟩, ⟨S50000x1x128, (broadcastInDim S50000x1x128 ![0, 2] bcast_S50000x128_S50000x1x128_0_2 p2)⟩] concatenates_S50000x1x128_S50000x1x128_S50000x1x128_S50000x3x128_d1 := by
  funext i
  obtain ⟨r, l, q, rfl⟩ : ∃ (r : Fin 50000) (l : Fin 3) (q : Fin 128), i = ix3 r l q := ⟨i 0, i 1, i 2, eq_ix3 i⟩
  have hq : q.val < 128 := q.isLt
  have hl : l = 0 ∨ l = 1 ∨ l = 2 := by
    rcases l with ⟨v, hv⟩
    have hv' : v = 0 ∨ v = 1 ∨ v = 2 := by omega
    rcases hv' with rfl | rfl | rfl
    · exact Or.inl rfl
    · exact Or.inr (Or.inl rfl)
    · exact Or.inr (Or.inr rfl)
  rcases hl with rfl | rfl | rfl
  · -- band 0: the second and third layers leave it, the first writes it
    refine (Cert.OutIdx.regroup_apply S2 h r 0 q ⟨q.val, by omega⟩ (by show q.val = 128 * 0 + q.val; omega)).trans ?_
    refine Eq.trans ?_ (Cert.OutIdx.side_by_side_0 p0 p1 p2 r q).symm
    rw [read_off_band S2 S1 p2 2 h2 r ⟨q.val, by omega⟩ (by show q.val / 128 ≠ 2; omega),
      read_off_band S1 S0 p1 1 h1 r ⟨q.val, by omega⟩ (by show q.val / 128 ≠ 1; omega)]
    exact read_band S0 Z p0 0 h0 r q ⟨q.val, by omega⟩ (by show q.val = 128 * 0 + q.val; omega)
  · -- band 1: the third layer leaves it, the second writes it
    refine (Cert.OutIdx.regroup_apply S2 h r 1 q ⟨128 + q.val, by omega⟩ (by show 128 + q.val = 128 * 1 + q.val; omega)).trans ?_
    refine Eq.trans ?_ (Cert.OutIdx.side_by_side_1 p0 p1 p2 r q).symm
    rw [read_off_band S2 S1 p2 2 h2 r ⟨128 + q.val, by omega⟩ (by show (128 + q.val) / 128 ≠ 2; omega)]
    exact read_band S1 S0 p1 1 h1 r q ⟨128 + q.val, by omega⟩ (by show 128 + q.val = 128 * 1 + q.val; omega)
  · -- band 2: the third layer writes it
    refine (Cert.OutIdx.regroup_apply S2 h r 2 q ⟨256 + q.val, by omega⟩ (by show 256 + q.val = 128 * 2 + q.val; omega)).trans ?_
    refine Eq.trans ?_ (Cert.OutIdx.side_by_side_2 p0 p1 p2 r q).symm
    exact read_band S2 S1 p2 2 h2 r q ⟨256 + q.val, by omega⟩ (by show 256 + q.val = 128 * 2 + q.val; omega)

end Cert.Chain

end
-- ==== Proof.Join.lean ====
/-
  Three layers in sequence, then the regrouping: the network's output.

  Write a for the sums of neighbour rows, s for the reciprocal degrees.  Suppose the first clamped result A1 is the layer
  with its maximum of (a(x), s, x) under the first slice of the parameters, and the wide array R0 holds the same layer
  without the maximum in columns 0 .. 127 and some Z elsewhere; the second clamped result A2 and the wide array R1 are the
  same from A1 under the second slice, R1 holding the new values in columns 128 .. 255 and R0 elsewhere; and R2 is the same
  from A2 under the third slice, in columns 256 .. 383, R1 elsewhere.  The layer with its maximum is the specification's
  clamp of its layer, so A1 and A2 are the specification's clamped intermediate rows, the three unclamped layers are its
  three results, and R2 regrouped is its output.
-/
import proofs.«127925_j33998961116076_2_alg».proof.Proof.NetLayers
import proofs.«127925_j33998961116076_2_alg».proof.Proof.Chain

noncomputable section

namespace Cert.Join

open Idealize.ShloMosaic Idealize.ShloMosaic.ValueIdx Cert.ReferenceIdeal Cert.ReferenceIdeal.Gen Cert.Net Sage

/-- One layer of the network from the rows h: the sums of neighbour rows of h, the reciprocal degrees, h itself, and
    one slice of the parameters. -/
abbrev step (relu : Bool) (h : Rows) (src dst : Edges) (wl : FVec Ideal S128x128 .f32) (bv : FVec Ideal S128 .f32)
    (wr : FVec Ideal S128x128 .f32) (hsc : S128.ShapeCasts S1x128) : Rows :=
  layer relu (scaleRows (agg h src dst) (inv dst)) h wl (shapeCast S1x128 bv hsc) wr

/-- The specification's layer and its clamp are the layer without and with its maximum. -/
theorem pre_step (h : Rows) (src dst : Edges) (wl : FVec Ideal S128x128 .f32) (bv : FVec Ideal S128 .f32)
    (wr : FVec Ideal S128x128 .f32) (hsc : S128.ShapeCasts S1x128) :
    pre h (agg h src dst) (inv dst) wl bv wr = step false h src dst wl bv wr hsc :=
  Cert.NetLayers.pre_eq h (agg h src dst) (inv dst) wl bv wr hsc

theorem act_step (h : Rows) (src dst : Edges) (wl : FVec Ideal S128x128 .f32) (bv : FVec Ideal S128 .f32)
    (wr : FVec Ideal S128x128 .f32) (hsc : S128.ShapeCasts S1x128) :
    act (pre h (agg h src dst) (inv dst) wl bv wr) = step true h src dst wl bv wr hsc :=
  Cert.NetLayers.act_pre h (agg h src dst) (inv dst) wl bv wr hsc

/-- Three layers in sequence into the wide array, regrouped, are the network's output. -/
theorem join (x : Rows) (Wl : FVec Ideal S3x128x128 .f32) (bl : FVec Ideal S3x128 .f32) (Wr : FVec Ideal S3x128x128 .f32)
    (src dst : Edges) (hsc : S128.ShapeCasts S1x128) (hcast : (⟨2, ![50000, 384]⟩ : Shape).ShapeCasts S50000x3x128)
    (Z R0 R1 R2 : Cert.Chain.Wide) (A1 A2 : Rows)
    (hA1 : A1 = step true x src dst (mat0 Wl) (bias0 bl) (mat0 Wr) hsc)
    (hR0 : ∀ i : (⟨2, ![50000, 384]⟩ : Shape).Idx, R0 i = if (i 1).val / 128 = 0 then
      step false x src dst (mat0 Wl) (bias0 bl) (mat0 Wr) hsc
        (ix2 ⟨(i 0).val, idx2_lt0 i⟩ ⟨(i 1).val % 128, Nat.mod_lt _ (by decide)⟩) else Z i)
    (hA2 : A2 = step true A1 src dst (mat1 Wl) (bias1 bl) (mat1 Wr) hsc)
    (hR1 : ∀ i : (⟨2, ![50000, 384]⟩ : Shape).Idx, R1 i = if (i 1).val / 128 = 1 then
      step false A1 src dst (mat1 Wl) (bias1 bl) (mat1 Wr) hsc
        (ix2 ⟨(i 0).val, idx2_lt0 i⟩ ⟨(i 1).val % 128, Nat.mod_lt _ (by decide)⟩) else R0 i)
    (hR2 : ∀ i : (⟨2, ![50000, 384]⟩ : Shape).Idx, R2 i = if (i 1).val / 128 = 2 then
      step false A2 src dst (mat2 Wl) (bias2 bl) (mat2 Wr) hsc
        (ix2 ⟨(i 0).val, idx2_lt0 i⟩ ⟨(i 1).val % 128, Nat.mod_lt _ (by decide)⟩) else R1 i) :
    shapeCast S50000x3x128 R2 hcast = out x Wl bl Wr src dst := by
  -- the clamped intermediate rows are the specification's
  have e1 : A1 = h1 x Wl bl Wr src dst :=
    hA1.trans (act_step x src dst (mat0 Wl) (bias0 bl) (mat0 Wr) hsc).symm
  subst e1
  have e2 : A2 = h2 x Wl bl Wr src dst :=
    hA2.trans (act_step (h1 x Wl bl Wr src dst) src dst (mat1 Wl) (bias1 bl) (mat1 Wr) hsc).symm
  subst e2
  -- the three unclamped layers are the specification's three results
  have q0 : o0 x Wl bl Wr src dst = step false x src dst (mat0 Wl) (bias0 bl) (mat0 Wr) hsc :=
    pre_step x src dst (mat0 Wl) (bias0 bl) (mat0 Wr) hsc
  have q1 : o1 x Wl bl Wr src dst = step false (h1 x Wl bl Wr src dst) src dst (mat1 Wl) (bias1 bl) (mat1 Wr) hsc :=
    pre_step (h1 x Wl bl Wr src dst) src dst (mat1 Wl) (bias1 bl) (mat1 Wr) hsc
  have q2 : o2 x Wl bl Wr src dst = step false (h2 x Wl bl Wr src dst) src dst (mat2 Wl) (bias2 bl) (mat2 Wr) hsc :=
    pre_step (h2 x Wl bl Wr src dst) src dst (mat2 Wl) (bias2 bl) (mat2 Wr) hsc
  exact Cert.Chain.stack_eq Z R0 R1 R2 (o0 x Wl bl Wr src dst) (o1 x Wl bl Wr src dst) (o2 x Wl bl Wr src dst) hcast
    (fun i => by rw [q0]; exact hR0 i) (fun i => by rw [q1]; exact hR1 i) (fun i => by rw [q2]; exact hR2 i)

end Cert.Join

end
-- ==== Proof.Hosts.lean ====
/-
  What the host operations between the kernel program's three fused regions leave in the buffers.

  The run's buffer contents are a fold through the program: a stretch of host operations rewrites the buffers it
  computes, a region rewrites its output arrays.  Read at the arrays each region is handed, the stretches compute, from
  the six argument arrays as launched, exactly the pieces of the network: the edge-summed rows of the layer's input,
  the reciprocal degree column, the layer's two matrices and its bias row.  The first layer's input is the first
  argument; the second and third layers' input is the clamped result the region before left.  The wide result array
  is handed from region to region by copies, and the program's result is its three column bands read as a middle axis.
-/
import proofs.«127925_j33998961116076_2_alg».proof.Proof.Gen.KernelIdeal.Frame
import proofs.«127925_j33998961116076_2_alg».proof.Proof.Net

set_option maxRecDepth 16384

noncomputable section

namespace Cert.KernelIdeal.Hosts

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## One stretch of host operations, from arbitrary contents -/

section Stretch
variable (V : Valuation τ sig (Elt Ideal))

/-! ### Before the first region -/

set_option maxHeartbeats 1000000 in
/-- No operation before the first region writes argument 0. -/
theorem e0_arg0 : StableHlo.after hostOps0_2 (StableHlo.after hostOps0_1 (StableHlo.after hostOps0 V)) (Proc.devRef .tc main_arg0) = V (Proc.devRef .tc main_arg0) := by
  delta hostOps0 hostOps0_1 hostOps0_2
  after_results_simp

set_option maxHeartbeats 1000000 in
/-- No operation before the first region writes argument 1. -/
theorem e0_arg1 : StableHlo.after hostOps0_2 (StableHlo.after hostOps0_1 (StableHlo.after hostOps0 V)) (Proc.devRef .tc main_arg1) = V (Proc.devRef .tc main_arg1) := by
  delta hostOps0 hostOps0_1 hostOps0_2
  after_results_simp

set_option maxHeartbeats 1000000 in
/-- No operation before the first region writes argument 2. -/
theorem e0_arg2 : StableHlo.after hostOps0_2 (StableHlo.after hostOps0_1 (StableHlo.after hostOps0 V)) (Proc.devRef .tc main_arg2) = V (Proc.devRef .tc main_arg2) := by
  delta hostOps0 hostOps0_1 hostOps0_2
  after_results_simp

set_option maxHeartbeats 1000000 in
/-- No operation before the first region writes argument 3. -/
theorem e0_arg3 : StableHlo.after hostOps0_2 (StableHlo.after hostOps0_1 (StableHlo.after hostOps0 V)) (Proc.devRef .tc main_arg3) = V (Proc.devRef .tc main_arg3) := by
  delta hostOps0 hostOps0_1 hostOps0_2
  after_results_simp

set_option maxHeartbeats 1000000 in
/-- No operation before the first region writes argument 4. -/
theorem e0_arg4 : StableHlo.after hostOps0_2 (StableHlo.after hostOps0_1 (StableHlo.after hostOps0 V)) (Proc.devRef .tc main_arg4) = V (Proc.devRef .tc main_arg4) := by
  delta hostOps0 hostOps0_1 hostOps0_2
  after_results_simp

set_option maxHeartbeats 1000000 in
/-- No operation before the first region writes argument 5. -/
theorem e0_arg5 : StableHlo.after hostOps0_2 (StableHlo.after hostOps0_1 (StableHlo.after hostOps0 V)) (Proc.devRef .tc main_arg5) = V (Proc.devRef .tc main_arg5) := by
  delta hostOps0 hostOps0_1 hostOps0_2
  after_results_simp

set_option maxHeartbeats 1000000 in
/-- The first layer's edge-summed rows: the rows of the first argument gathered by source and summed by destination. -/
theorem e0_v24 : StableHlo.after hostOps0_2 (StableHlo.after hostOps0_1 (StableHlo.after hostOps0 V)) (Proc.devRef .tc main_v24) = Cert.Net.agg (V (Proc.devRef .tc main_arg0)) (V (Proc.devRef .tc main_arg4)) (V (Proc.devRef .tc main_arg5)) := by
  delta hostOps0 hostOps0_1 hostOps0_2
  after_results_simp
  rfl

/-! The reciprocal degree column, stage by stage: the comparison and the quotient the first stretch computes from the
    in-degrees, the selection between them, and the column the last stretch makes of it. -/

set_option maxHeartbeats 1000000 in
theorem s0_v5 : StableHlo.after hostOps0 V (Proc.devRef .tc main_v5) = cmpf .ogt (Cert.Net.deg (V (Proc.devRef .tc main_arg5))) (broadcastInDim S50000 ![] bcast_S_S50000 (constant S_ .f32 0x00000000#32)) := by
  delta hostOps0
  after_results_simp
  rfl

set_option maxHeartbeats 1000000 in
theorem s0_v9 : StableHlo.after hostOps0 V (Proc.devRef .tc main_v9) = Host.divf (broadcastInDim S50000 ![] bcast_S_S50000 (constant S_ .f32 0x3F800000#32)) (maximumf (Cert.Net.deg (V (Proc.devRef .tc main_arg5))) (broadcastInDim S50000 ![] bcast_S_S50000 (constant S_ .f32 0x3F800000#32))) := by
  delta hostOps0
  after_results_simp
  rfl

set_option maxHeartbeats 1000000 in
theorem s0_cst4 : StableHlo.after hostOps0 V (Proc.devRef .tc main_cst_4) = constant (F := Ideal) S_ .f32 0x00000000#32 := by
  delta hostOps0
  after_results_simp

set_option maxHeartbeats 1000000 in
theorem s01_v10 : StableHlo.after hostOps0_1 V (Proc.devRef .tc main_v10) = select (V (Proc.devRef .tc main_v5)) (V (Proc.devRef .tc main_v9)) (broadcastInDim S50000 ![] bcast_S_S50000 (id (V (Proc.devRef .tc main_cst_4)))) := by
  delta hostOps0_1
  after_results_simp
  rfl

set_option maxHeartbeats 1000000 in
theorem s02_v11 : StableHlo.after hostOps0_2 V (Proc.devRef .tc main_v11) = broadcastInDim S50000x1 ![0] bcast_S50000_S50000x1_0 (V (Proc.devRef .tc main_v10)) := by
  delta hostOps0_2
  after_results_simp

/-- The reciprocal degree column, from the destination list. -/
theorem e0_v11 : StableHlo.after hostOps0_2 (StableHlo.after hostOps0_1 (StableHlo.after hostOps0 V)) (Proc.devRef .tc main_v11) = Cert.Net.inv (V (Proc.devRef .tc main_arg5)) := by
  rw [s02_v11, s01_v10, s0_v5, s0_v9, s0_cst4]
  rfl

set_option maxHeartbeats 1000000 in
/-- The first layer's left matrix. -/
theorem e0_v26 : StableHlo.after hostOps0_2 (StableHlo.after hostOps0_1 (StableHlo.after hostOps0 V)) (Proc.devRef .tc main_v26) = Cert.Net.mat0 (V (Proc.devRef .tc main_arg1)) := by
  delta hostOps0 hostOps0_1 hostOps0_2
  after_results_simp
  rfl

set_option maxHeartbeats 1000000 in
/-- The first layer's bias, as a row. -/
theorem e0_v31 : StableHlo.after hostOps0_2 (StableHlo.after hostOps0_1 (StableHlo.after hostOps0 V)) (Proc.devRef .tc main_v31) = shapeCast S1x128 (Cert.Net.bias0 (V (Proc.devRef .tc main_arg2))) shapeCasts_S128_S1x128 := by
  delta hostOps0 hostOps0_1 hostOps0_2
  after_results_simp
  rfl

set_option maxHeartbeats 1000000 in
/-- The first layer's right matrix. -/
theorem e0_v30 : StableHlo.after hostOps0_2 (StableHlo.after hostOps0_1 (StableHlo.after hostOps0 V)) (Proc.devRef .tc main_v30) = Cert.Net.mat0 (V (Proc.devRef .tc main_arg3)) := by
  delta hostOps0 hostOps0_1 hostOps0_2
  after_results_simp
  rfl

/-! ### Between region 0 and region 1 -/

set_option maxHeartbeats 1000000 in
/-- No operation of this stretch writes argument 1. -/
theorem e1_arg1 : StableHlo.after hostOps1 V (Proc.devRef .tc main_arg1) = V (Proc.devRef .tc main_arg1) := by
  delta hostOps1
  after_results_simp

set_option maxHeartbeats 1000000 in
/-- No operation of this stretch writes argument 2. -/
theorem e1_arg2 : StableHlo.after hostOps1 V (Proc.devRef .tc main_arg2) = V (Proc.devRef .tc main_arg2) := by
  delta hostOps1
  after_results_simp

set_option maxHeartbeats 1000000 in
/-- No operation of this stretch writes argument 3. -/
theorem e1_arg3 : StableHlo.after hostOps1 V (Proc.devRef .tc main_arg3) = V (Proc.devRef .tc main_arg3) := by
  delta hostOps1
  after_results_simp

set_option maxHeartbeats 1000000 in
/-- No operation of this stretch writes argument 4. -/
theorem e1_arg4 : StableHlo.after hostOps1 V (Proc.devRef .tc main_arg4) = V (Proc.devRef .tc main_arg4) := by
  delta hostOps1
  after_results_simp

set_option maxHeartbeats 1000000 in
/-- No operation of this stretch writes argument 5. -/
theorem e1_arg5 : StableHlo.after hostOps1 V (Proc.devRef .tc main_arg5) = V (Proc.devRef .tc main_arg5) := by
  delta hostOps1
  after_results_simp

set_option maxHeartbeats 1000000 in
/-- The reciprocal degree column is not written. -/
theorem e1_v11 : StableHlo.after hostOps1 V (Proc.devRef .tc main_v11) = V (Proc.devRef .tc main_v11) := by
  delta hostOps1
  after_results_simp

set_option maxHeartbeats 1000000 in
/-- The clamped result of the region before is not written. -/
theorem e1_v32_1 : StableHlo.after hostOps1 V (Proc.devRef .tc main_v32_1) = V (Proc.devRef .tc main_v32_1) := by
  delta hostOps1
  after_results_simp

set_option maxHeartbeats 1000000 in
/-- The layer's edge-summed rows: the rows of the clamped result gathered by source and summed by destination. -/
theorem e1_v44 : StableHlo.after hostOps1 V (Proc.devRef .tc main_v44) = Cert.Net.agg (V (Proc.devRef .tc main_v32_1)) (V (Proc.devRef .tc main_arg4)) (V (Proc.devRef .tc main_arg5)) := by
  delta hostOps1
  after_results_simp
  rfl

set_option maxHeartbeats 1000000 in
/-- The layer's left matrix. -/
theorem e1_v46 : StableHlo.after hostOps1 V (Proc.devRef .tc main_v46) = Cert.Net.mat1 (V (Proc.devRef .tc main_arg1)) := by
  delta hostOps1
  after_results_simp
  rfl

set_option maxHeartbeats 1000000 in
/-- The layer's bias, as a row. -/
theorem e1_v51 : StableHlo.after hostOps1 V (Proc.devRef .tc main_v51) = shapeCast S1x128 (Cert.Net.bias1 (V (Proc.devRef .tc main_arg2))) shapeCasts_S128_S1x128 := by
  delta hostOps1
  after_results_simp
  rfl

set_option maxHeartbeats 1000000 in
/-- The layer's right matrix. -/
theorem e1_v50 : StableHlo.after hostOps1 V (Proc.devRef .tc main_v50) = Cert.Net.mat1 (V (Proc.devRef .tc main_arg3)) := by
  delta hostOps1
  after_results_simp
  rfl

set_option maxHeartbeats 1000000 in
/-- The wide result array is copied on. -/
theorem e1_v52_0 : StableHlo.after hostOps1 V (Proc.devRef .tc main_v52_0) = V (Proc.devRef .tc main_v32_0) := by
  delta hostOps1
  after_results_simp
  rfl

/-! ### Between region 1 and region 2 -/

set_option maxHeartbeats 1000000 in
/-- The reciprocal degree column is not written. -/
theorem e2_v11 : StableHlo.after hostOps2 V (Proc.devRef .tc main_v11) = V (Proc.devRef .tc main_v11) := by
  delta hostOps2
  after_results_simp

set_option maxHeartbeats 1000000 in
/-- The clamped result of the region before is not written. -/
theorem e2_v52_1 : StableHlo.after hostOps2 V (Proc.devRef .tc main_v52_1) = V (Proc.devRef .tc main_v52_1) := by
  delta hostOps2
  after_results_simp

set_option maxHeartbeats 1000000 in
/-- The layer's edge-summed rows: the rows of the clamped result gathered by source and summed by destination. -/
theorem e2_v64 : StableHlo.after hostOps2 V (Proc.devRef .tc main_v64) = Cert.Net.agg (V (Proc.devRef .tc main_v52_1)) (V (Proc.devRef .tc main_arg4)) (V (Proc.devRef .tc main_arg5)) := by
  delta hostOps2
  after_results_simp
  rfl

set_option maxHeartbeats 1000000 in
/-- The layer's left matrix. -/
theorem e2_v66 : StableHlo.after hostOps2 V (Proc.devRef .tc main_v66) = Cert.Net.mat2 (V (Proc.devRef .tc main_arg1)) := by
  delta hostOps2
  after_results_simp
  rfl

set_option maxHeartbeats 1000000 in
/-- The layer's bias, as a row. -/
theorem e2_v71 : StableHlo.after hostOps2 V (Proc.devRef .tc main_v71) = shapeCast S1x128 (Cert.Net.bias2 (V (Proc.devRef .tc main_arg2))) shapeCasts_S128_S1x128 := by
  delta hostOps2
  after_results_simp
  rfl

set_option maxHeartbeats 1000000 in
/-- The layer's right matrix. -/
theorem e2_v70 : StableHlo.after hostOps2 V (Proc.devRef .tc main_v70) = Cert.Net.mat2 (V (Proc.devRef .tc main_arg3)) := by
  delta hostOps2
  after_results_simp
  rfl

set_option maxHeartbeats 1000000 in
/-- The wide result array is copied on. -/
theorem e2_v72_0 : StableHlo.after hostOps2 V (Proc.devRef .tc main_v72_0) = V (Proc.devRef .tc main_v52_0) := by
  delta hostOps2
  after_results_simp
  rfl

/-! ### After the last region -/

/-- The result: the wide array's three column bands read as a middle axis. -/
theorem e3_v73 : StableHlo.after hostOps3 V (Proc.devRef .tc main_v73) = shapeCast S50000x3x128 (V (Proc.devRef .tc main_v72_0)) shapeCasts_S50000x384_S50000x3x128 := by
  delta hostOps3
  after_results_simp
  rfl

end Stretch

/-! ## The run's boundaries -/

section Boundaries

/-! ### The argument arrays hold their launch contents at every boundary a stretch reads them from -/

theorem W3_arg0 : W3 m ρ c (Proc.devRef .tc main_arg0) = m ((c.tc : Thread nD τ).loc main_arg0) := e0_arg0 (W0 m ρ c)
theorem W3_arg1 : W3 m ρ c (Proc.devRef .tc main_arg1) = m ((c.tc : Thread nD τ).loc main_arg1) := e0_arg1 (W0 m ρ c)
theorem W3_arg2 : W3 m ρ c (Proc.devRef .tc main_arg2) = m ((c.tc : Thread nD τ).loc main_arg2) := e0_arg2 (W0 m ρ c)
theorem W3_arg3 : W3 m ρ c (Proc.devRef .tc main_arg3) = m ((c.tc : Thread nD τ).loc main_arg3) := e0_arg3 (W0 m ρ c)
theorem W3_arg4 : W3 m ρ c (Proc.devRef .tc main_arg4) = m ((c.tc : Thread nD τ).loc main_arg4) := e0_arg4 (W0 m ρ c)
theorem W3_arg5 : W3 m ρ c (Proc.devRef .tc main_arg5) = m ((c.tc : Thread nD τ).loc main_arg5) := e0_arg5 (W0 m ρ c)
theorem W4_arg1 : W4 m ρ c (Proc.devRef .tc main_arg1) = m ((c.tc : Thread nD τ).loc main_arg1) :=
  (W4_of_ne m ρ c main_arg1 (by decide)).trans (W3_arg1 m ρ c)
theorem W5_arg1 : W5 m ρ c (Proc.devRef .tc main_arg1) = m ((c.tc : Thread nD τ).loc main_arg1) :=
  (e1_arg1 (W4 m ρ c)).trans (W4_arg1 m ρ c)
theorem W6_arg1 : W6 m ρ c (Proc.devRef .tc main_arg1) = m ((c.tc : Thread nD τ).loc main_arg1) :=
  (W6_of_ne m ρ c main_arg1 (by decide)).trans (W5_arg1 m ρ c)
theorem W4_arg2 : W4 m ρ c (Proc.devRef .tc main_arg2) = m ((c.tc : Thread nD τ).loc main_arg2) :=
  (W4_of_ne m ρ c main_arg2 (by decide)).trans (W3_arg2 m ρ c)
theorem W5_arg2 : W5 m ρ c (Proc.devRef .tc main_arg2) = m ((c.tc : Thread nD τ).loc main_arg2) :=
  (e1_arg2 (W4 m ρ c)).trans (W4_arg2 m ρ c)
theorem W6_arg2 : W6 m ρ c (Proc.devRef .tc main_arg2) = m ((c.tc : Thread nD τ).loc main_arg2) :=
  (W6_of_ne m ρ c main_arg2 (by decide)).trans (W5_arg2 m ρ c)
theorem W4_arg3 : W4 m ρ c (Proc.devRef .tc main_arg3) = m ((c.tc : Thread nD τ).loc main_arg3) :=
  (W4_of_ne m ρ c main_arg3 (by decide)).trans (W3_arg3 m ρ c)
theorem W5_arg3 : W5 m ρ c (Proc.devRef .tc main_arg3) = m ((c.tc : Thread nD τ).loc main_arg3) :=
  (e1_arg3 (W4 m ρ c)).trans (W4_arg3 m ρ c)
theorem W6_arg3 : W6 m ρ c (Proc.devRef .tc main_arg3) = m ((c.tc : Thread nD τ).loc main_arg3) :=
  (W6_of_ne m ρ c main_arg3 (by decide)).trans (W5_arg3 m ρ c)
theorem W4_arg4 : W4 m ρ c (Proc.devRef .tc main_arg4) = m ((c.tc : Thread nD τ).loc main_arg4) :=
  (W4_of_ne m ρ c main_arg4 (by decide)).trans (W3_arg4 m ρ c)
theorem W5_arg4 : W5 m ρ c (Proc.devRef .tc main_arg4) = m ((c.tc : Thread nD τ).loc main_arg4) :=
  (e1_arg4 (W4 m ρ c)).trans (W4_arg4 m ρ c)
theorem W6_arg4 : W6 m ρ c (Proc.devRef .tc main_arg4) = m ((c.tc : Thread nD τ).loc main_arg4) :=
  (W6_of_ne m ρ c main_arg4 (by decide)).trans (W5_arg4 m ρ c)
theorem W4_arg5 : W4 m ρ c (Proc.devRef .tc main_arg5) = m ((c.tc : Thread nD τ).loc main_arg5) :=
  (W4_of_ne m ρ c main_arg5 (by decide)).trans (W3_arg5 m ρ c)
theorem W5_arg5 : W5 m ρ c (Proc.devRef .tc main_arg5) = m ((c.tc : Thread nD τ).loc main_arg5) :=
  (e1_arg5 (W4 m ρ c)).trans (W4_arg5 m ρ c)
theorem W6_arg5 : W6 m ρ c (Proc.devRef .tc main_arg5) = m ((c.tc : Thread nD τ).loc main_arg5) :=
  (W6_of_ne m ρ c main_arg5 (by decide)).trans (W5_arg5 m ρ c)

/-! ### The reciprocal degree column is an input array of every region: a region leaves it as entered -/

theorem W4_v11 : W4 m ρ c (Proc.devRef .tc main_v11) = W3 m ρ c (Proc.devRef .tc main_v11) :=
  (W4_arr m ρ c 1).trans (((dat0 (V3 m ρ) c).arrAt_in 1 rfl _).trans (A_eq0 (V3 m ρ) c 1))
theorem W6_v11 : W6 m ρ c (Proc.devRef .tc main_v11) = W5 m ρ c (Proc.devRef .tc main_v11) :=
  (W6_arr m ρ c 1).trans (((dat1 (V5 m ρ) c).arrAt_in 1 rfl _).trans (A_eq1 (V5 m ρ) c 1))

/-! ### What region 0 is handed -/

/-- The edge-summed rows of the first argument. -/
theorem V3_v24 : V3 m ρ c main_v24 = Cert.Net.agg (m ((c.tc : Thread nD τ).loc main_arg0)) (m ((c.tc : Thread nD τ).loc main_arg4)) (m ((c.tc : Thread nD τ).loc main_arg5)) := e0_v24 (W0 m ρ c)
/-- The reciprocal degree column. -/
theorem V3_v11 : V3 m ρ c main_v11 = Cert.Net.inv (m ((c.tc : Thread nD τ).loc main_arg5)) := e0_v11 (W0 m ρ c)
/-- The layer's input: the first argument. -/
theorem V3_arg0 : V3 m ρ c main_arg0 = m ((c.tc : Thread nD τ).loc main_arg0) := W3_arg0 m ρ c
/-- The left matrix. -/
theorem V3_v26 : V3 m ρ c main_v26 = Cert.Net.mat0 (m ((c.tc : Thread nD τ).loc main_arg1)) := e0_v26 (W0 m ρ c)
/-- The bias row. -/
theorem V3_v31 : V3 m ρ c main_v31 = shapeCast S1x128 (Cert.Net.bias0 (m ((c.tc : Thread nD τ).loc main_arg2))) shapeCasts_S128_S1x128 := e0_v31 (W0 m ρ c)
/-- The right matrix. -/
theorem V3_v30 : V3 m ρ c main_v30 = Cert.Net.mat0 (m ((c.tc : Thread nD τ).loc main_arg3)) := e0_v30 (W0 m ρ c)

/-! ### What region 1 is handed, from what region 0 left -/

/-- The edge-summed rows of the clamped result region 0 left. -/
theorem V5_v44 : V5 m ρ c main_v44 = Cert.Net.agg (W4 m ρ c (Proc.devRef .tc main_v32_1)) (m ((c.tc : Thread nD τ).loc main_arg4)) (m ((c.tc : Thread nD τ).loc main_arg5)) :=
  (e1_v44 (W4 m ρ c)).trans (by rw [W4_arg4 m ρ c, W4_arg5 m ρ c])
/-- The reciprocal degree column. -/
theorem V5_v11 : V5 m ρ c main_v11 = Cert.Net.inv (m ((c.tc : Thread nD τ).loc main_arg5)) :=
  (e1_v11 (W4 m ρ c)).trans ((W4_v11 m ρ c).trans (V3_v11 m ρ c))
/-- The layer's input: the clamped result region 0 left. -/
theorem V5_v32_1 : V5 m ρ c main_v32_1 = W4 m ρ c (Proc.devRef .tc main_v32_1) := e1_v32_1 (W4 m ρ c)
/-- The left matrix. -/
theorem V5_v46 : V5 m ρ c main_v46 = Cert.Net.mat1 (m ((c.tc : Thread nD τ).loc main_arg1)) :=
  (e1_v46 (W4 m ρ c)).trans (by rw [W4_arg1 m ρ c])
/-- The bias row. -/
theorem V5_v51 : V5 m ρ c main_v51 = shapeCast S1x128 (Cert.Net.bias1 (m ((c.tc : Thread nD τ).loc main_arg2))) shapeCasts_S128_S1x128 :=
  (e1_v51 (W4 m ρ c)).trans (by rw [W4_arg2 m ρ c])
/-- The right matrix. -/
theorem V5_v50 : V5 m ρ c main_v50 = Cert.Net.mat1 (m ((c.tc : Thread nD τ).loc main_arg3)) :=
  (e1_v50 (W4 m ρ c)).trans (by rw [W4_arg3 m ρ c])
/-- The wide result array, as region 0 left it. -/
theorem V5_v52_0 : V5 m ρ c main_v52_0 = W4 m ρ c (Proc.devRef .tc main_v32_0) := e1_v52_0 (W4 m ρ c)

/-! ### What region 2 is handed, from what region 1 left -/

/-- The edge-summed rows of the clamped result region 1 left. -/
theorem V7_v64 : V7 m ρ c main_v64 = Cert.Net.agg (W6 m ρ c (Proc.devRef .tc main_v52_1)) (m ((c.tc : Thread nD τ).loc main_arg4)) (m ((c.tc : Thread nD τ).loc main_arg5)) :=
  (e2_v64 (W6 m ρ c)).trans (by rw [W6_arg4 m ρ c, W6_arg5 m ρ c])
/-- The reciprocal degree column. -/
theorem V7_v11 : V7 m ρ c main_v11 = Cert.Net.inv (m ((c.tc : Thread nD τ).loc main_arg5)) :=
  (e2_v11 (W6 m ρ c)).trans ((W6_v11 m ρ c).trans (V5_v11 m ρ c))
/-- The layer's input: the clamped result region 1 left. -/
theorem V7_v52_1 : V7 m ρ c main_v52_1 = W6 m ρ c (Proc.devRef .tc main_v52_1) := e2_v52_1 (W6 m ρ c)
/-- The left matrix. -/
theorem V7_v66 : V7 m ρ c main_v66 = Cert.Net.mat2 (m ((c.tc : Thread nD τ).loc main_arg1)) :=
  (e2_v66 (W6 m ρ c)).trans (by rw [W6_arg1 m ρ c])
/-- The bias row. -/
theorem V7_v71 : V7 m ρ c main_v71 = shapeCast S1x128 (Cert.Net.bias2 (m ((c.tc : Thread nD τ).loc main_arg2))) shapeCasts_S128_S1x128 :=
  (e2_v71 (W6 m ρ c)).trans (by rw [W6_arg2 m ρ c])
/-- The right matrix. -/
theorem V7_v70 : V7 m ρ c main_v70 = Cert.Net.mat2 (m ((c.tc : Thread nD τ).loc main_arg3)) :=
  (e2_v70 (W6 m ρ c)).trans (by rw [W6_arg3 m ρ c])
/-- The wide result array, as region 1 left it. -/
theorem V7_v72_0 : V7 m ρ c main_v72_0 = W6 m ρ c (Proc.devRef .tc main_v52_0) := e2_v72_0 (W6 m ρ c)

/-! ### The result, and what each region leaves in its two output arrays -/

/-- The result buffer: the wide array region 2 left, its three column bands read as a middle axis. -/
theorem W9_v73 : W9 m ρ c (Proc.devRef .tc main_v73) = shapeCast S50000x3x128 (W8 m ρ c (Proc.devRef .tc main_v72_0)) shapeCasts_S50000x384_S50000x3x128 :=
  e3_v73 (W8 m ρ c)

theorem W4_v32_0 : W4 m ρ c (Proc.devRef .tc main_v32_0) = (dat0 (V3 m ρ) c).arrAt 7 cfg0.N := W4_arr m ρ c 7
theorem W4_v32_1 : W4 m ρ c (Proc.devRef .tc main_v32_1) = (dat0 (V3 m ρ) c).arrAt 8 cfg0.N := W4_arr m ρ c 8
theorem W6_v52_0 : W6 m ρ c (Proc.devRef .tc main_v52_0) = (dat1 (V5 m ρ) c).arrAt 7 cfg1.N := W6_arr m ρ c 7
theorem W6_v52_1 : W6 m ρ c (Proc.devRef .tc main_v52_1) = (dat1 (V5 m ρ) c).arrAt 8 cfg1.N := W6_arr m ρ c 8
theorem W8_v72_0 : W8 m ρ c (Proc.devRef .tc main_v72_0) = (dat2 (V7 m ρ) c).arrAt 7 cfg2.N := W8_arr m ρ c 7

end Boundaries

end Cert.KernelIdeal.Hosts

end
-- ==== Proof.KValue.lean ====
/-
  The kernel program's result, as the network of its six arguments.

  The program runs three regions between stretches of host operations.  Before each region the host forms that layer's
  operands: the sums of neighbour rows of the layer's input, the reciprocal degrees, and one slice of each parameter
  stack; the layer's input is the program's first argument for the first region and the previous region's clamped result
  for the other two; the wide array is handed from one region to the next unchanged.  Each region leaves the layer with
  its maximum in its narrow result and the layer without it in its own 128 columns of the wide array, the other columns
  as found.  After the third region the host regroups the wide array's 384 columns as 3 groups of 128.

  Chaining these facts through the boundaries between the segments gives the specification's output.
-/
import proofs.«127925_j33998961116076_2_alg».proof.Proof.Region0
import proofs.«127925_j33998961116076_2_alg».proof.Proof.Region1
import proofs.«127925_j33998961116076_2_alg».proof.Proof.Region2
import proofs.«127925_j33998961116076_2_alg».proof.Proof.Join
import proofs.«127925_j33998961116076_2_alg».proof.Proof.Hosts

set_option maxRecDepth 16384

noncomputable section

open Idealize.ShloMosaic Idealize.ShloMosaic.TcCoe Idealize.ShloMosaic.ValueIdx Idealize.SL.Sem

namespace Cert.KernelIdeal.KValue

variable (m : (ℓ : Loc nD τ sig) → Buf (Elt Ideal) ℓ) (ρ : Dev nD → PrngReg) (c : Dev nD)

/-- The chain through the segment boundaries, from what the host stretches leave at each region's entry. -/
theorem result_of
    (x : Cert.Net.Rows) (Wl : FVec Ideal Cert.ReferenceIdeal.S3x128x128 .f32) (bl : FVec Ideal Cert.ReferenceIdeal.S3x128 .f32)
    (Wr : FVec Ideal Cert.ReferenceIdeal.S3x128x128 .f32) (src dst : Cert.Net.Edges)
    (hsc : Cert.ReferenceIdeal.S128.ShapeCasts Cert.ReferenceIdeal.S1x128)
    (hcast : (⟨2, ![50000, 384]⟩ : Shape).ShapeCasts Cert.ReferenceIdeal.S50000x3x128)
    -- what region 0 finds
    (a0 : Gen.V3 m ρ c main_v24 = Cert.Net.agg x src dst)
    (a1 : Gen.V3 m ρ c main_v11 = Cert.Net.inv dst)
    (a2 : Gen.V3 m ρ c main_arg0 = x)
    (a3 : Gen.V3 m ρ c main_v26 = Cert.Net.mat0 Wl)
    (a4 : Gen.V3 m ρ c main_v31 = shapeCast Cert.ReferenceIdeal.S1x128 (Cert.Net.bias0 bl) hsc)
    (a5 : Gen.V3 m ρ c main_v30 = Cert.Net.mat0 Wr)
    -- what region 1 finds
    (b0 : Gen.V5 m ρ c main_v44 = Cert.Net.agg (Gen.W4 m ρ c (Proc.devRef .tc main_v32_1)) src dst)
    (b1 : Gen.V5 m ρ c main_v11 = Cert.Net.inv dst)
    (b2 : Gen.V5 m ρ c main_v32_1 = Gen.W4 m ρ c (Proc.devRef .tc main_v32_1))
    (b3 : Gen.V5 m ρ c main_v46 = Cert.Net.mat1 Wl)
    (b4 : Gen.V5 m ρ c main_v51 = shapeCast Cert.ReferenceIdeal.S1x128 (Cert.Net.bias1 bl) hsc)
    (b5 : Gen.V5 m ρ c main_v50 = Cert.Net.mat1 Wr)
    (b6 : Gen.V5 m ρ c main_v52_0 = Gen.W4 m ρ c (Proc.devRef .tc main_v32_0))
    -- what region 2 finds
    (c0 : Gen.V7 m ρ c main_v64 = Cert.Net.agg (Gen.W6 m ρ c (Proc.devRef .tc main_v52_1)) src dst)
    (c1 : Gen.V7 m ρ c main_v11 = Cert.Net.inv dst)
    (c2 : Gen.V7 m ρ c main_v52_1 = Gen.W6 m ρ c (Proc.devRef .tc main_v52_1))
    (c3 : Gen.V7 m ρ c main_v66 = Cert.Net.mat2 Wl)
    (c4 : Gen.V7 m ρ c main_v71 = shapeCast Cert.ReferenceIdeal.S1x128 (Cert.Net.bias2 bl) hsc)
    (c5 : Gen.V7 m ρ c main_v70 = Cert.Net.mat2 Wr)
    (c6 : Gen.V7 m ρ c main_v72_0 = Gen.W6 m ρ c (Proc.devRef .tc main_v52_0))
    -- the regrouping after the last region
    (w9 : Gen.W9 m ρ c (Proc.devRef .tc main_v73)
      = shapeCast Cert.ReferenceIdeal.S50000x3x128 (Gen.W8 m ρ c (Proc.devRef .tc main_v72_0) : Cert.Chain.Wide) hcast) :
    Gen.W9 m ρ c (Proc.devRef .tc main_v73) = Cert.Net.out x Wl bl Wr src dst := by
  refine w9.trans ?_
  refine Cert.Join.join x Wl bl Wr src dst hsc hcast
    (Gen.V3 m ρ c main_v32_0) (Gen.W4 m ρ c (Proc.devRef .tc main_v32_0)) (Gen.W6 m ρ c (Proc.devRef .tc main_v52_0))
    (Gen.W8 m ρ c (Proc.devRef .tc main_v72_0))
    (Gen.W4 m ρ c (Proc.devRef .tc main_v32_1)) (Gen.W6 m ρ c (Proc.devRef .tc main_v52_1)) ?_ ?_ ?_ ?_ ?_
  · -- region 0's narrow result
    refine ((Gen.W4_arr m ρ c 8).trans (Region0.act_out (Gen.V3 m ρ) c)).trans ?_
    rw [a0, a1, a2, a3, a4, a5]
  · -- region 0's wide result
    intro i
    refine ((congrFun (Gen.W4_arr m ρ c 7) i).trans (Region0.raw_out (Gen.V3 m ρ) c i)).trans ?_
    rw [a0, a1, a2, a3, a4, a5]
  · -- region 1's narrow result
    refine ((Gen.W6_arr m ρ c 8).trans (Region1.act_out (Gen.V5 m ρ) c)).trans ?_
    rw [b0, b1, b2, b3, b4, b5]
  · -- region 1's wide result
    intro i
    refine ((congrFun (Gen.W6_arr m ρ c 7) i).trans (Region1.raw_out (Gen.V5 m ρ) c i)).trans ?_
    rw [b0, b1, b2, b3, b4, b5, b6]
  · -- region 2's wide result
    intro i
    refine ((congrFun (Gen.W8_arr m ρ c 7) i).trans (Region2.raw_out (Gen.V7 m ρ) c i)).trans ?_
    rw [c0, c1, c2, c3, c4, c5, c6]

/-- The kernel program's result buffer ends holding the network's output of the six arguments. -/
theorem result :
    Gen.W9 m ρ c (Proc.devRef .tc main_v73)
      = Cert.Net.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  result_of m ρ c (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    Gen.shapeCasts_S128_S1x128 Gen.shapeCasts_S50000x384_S50000x3x128
    (Hosts.V3_v24 m ρ c) (Hosts.V3_v11 m ρ c) (Hosts.V3_arg0 m ρ c) (Hosts.V3_v26 m ρ c) (Hosts.V3_v31 m ρ c)
    (Hosts.V3_v30 m ρ c)
    (Hosts.V5_v44 m ρ c) (Hosts.V5_v11 m ρ c) (Hosts.V5_v32_1 m ρ c) (Hosts.V5_v46 m ρ c) (Hosts.V5_v51 m ρ c)
    (Hosts.V5_v50 m ρ c) (Hosts.V5_v52_0 m ρ c)
    (Hosts.V7_v64 m ρ c) (Hosts.V7_v11 m ρ c) (Hosts.V7_v52_1 m ρ c) (Hosts.V7_v66 m ρ c) (Hosts.V7_v71 m ρ c)
    (Hosts.V7_v70 m ρ c) (Hosts.V7_v72_0 m ρ c)
    (Hosts.W9_v73 m ρ c)

end Cert.KernelIdeal.KValue

end
-- ==== Proof.Ref.lean ====
/-
  The reference program's result is the network of the specification: its run's composed term, with the
  layers named, is that term letter for letter.
-/
import proofs.«127925_j33998961116076_2_alg».proof.Proof.RefRun
import proofs.«127925_j33998961116076_2_alg».proof.Proof.Net

set_option maxRecDepth 65536

noncomputable section

namespace Cert.RefSide

open Cert.ReferenceIdeal Cert.ReferenceIdeal.Gen Idealize.ShloMosaic Idealize.ShloMosaic.TcCoe Idealize.SL.Sem Idealize.ShloMosaic.StableHlo

theorem result_eq (m : (ℓ : Loc nD τ sig) → Buf (Elt Ideal) ℓ) (c : Dev nD) :
    Cert.ReferenceIdeal.ValueP.res_main_v89 (F := Ideal) m c
      = Cert.Net.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

end Cert.RefSide

end
-- ==== Proof.lean ====
/-
  The certificate of a three-layer mean-aggregation graph network: the kernel program against its reference, on
  the extended reals.

  Both programs compute, for every node, three layers of
      (sum over incoming edges of the source rows, scaled by the reciprocal in-degree) · Wl + bias + h · Wr,
  feeding each layer's result, with its negative entries replaced by zero, to the next, and return the three results
  before the clamp.  The kernel program forms the edge sums on the host, runs one pipelined region per layer over
  blocks of 2000 nodes — each block's result written into its layer's 128 columns of one array of 384 columns, the
  clamped result into a second array — and regroups the wide array at the end; the reference computes whole arrays
  and lays the three results side by side.  The two differ only in the order of the three-term sum
  ((a + c) + b against (a + b) + c: addition on the extended reals is commutative and associative, so no
  finiteness is needed) and in layout.

  The three frames: the two kernel programs' are the generated frame certificates; the reference's is its run with the
  result dropped.  The idealization rewrote nothing, so the second claim is trivial.  For the last claim the kernel
  program's run ends with its result buffer at the contents the last host stretch leaves (the regrouped wide array),
  and that array is the specification's output, entry by entry: column block l of the wide array is layer l's result,
  written by region l and kept by the later regions.
-/
import proofs.«127925_j33998961116076_2_alg».proof.Defs
import proofs.«127925_j33998961116076_2_alg».proof.Proof.Gen.Kernel
import proofs.«127925_j33998961116076_2_alg».proof.Proof.Gen.Kernel.Frame
import proofs.«127925_j33998961116076_2_alg».proof.Proof.Gen.KernelIdeal
import proofs.«127925_j33998961116076_2_alg».proof.Proof.Gen.KernelIdeal.Frame
import proofs.«127925_j33998961116076_2_alg».proof.Proof.Gen.ReferenceIdeal
import proofs.«127925_j33998961116076_2_alg».proof.Proof.Gen.Pre_finite_inputs
import proofs.«127925_j33998961116076_2_alg».proof.Proof.KRun
import proofs.«127925_j33998961116076_2_alg».proof.Proof.KValue
import proofs.«127925_j33998961116076_2_alg».proof.Proof.RefRun
import proofs.«127925_j33998961116076_2_alg».proof.Proof.Ref
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- Both programs run and end with equal results: the kernel program's result buffer holds the regrouped wide array,
    which is the specification's output of its arguments; the reference's result is the specification's output of its
    own arguments, which agree with the kernel program's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W9 m ρ c (Proc.devRef .tc Cert.KernelIdeal.main_v73),
    Cert.KernelIdeal.Run.run_W9 (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.RefSide.result_eq, (hagree c).1, (hagree c).2.1, (hagree c).2.2.1, (hagree c).2.2.2.1, (hagree c).2.2.2.2.1,
    (hagree c).2.2.2.2.2]
  exact (Cert.KernelIdeal.KValue.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
